-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x32 : Shape := ⟨2, ![128, 32]⟩
abbrev S32 : Shape := ⟨1, ![32]⟩
abbrev S32x32 : Shape := ⟨2, ![32, 32]⟩
abbrev S32x8 : Shape := ⟨2, ![32, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x8 : S_.BroadcastsInDim S32x8 (![] : Fin 0 → Fin S32x8.rank)
  reducesTo_S32x8_S_d0_1 : S32x8.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg9 : FVec F S32x8 .f32) (main_arg10 : FVec F S8 .f32) (main_v33 : IVec S_ 1) : IVec S_ 1 :=
  let main_v34 : FVec F S32x8 .f32 := Host.absf main_arg9
  let main_cst_12 : FVec F S_ .f32 := constant S_ .f32 0x7F800000#32
  let main_v35 : FVec F S32x8 .f32 := broadcastInDim S32x8 ![] bcast_S_S32x8 main_cst_12
  let main_v36 : IVec S32x8 1 := cmpf .olt main_v34 main_v35
  let main_c_13 : IVec S_ 1 := constantI S_ 1 1#1
  let main_v37 : IVec S_ 1 := (fun x v => Host.reduce IntOp.andi x v reducesTo_S32x8_S_d0_1 h_S_) main_v36 main_c_13
  let main_v38 : IVec S_ 1 := andi main_v33 main_v37
  let main_v39 : FVec F S8 .f32 := Host.absf main_arg10
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  main_v43

def fn_part1 {F : FTy → Type} [FloatOps F] (main_arg6 : FVec F S32 .f32) (main_arg7 : FVec F S32x32 .f32) (main_arg8 : FVec F S32 .f32) (main_arg9 : FVec F S32x8 .f32) (main_arg10 : FVec F S8 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg7
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S1600000 32) (main_arg2 : IVec S1600000 32) (main_arg3 : FVec F S128x32 .f32) (main_arg4 : FVec F S32 .f32) (main_arg5 : FVec F S32x32 .f32) (main_arg6 : FVec F S32 .f32) (main_arg7 : FVec F S32x32 .f32) (main_arg8 : FVec F S32 .f32) (main_arg9 : FVec F S32x8 .f32) (main_arg10 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg3
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S1600000 : Shape := ⟨1, ![1600000]⟩
abbrev S128x32 : Shape := ⟨2, ![128, 32]⟩
abbrev S32 : Shape := ⟨1, ![32]⟩
abbrev S32x32 : Shape := ⟨2, ![32, 32]⟩
abbrev S32x8 : Shape := ⟨2, ![32, 8]⟩
abbrev S8 : Shape := ⟨1, ![8]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x32 : Shape := ⟨2, ![100000, 32]⟩
abbrev S4000x128 : Shape := ⟨2, ![4000, 128]⟩
abbrev S4000x1 : Shape := ⟨2, ![4000, 1]⟩
abbrev S4000x32 : Shape := ⟨2, ![4000, 32]⟩
abbrev S1600000x32 : Shape := ⟨2, ![1600000, 32]⟩
abbrev S1x32 : Shape := ⟨2, ![1, 32]⟩
abbrev S100000x8 : Shape := ⟨2, ![100000, 8]⟩
abbrev S4000x8 : Shape := ⟨2, ![4000, 8]⟩
abbrev S1600000x8 : Shape := ⟨2, ![1600000, 8]⟩
abbrev S1x8 : Shape := ⟨2, ![1, 8]⟩

abbrev nBuf : Space → Nat
  | .hbm => 101
  | .vmem => 56
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S32x8, .f32⟩
  | .hbm, ⟨10, _⟩ => ⟨S8, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x32, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x32, .f32⟩
  | .hbm, ⟨40, _⟩ => ⟨S_, .f32⟩
  | .hbm, ⟨41, _⟩ => ⟨S100000x32, .f32⟩
  | .hbm, ⟨42, _⟩ => ⟨S1600000x1, .i32⟩
  | .hbm, ⟨43, _⟩ => ⟨S100000x32, .f32⟩
  | .hbm, ⟨44, _⟩ => ⟨S100000x1, .f32⟩
  | .hbm, ⟨45, _⟩ => ⟨S1x32, .f32⟩
  | .hbm, ⟨46, _⟩ => ⟨S100000x32, .f32⟩
  | .hbm, ⟨47, _⟩ => ⟨S100000x1, .f32⟩
  | .hbm, ⟨48, _⟩ => ⟨S100000x32, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x32, .f32⟩
  | .hbm, ⟨58, _⟩ => ⟨S_, .f32⟩
  | .hbm, ⟨59, _⟩ => ⟨S100000x32, .f32⟩
  | .hbm, ⟨60, _⟩ => ⟨S1600000x1, .i32⟩
  | .hbm, ⟨61, _⟩ => ⟨S100000x32, .f32⟩
  | .hbm, ⟨62, _⟩ => ⟨S100000x1, .f32⟩
  | .hbm, ⟨63, _⟩ => ⟨S1x32, .f32⟩
  | .hbm, ⟨64, _⟩ => ⟨S100000x32, .f32⟩
  | .hbm, ⟨65, _⟩ => ⟨S100000x1, .f32⟩
  | .hbm, ⟨66, _⟩ => ⟨S100000x32, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x32, .f32⟩
  | .hbm, ⟨76, _⟩ => ⟨S_, .f32⟩
  | .hbm, ⟨77, _⟩ => ⟨S100000x32, .f32⟩
  | .hbm, ⟨78, _⟩ => ⟨S1600000x1, .i32⟩
  | .hbm, ⟨79, _⟩ => ⟨S100000x32, .f32⟩
  | .hbm, ⟨80, _⟩ => ⟨S100000x1, .f32⟩
  | .hbm, ⟨81, _⟩ => ⟨S1x32, .f32⟩
  | .hbm, ⟨82, _⟩ => ⟨S100000x32, .f32⟩
  | .hbm, ⟨83, _⟩ => ⟨S100000x1, .f32⟩
  | .hbm, ⟨84, _⟩ => ⟨S100000x8, .f32⟩
  | .hbm, ⟨85, _⟩ => ⟨S_, .i32⟩
  | .hbm, ⟨86, _⟩ => ⟨S1600000, .i32⟩
  | .hbm, ⟨87, _⟩ => ⟨S1600000, .i1⟩
  | .hbm, ⟨88, _⟩ => ⟨S_, .i32⟩
  | .hbm, ⟨89, _⟩ => ⟨S1600000, .i32⟩
  | .hbm, ⟨90, _⟩ => ⟨S1600000, .i32⟩
  | .hbm, ⟨91, _⟩ => ⟨S1600000, .i32⟩
  | .hbm, ⟨92, _⟩ => ⟨S1600000x1, .i32⟩
  | .hbm, ⟨93, _⟩ => ⟨S1600000x8, .f32⟩
  | .hbm, ⟨94, _⟩ => ⟨S_, .f32⟩
  | .hbm, ⟨95, _⟩ => ⟨S100000x8, .f32⟩
  | .hbm, ⟨96, _⟩ => ⟨S1600000x1, .i32⟩
  | .hbm, ⟨97, _⟩ => ⟨S100000x8, .f32⟩
  | .hbm, ⟨98, _⟩ => ⟨S100000x1, .f32⟩
  | .hbm, ⟨99, _⟩ => ⟨S1x8, .f32⟩
  | .hbm, ⟨100, _⟩ => ⟨S100000x8, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S128x32, .f32⟩
  | .local _ .vmem, ⟨5, _⟩ => ⟨S4000x32, .f32⟩
  | .local _ .vmem, ⟨6, _⟩ => ⟨S4000x32, .f32⟩
  | .local _ .vmem, ⟨7, _⟩ => ⟨S4000x32, .f32⟩
  | .local _ .vmem, ⟨8, _⟩ => ⟨S4000x32, .f32⟩
  | .local _ .vmem, ⟨9, _⟩ => ⟨S4000x1, .f32⟩
  | .local _ .vmem, ⟨10, _⟩ => ⟨S4000x1, .f32⟩
  | .local _ .vmem, ⟨11, _⟩ => ⟨S1x32, .f32⟩
  | .local _ .vmem, ⟨12, _⟩ => ⟨S4000x32, .f32⟩
  | .local _ .vmem, ⟨13, _⟩ => ⟨S4000x32, .f32⟩
  | .local _ .vmem, ⟨14, _⟩ => ⟨S4000x32, .f32⟩
  | .local _ .vmem, ⟨15, _⟩ => ⟨S4000x32, .f32⟩
  | .local _ .vmem, ⟨16, _⟩ => ⟨S4000x1, .f32⟩
  | .local _ .vmem, ⟨17, _⟩ => ⟨S4000x1, .f32⟩
  | .local _ .vmem, ⟨18, _⟩ => ⟨S32x32, .f32⟩
  | .local _ .vmem, ⟨19, _⟩ => ⟨S4000x32, .f32⟩
  | .local _ .vmem, ⟨20, _⟩ => ⟨S4000x32, .f32⟩
  | .local _ .vmem, ⟨21, _⟩ => ⟨S4000x32, .f32⟩
  | .local _ .vmem, ⟨22, _⟩ => ⟨S4000x32, .f32⟩
  | .local _ .vmem, ⟨23, _⟩ => ⟨S4000x1, .f32⟩
  | .local _ .vmem, ⟨24, _⟩ => ⟨S4000x1, .f32⟩
  | .local _ .vmem, ⟨25, _⟩ => ⟨S1x32, .f32⟩
  | .local _ .vmem, ⟨26, _⟩ => ⟨S4000x32, .f32⟩
  | .local _ .vmem, ⟨27, _⟩ => ⟨S4000x32, .f32⟩
  | .local _ .vmem, ⟨28, _⟩ => ⟨S4000x32, .f32⟩
  | .local _ .vmem, ⟨29, _⟩ => ⟨S4000x32, .f32⟩
  | .local _ .vmem, ⟨30, _⟩ => ⟨S4000x1, .f32⟩
  | .local _ .vmem, ⟨31, _⟩ => ⟨S4000x1, .f32⟩
  | .local _ .vmem, ⟨32, _⟩ => ⟨S32x32, .f32⟩
  | .local _ .vmem, ⟨33, _⟩ => ⟨S4000x32, .f32⟩
  | .local _ .vmem, ⟨34, _⟩ => ⟨S4000x32, .f32⟩
  | .local _ .vmem, ⟨35, _⟩ => ⟨S4000x32, .f32⟩
  | .local _ .vmem, ⟨36, _⟩ => ⟨S4000x32, .f32⟩
  | .local _ .vmem, ⟨37, _⟩ => ⟨S4000x1, .f32⟩
  | .local _ .vmem, ⟨38, _⟩ => ⟨S4000x1, .f32⟩
  | .local _ .vmem, ⟨39, _⟩ => ⟨S1x32, .f32⟩
  | .local _ .vmem, ⟨40, _⟩ => ⟨S4000x32, .f32⟩
  | .local _ .vmem, ⟨41, _⟩ => ⟨S4000x32, .f32⟩
  | .local _ .vmem, ⟨42, _⟩ => ⟨S4000x32, .f32⟩
  | .local _ .vmem, ⟨43, _⟩ => ⟨S4000x32, .f32⟩
  | .local _ .vmem, ⟨44, _⟩ => ⟨S4000x1, .f32⟩
  | .local _ .vmem, ⟨45, _⟩ => ⟨S4000x1, .f32⟩
  | .local _ .vmem, ⟨46, _⟩ => ⟨S32x8, .f32⟩
  | .local _ .vmem, ⟨47, _⟩ => ⟨S4000x8, .f32⟩
  | .local _ .vmem, ⟨48, _⟩ => ⟨S4000x8, .f32⟩
  | .local _ .vmem, ⟨49, _⟩ => ⟨S4000x8, .f32⟩
  | .local _ .vmem, ⟨50, _⟩ => ⟨S4000x8, .f32⟩
  | .local _ .vmem, ⟨51, _⟩ => ⟨S4000x1, .f32⟩
  | .local _ .vmem, ⟨52, _⟩ => ⟨S4000x1, .f32⟩
  | .local _ .vmem, ⟨53, _⟩ => ⟨S1x8, .f32⟩
  | .local _ .vmem, ⟨54, _⟩ => ⟨S4000x8, .f32⟩
  | .local _ .vmem, ⟨55, _⟩ => ⟨S4000x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_9 : Ref sig .tc := ⟨.hbm, 67, rfl⟩
abbrev main_v45 : Ref sig .tc := ⟨.hbm, 68, rfl⟩
abbrev main_v46 : Ref sig .tc := ⟨.hbm, 69, rfl⟩
abbrev main_c_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_12 : Ref sig .tc := ⟨.hbm, 85, rfl⟩
abbrev main_v60 : Ref sig .tc := ⟨.hbm, 86, rfl⟩
abbrev main_v61 : Ref sig .tc := ⟨.hbm, 87, rfl⟩
abbrev main_c_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_14 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg3_0 : Ref sig .tc := ⟨.vmem, 47, rfl⟩
abbrev cc6_stg3_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg1_1 : Ref sig .tc := ⟨.vmem, 52, rfl⟩
abbrev cc7_stg2_0 : Ref sig .tc := ⟨.vmem, 53, rfl⟩
abbrev cc7_stg3_0 : Ref sig .tc := ⟨.vmem, 54, rfl⟩
abbrev cc7_stg3_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem3_0 : DmaSem sig := 47
abbrev cc6_sem3_1 : DmaSem sig := 48
abbrev cc7_sem0_0 : DmaSem sig := 49
abbrev cc7_sem0_1 : DmaSem sig := 50
abbrev cc7_sem1_0 : DmaSem sig := 51
abbrev cc7_sem1_1 : DmaSem sig := 52
abbrev cc7_sem2_0 : DmaSem sig := 53
abbrev cc7_sem3_0 : DmaSem sig := 54
abbrev cc7_sem3_1 : DmaSem sig := 55

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S32x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S4000x32 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S32x8 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S4000x8 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x8 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S4000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x8 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S4000x8 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S4000x32_S4000x32_0_0 : ∀ a, (![0, 0] : Fin 2 → Nat) a + S4000x32.size a ≤ S4000x32.size a
  h_S4000x32 : 0 < S4000x32.numel
  bcast_S_S100000x32 : S_.BroadcastsInDim S100000x32 (![] : Fin 0 → Fin S100000x32.rank)
  shapeCasts_S32_S1x32 : S32.ShapeCasts S1x32
  shapeCasts_S4000x32_S4000x32 : S4000x32.ShapeCasts S4000x32
  broadcasts_S4000x1_S4000x32 : S4000x1.Broadcasts S4000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S32x32_S32x32_0_0 : ∀ a, (![0, 0] : Fin 2 → Nat) a + S32x32.size a ≤ S32x32.size a
  h_S32x32 : 0 < S32x32.numel
  inb_S32x8_S32x8_0_0 : ∀ a, (![0, 0] : Fin 2 → Nat) a + S32x8.size a ≤ S32x8.size a
  h_S32x8 : 0 < S32x8.numel
  inb_S4000x8_S4000x8_0_0 : ∀ a, (![0, 0] : Fin 2 → Nat) a + S4000x8.size a ≤ S4000x8.size a
  h_S4000x8 : 0 < S4000x8.numel
  bcast_S_S100000x8 : S_.BroadcastsInDim S100000x8 (![] : Fin 0 → Fin S100000x8.rank)
  shapeCasts_S8_S1x8 : S8.ShapeCasts S1x8
  shapeCasts_S4000x8_S4000x8 : S4000x8.ShapeCasts S4000x8
  broadcasts_S4000x1_S4000x8 : S4000x1.Broadcasts S4000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S4000x8 : S1x8.Broadcasts S4000x8
  scatter_S100000_S1600000x1_S1600000_n_0_0_1_wf : ScatterDims.WF S100000 S1600000x1 S1600000 [] [0] [0] 1
  dot_S4000x128_S128x32_S4000x32_1_0_0_1_n_n_wf : DotDims.WF S4000x128 S128x32 S4000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S4000x32_S32x32_S4000x32_1_0_0_1_n_n_wf : DotDims.WF S4000x32 S32x32 S4000x32 [1] [0] [0] [1] [] []
  dot_S4000x32_S32x8_S4000x8_1_0_0_1_n_n_wf : DotDims.WF S4000x32 S32x8 S4000x8 [1] [0] [0] [1] [] []
  gather_S100000x8_S1600000x1_S1600000x8_1_0_n_n_0_1_18_wf : GatherDims.WF S100000x8 S1600000x1 S1600000x8 [1] [0] [] [0] [] 1 ![1, 8]
  scatter_S100000x8_S1600000x1_S1600000x8_1_0_0_1_wf : ScatterDims.WF S100000x8 S1600000x1 S1600000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x32.size a ≤ S100000x32.size a
  hwx0_3 : ∀ i : grid0.Coords, EltTy.bits .f32 = 32 ∨ (Rect.block (s := S100000x32) S4000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S100000x32.size a
  hwx1_0 : ∀ i : grid1.Coords, EltTy.bits .f32 = 32 ∨ (Rect.block (s := S100000x32) S4000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x32.size a ≤ S100000x32.size a
  hwx1_3 : ∀ i : grid1.Coords, EltTy.bits .f32 = 32 ∨ (Rect.block (s := S100000x32) S4000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x32.size a ≤ S100000x32.size a
  hwx2_0 : ∀ i : grid2.Coords, EltTy.bits .f32 = 32 ∨ (Rect.block (s := S100000x32) S4000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32.size a ≤ S32x32.size a
  hwx2_2 : ∀ i : grid2.Coords, EltTy.bits .f32 = 32 ∨ (Rect.block (s := S32x32) S32x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x32.size a ≤ S100000x32.size a
  hwx2_3 : ∀ i : grid2.Coords, EltTy.bits .f32 = 32 ∨ (Rect.block (s := S100000x32) S4000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x32.size a ≤ S100000x32.size a
  hwx3_0 : ∀ i : grid3.Coords, EltTy.bits .f32 = 32 ∨ (Rect.block (s := S100000x32) S4000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S100000x1.size a
  hwx3_1 : ∀ i : grid3.Coords, EltTy.bits .f32 = 32 ∨ (Rect.block (s := S100000x1) S4000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x32.size a ≤ S100000x32.size a
  hwx3_3 : ∀ i : grid3.Coords, EltTy.bits .f32 = 32 ∨ (Rect.block (s := S100000x32) S4000x32.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x32.size a ≤ S100000x32.size a
  hwx4_0 : ∀ i : grid4.Coords, EltTy.bits .f32 = 32 ∨ (Rect.block (s := S100000x32) S4000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x1.size a ≤ S100000x1.size a
  hwx4_1 : ∀ i : grid4.Coords, EltTy.bits .f32 = 32 ∨ (Rect.block (s := S100000x1) S4000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32x32.size a ≤ S32x32.size a
  hwx4_2 : ∀ i : grid4.Coords, EltTy.bits .f32 = 32 ∨ (Rect.block (s := S32x32) S32x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x32.size a ≤ S100000x32.size a
  hwx4_3 : ∀ i : grid4.Coords, EltTy.bits .f32 = 32 ∨ (Rect.block (s := S100000x32) S4000x32.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x32.size a ≤ S100000x32.size a
  hwx5_0 : ∀ i : grid5.Coords, EltTy.bits .f32 = 32 ∨ (Rect.block (s := S100000x32) S4000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x1.size a ≤ S100000x1.size a
  hwx5_1 : ∀ i : grid5.Coords, EltTy.bits .f32 = 32 ∨ (Rect.block (s := S100000x1) S4000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4000x32.size a ≤ S100000x32.size a
  hwx5_3 : ∀ i : grid5.Coords, EltTy.bits .f32 = 32 ∨ (Rect.block (s := S100000x32) S4000x32.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x32.size a ≤ S100000x32.size a
  hwx6_0 : ∀ i : grid6.Coords, EltTy.bits .f32 = 32 ∨ (Rect.block (s := S100000x32) S4000x32.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x1.size a ≤ S100000x1.size a
  hwx6_1 : ∀ i : grid6.Coords, EltTy.bits .f32 = 32 ∨ (Rect.block (s := S100000x1) S4000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S32x8.size a ≤ S32x8.size a
  hwx6_2 : ∀ i : grid6.Coords, EltTy.bits .f32 = 32 ∨ (Rect.block (s := S32x8) S32x8.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S4000x8.size a ≤ S100000x8.size a
  hwx6_3 : ∀ i : grid6.Coords, EltTy.bits .f32 = 32 ∨ (Rect.block (s := S100000x8) S4000x8.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x8.size a ≤ S100000x8.size a
  hwx7_0 : ∀ i : grid7.Coords, EltTy.bits .f32 = 32 ∨ (Rect.block (s := S100000x8) S4000x8.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4000x1.size a ≤ S100000x1.size a
  hwx7_1 : ∀ i : grid7.Coords, EltTy.bits .f32 = 32 ∨ (Rect.block (s := S100000x1) S4000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x8.size a ≤ S1x8.size a
  hwx7_2 : ∀ i : grid7.Coords, EltTy.bits .f32 = 32 ∨ (Rect.block (s := S1x8) S1x8.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S4000x8.size a ≤ S100000x8.size a
  hwx7_3 : ∀ i : grid7.Coords, EltTy.bits .f32 = 32 ∨ (Rect.block (s := S100000x8) S4000x8.size (cc7_transform_3 i) (hinb7_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x32_S4000x32_1_0_0_1_n_n : DotDims S4000x128 S128x32 S4000x32 where
  lhsContracting := [1]
  rhsContracting := [0]
  lhsNonContracting := [0]
  rhsNonContracting := [1]
  lhsBatch := []
  rhsBatch := []
  wf := dot_S4000x128_S128x32_S4000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S4000x32_S32x32_S4000x32_1_0_0_1_n_n : DotDims S4000x32 S32x32 S4000x32 where
  lhsContracting := [1]
  rhsContracting := [0]
  lhsNonContracting := [0]
  rhsNonContracting := [1]
  lhsBatch := []
  rhsBatch := []
  wf := dot_S4000x32_S32x32_S4000x32_1_0_0_1_n_n_wf
def dot_S4000x32_S32x8_S4000x8_1_0_0_1_n_n : DotDims S4000x32 S32x8 S4000x8 where
  lhsContracting := [1]
  rhsContracting := [0]
  lhsNonContracting := [0]
  rhsNonContracting := [1]
  lhsBatch := []
  rhsBatch := []
  wf := dot_S4000x32_S32x8_S4000x8_1_0_0_1_n_n_wf
def gather_S100000x8_S1600000x1_S1600000x8_1_0_n_n_0_1_18 : GatherDims S100000x8 S1600000x1 S1600000x8 where
  offsetDims := [1]
  collapsedSliceDims := [0]
  operandBatchingDims := []
  startIndicesBatchingDims := []
  startIndexMap := [0]
  indexVectorDim := 1
  sliceSizes := ![1, 8]
  wf := gather_S100000x8_S1600000x1_S1600000x8_1_0_n_n_0_1_18_wf
def scatter_S100000x8_S1600000x1_S1600000x8_1_0_0_1 : ScatterDims S100000x8 S1600000x1 S1600000x8 where
  updateWindowDims := [1]
  insertedWindowDims := [0]
  scatterDimsToOperandDims := [0]
  indexVectorDim := 1
  wf := scatter_S100000x8_S1600000x1_S1600000x8_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S4000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S4000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v27) S4000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S32x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S4000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v39) S4000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v41) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v42) S4000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v42) S4000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v43) S4000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S32x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v44) S4000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v54) S4000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v55) S4000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v56) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v57) S4000x32.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v57) S4000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v58) S4000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg9) S32x8.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v59) S4000x8.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v69) S4000x8.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v70) S4000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v71) S1x8.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v72) S4000x8.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x32 : Shape := ⟨2, ![128, 32]⟩
abbrev S32 : Shape := ⟨1, ![32]⟩
abbrev S32x32 : Shape := ⟨2, ![32, 32]⟩
abbrev S32x8 : Shape := ⟨2, ![32, 8]⟩
abbrev S8 : Shape := ⟨1, ![8]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x32 : Shape := ⟨2, ![100000, 32]⟩
abbrev S1600000x32 : Shape := ⟨2, ![1600000, 32]⟩
abbrev S1x32 : Shape := ⟨2, ![1, 32]⟩
abbrev S100000x8 : Shape := ⟨2, ![100000, 8]⟩
abbrev S1600000x8 : Shape := ⟨2, ![1600000, 8]⟩
abbrev S1x8 : Shape := ⟨2, ![1, 8]⟩

abbrev nBuf : Space → Nat
  | .hbm => 130
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x32, .f32⟩
  | 4 => ⟨S32, .f32⟩
  | 5 => ⟨S32x32, .f32⟩
  | 6 => ⟨S32, .f32⟩
  | 7 => ⟨S32x32, .f32⟩
  | 8 => ⟨S32, .f32⟩
  | 9 => ⟨S32x8, .f32⟩
  | 10 => ⟨S8, .f32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S_, .f32⟩
  | 26 => ⟨S100000, .f32⟩
  | 27 => ⟨S100000, .f32⟩
  | 28 => ⟨S100000, .f32⟩
  | 29 => ⟨S100000x1, .f32⟩
  | 30 => ⟨S100000x128, .f32⟩
  | 31 => ⟨S100000x128, .f32⟩
  | 32 => ⟨S100000x32, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x32, .f32⟩
  | 42 => ⟨S_, .f32⟩
  | 43 => ⟨S100000x32, .f32⟩
  | 44 => ⟨S1600000x1, .i32⟩
  | 45 => ⟨S100000x32, .f32⟩
  | 46 => ⟨S100000x1, .f32⟩
  | 47 => ⟨S100000x32, .f32⟩
  | 48 => ⟨S100000x32, .f32⟩
  | 49 => ⟨S1x32, .f32⟩
  | 50 => ⟨S100000x32, .f32⟩
  | 51 => ⟨S100000x32, .f32⟩
  | 52 => ⟨S_, .f32⟩
  | 53 => ⟨S100000x32, .f32⟩
  | 54 => ⟨S100000x32, .f32⟩
  | 55 => ⟨S100000x1, .f32⟩
  | 56 => ⟨S100000x32, .f32⟩
  | 57 => ⟨S100000x32, .f32⟩
  | 58 => ⟨S100000x32, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x32, .f32⟩
  | 68 => ⟨S_, .f32⟩
  | 69 => ⟨S100000x32, .f32⟩
  | 70 => ⟨S1600000x1, .i32⟩
  | 71 => ⟨S100000x32, .f32⟩
  | 72 => ⟨S100000x1, .f32⟩
  | 73 => ⟨S100000x32, .f32⟩
  | 74 => ⟨S100000x32, .f32⟩
  | 75 => ⟨S1x32, .f32⟩
  | 76 => ⟨S100000x32, .f32⟩
  | 77 => ⟨S100000x32, .f32⟩
  | 78 => ⟨S_, .f32⟩
  | 79 => ⟨S100000x32, .f32⟩
  | 80 => ⟨S100000x32, .f32⟩
  | 81 => ⟨S100000x1, .f32⟩
  | 82 => ⟨S100000x32, .f32⟩
  | 83 => ⟨S100000x32, .f32⟩
  | 84 => ⟨S100000x32, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x32, .f32⟩
  | 94 => ⟨S_, .f32⟩
  | 95 => ⟨S100000x32, .f32⟩
  | 96 => ⟨S1600000x1, .i32⟩
  | 97 => ⟨S100000x32, .f32⟩
  | 98 => ⟨S100000x1, .f32⟩
  | 99 => ⟨S100000x32, .f32⟩
  | 100 => ⟨S100000x32, .f32⟩
  | 101 => ⟨S1x32, .f32⟩
  | 102 => ⟨S100000x32, .f32⟩
  | 103 => ⟨S100000x32, .f32⟩
  | 104 => ⟨S_, .f32⟩
  | 105 => ⟨S100000x32, .f32⟩
  | 106 => ⟨S100000x32, .f32⟩
  | 107 => ⟨S100000x1, .f32⟩
  | 108 => ⟨S100000x32, .f32⟩
  | 109 => ⟨S100000x32, .f32⟩
  | 110 => ⟨S100000x8, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x8, .f32⟩
  | 120 => ⟨S_, .f32⟩
  | 121 => ⟨S100000x8, .f32⟩
  | 122 => ⟨S1600000x1, .i32⟩
  | 123 => ⟨S100000x8, .f32⟩
  | 124 => ⟨S100000x1, .f32⟩
  | 125 => ⟨S100000x8, .f32⟩
  | 126 => ⟨S100000x8, .f32⟩
  | 127 => ⟨S1x8, .f32⟩
  | _ => ⟨S100000x128, .f32⟩

abbrev hbmTy0_1 (i : Nat) : BufTy := match i % 128 with
  | 0 => ⟨S100000x8, .f32⟩
  | 1 => ⟨S100000x8, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call0_cst : Ref sig .tc := ⟨.hbm, 52, rfl⟩
abbrev main_call0_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_6 : Ref sig .tc := ⟨.hbm, 59, rfl⟩
abbrev main_v38 : Ref sig .tc := ⟨.hbm, 60, rfl⟩
abbrev main_v39 : Ref sig .tc := ⟨.hbm, 61, rfl⟩
abbrev main_c_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_call1_cst : Ref sig .tc := ⟨.hbm, 78, rfl⟩
abbrev main_call1_v0 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_c_9 : Ref sig .tc := ⟨.hbm, 85, rfl⟩
abbrev main_v59 : Ref sig .tc := ⟨.hbm, 86, rfl⟩
abbrev main_v60 : Ref sig .tc := ⟨.hbm, 87, rfl⟩
abbrev main_c_10 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_11 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_call2_cst : Ref sig .tc := ⟨.hbm, 104, rfl⟩
abbrev main_call2_v0 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_c_12 : Ref sig .tc := ⟨.hbm, 111, rfl⟩
abbrev main_v80 : Ref sig .tc := ⟨.hbm, 112, rfl⟩
abbrev main_v81 : Ref sig .tc := ⟨.hbm, 113, rfl⟩
abbrev main_c_13 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_14 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x8 : S_.BroadcastsInDim S100000x8 (![] : Fin 0 → Fin S100000x8.rank)
  bcast_S100000x1_S100000x8_0_1 : S100000x1.BroadcastsInDim S100000x8 (![0, 1] : Fin 2 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  scatter_S100000_S1600000x1_S1600000_n_0_0_1_wf : ScatterDims.WF S100000 S1600000x1 S1600000 [] [0] [0] 1
  dot_S100000x128_S128x32_S100000x32_1_0_0_1_n_n_wf : DotDims.WF S100000x128 S128x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x32_S100000x32_1_0_0_1_n_n_wf : DotDims.WF S100000x32 S32x32 S100000x32 [1] [0] [0] [1] [] []
  dot_S100000x32_S32x8_S100000x8_1_0_0_1_n_n_wf : DotDims.WF S100000x32 S32x8 S100000x8 [1] [0] [0] [1] [] []
  gather_S100000x8_S1600000x1_S1600000x8_1_0_n_n_0_1_18_wf : GatherDims.WF S100000x8 S1600000x1 S1600000x8 [1] [0] [] [0] [] 1 ![1, 8]
  scatter_S100000x8_S1600000x1_S1600000x8_1_0_0_1_wf : ScatterDims.WF S100000x8 S1600000x1 S1600000x8 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x8_S100000x8_1_0_0_1_n_n : DotDims S100000x32 S32x8 S100000x8 where
  lhsContracting := [1]
  rhsContracting := [0]
  lhsNonContracting := [0]
  rhsNonContracting := [1]
  lhsBatch := []
  rhsBatch := []
  wf := dot_S100000x32_S32x8_S100000x8_1_0_0_1_n_n_wf
def gather_S100000x8_S1600000x1_S1600000x8_1_0_n_n_0_1_18 : GatherDims S100000x8 S1600000x1 S1600000x8 where
  offsetDims := [1]
  collapsedSliceDims := [0]
  operandBatchingDims := []
  startIndicesBatchingDims := []
  startIndexMap := [0]
  indexVectorDim := 1
  sliceSizes := ![1, 8]
  wf := gather_S100000x8_S1600000x1_S1600000x8_1_0_n_n_0_1_18_wf
def scatter_S100000x8_S1600000x1_S1600000x8_1_0_0_1 : ScatterDims S100000x8 S1600000x1 S1600000x8 where
  updateWindowDims := [1]
  insertedWindowDims := [0]
  scatterDimsToOperandDims := [0]
  indexVectorDim := 1
  wf := scatter_S100000x8_S1600000x1_S1600000x8_1_0_0_1_wf

class Facts : Prop extends Facts₀ where

variable [Facts]
-- ==== Proof.FinalContents.lean ====
/-
  The idealized kernel's run, with the result array named.

  The program is eight kernel regions among stretches of host operations. Its buffers' contents at each segment
  boundary form a fold from the launch memory (`Gen.W0` … `Gen.W16`: a host stretch applies its operations, a region
  replaces its arrays by what its write-backs leave). Every weakly fair execution terminates, nothing faulting, and
  in the final memory the result array `main_v72` holds the last boundary's contents `Gen.W16` at that buffer, while
  the eleven argument arrays hold what they held at launch.
-/
import proofs.«159211_j16449724744842_1_alg».proof.Proof.Gen.KernelIdeal.Frame

set_option maxRecDepth 16384

noncomputable section

namespace Cert.KernelIdeal.FinalContents

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is read of a final memory on core `c`: every unscoped buffer holds the last boundary's contents. -/
abbrev AtEnd (c : Dev nD) (s : MemSt nD τ sig (Elt F)) : Prop :=
  ∀ b ∈ Pipeline.ucRefs τ sig, s.mem (((c : Thread nD τ)).1, b) = W16 m ρ c b

set_option backward.isDefEq.respectTransparency.types false in
/-- The run: the result array at the last boundary's contents, the arguments as launched. -/
theorem run : θ_run defs (onTc (τ := τ) (main (F := F))) ⟨m, fun _ => 0, ρ⟩ (fun r => ∀ c : Dev nD,
      r.2.mem ((c.tc : Thread nD τ).loc main_v72) = W16 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipeline library's own; no ghost resource rides beside it
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      -- the first thread state on every core: its unscoped buffers at the launch contents, the generator register, nothing owed
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hreg, -⟩, -⟩
      imodintro
      isplitl [Hbufs]; · iexact Hbufs
      isplitl [Hreg]; · iexists _; iexact Hreg
      iexists ∅; iexact Howes)
    (QY := AtEnd m ρ)
    (hfin := fun c s' => by
      -- the last thread state read against a final state: the buffers it holds are the memory's
      iintro ⟨⟨Hheld, -⟩, HSI⟩
      unfold StableHlo.held
      imodintro
      iapply (pointsTo_read_all (Pipeline.ucRefs τ sig) (fun b => (((c : Thread nD τ)).1, b)) (W16 m ρ c) s')
      isplitl [Hheld] <;> iassumption)
    (hQ := fun s h c =>
      ⟨h c _ (mem_uc main_v72 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c)⟩)

end Cert.KernelIdeal.FinalContents

end
-- ==== Proof.Carried.lean ====
/-
  Buffers that cross segment boundaries unchanged.

  The program's buffer contents at its segment boundaries form a fold from the launch memory. A host stretch changes
  only the buffers its operations write; a kernel region changes only its own arrays. Each argument array therefore
  still holds its launch contents at every boundary up to its last use, and the two per-node degree factors, computed
  by the first host stretch, still hold those values wherever a later stretch reads them.
-/
import proofs.«159211_j16449724744842_1_alg».proof.Proof.Gen.KernelIdeal.Frame
import Idealize.ShloMosaic.PureOps.Ideal

set_option maxRecDepth 16384

noncomputable section

namespace Cert.KernelIdeal.Carried

open Cert.KernelIdeal Cert.KernelIdeal.Gen
open Idealize.ShloMosaic Idealize.ShloMosaic.TcCoe Idealize.SL.Sem

/-- A host stretch leaves a buffer none of its operations writes as it found it. -/
macro "host_keeps " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

variable (m : (ℓ : Loc nD τ sig) → Buf (Elt Ideal) ℓ) (ρ : Dev nD → PrngReg)

/-! ### Argument 0 -/
theorem arg0_at1 (c : Dev nD) : W1 m ρ c (Proc.devRef .tc main_arg0) = m ((c : Thread nD τ).loc main_arg0) :=
  (by host_keeps hostOps0 : W1 m ρ c (Proc.devRef .tc main_arg0) = W0 m ρ c (Proc.devRef .tc main_arg0)).trans rfl

/-! ### Argument 1 -/
theorem arg1_at1 (c : Dev nD) : W1 m ρ c (Proc.devRef .tc main_arg1) = m ((c : Thread nD τ).loc main_arg1) :=
  (by host_keeps hostOps0 : W1 m ρ c (Proc.devRef .tc main_arg1) = W0 m ρ c (Proc.devRef .tc main_arg1)).trans rfl
theorem arg1_at2 (c : Dev nD) : W2 m ρ c (Proc.devRef .tc main_arg1) = m ((c : Thread nD τ).loc main_arg1) :=
  (W2_of_ne m ρ c main_arg1 (by decide)).trans (arg1_at1 m ρ c)
theorem arg1_at3 (c : Dev nD) : W3 m ρ c (Proc.devRef .tc main_arg1) = m ((c : Thread nD τ).loc main_arg1) :=
  (by host_keeps hostOps1 : W3 m ρ c (Proc.devRef .tc main_arg1) = W2 m ρ c (Proc.devRef .tc main_arg1)).trans (arg1_at2 m ρ c)
theorem arg1_at4 (c : Dev nD) : W4 m ρ c (Proc.devRef .tc main_arg1) = m ((c : Thread nD τ).loc main_arg1) :=
  (W4_of_ne m ρ c main_arg1 (by decide)).trans (arg1_at3 m ρ c)
theorem arg1_at5 (c : Dev nD) : W5 m ρ c (Proc.devRef .tc main_arg1) = m ((c : Thread nD τ).loc main_arg1) :=
  (by host_keeps hostOps2 : W5 m ρ c (Proc.devRef .tc main_arg1) = W4 m ρ c (Proc.devRef .tc main_arg1)).trans (arg1_at4 m ρ c)
theorem arg1_at6 (c : Dev nD) : W6 m ρ c (Proc.devRef .tc main_arg1) = m ((c : Thread nD τ).loc main_arg1) :=
  (W6_of_ne m ρ c main_arg1 (by decide)).trans (arg1_at5 m ρ c)
theorem arg1_at7 (c : Dev nD) : W7 m ρ c (Proc.devRef .tc main_arg1) = m ((c : Thread nD τ).loc main_arg1) :=
  (by host_keeps hostOps3 : W7 m ρ c (Proc.devRef .tc main_arg1) = W6 m ρ c (Proc.devRef .tc main_arg1)).trans (arg1_at6 m ρ c)
theorem arg1_at8 (c : Dev nD) : W8 m ρ c (Proc.devRef .tc main_arg1) = m ((c : Thread nD τ).loc main_arg1) :=
  (W8_of_ne m ρ c main_arg1 (by decide)).trans (arg1_at7 m ρ c)
theorem arg1_at9 (c : Dev nD) : W9 m ρ c (Proc.devRef .tc main_arg1) = m ((c : Thread nD τ).loc main_arg1) :=
  (by host_keeps hostOps4 : W9 m ρ c (Proc.devRef .tc main_arg1) = W8 m ρ c (Proc.devRef .tc main_arg1)).trans (arg1_at8 m ρ c)
theorem arg1_at10 (c : Dev nD) : W10 m ρ c (Proc.devRef .tc main_arg1) = m ((c : Thread nD τ).loc main_arg1) :=
  (W10_of_ne m ρ c main_arg1 (by decide)).trans (arg1_at9 m ρ c)
theorem arg1_at11 (c : Dev nD) : W11 m ρ c (Proc.devRef .tc main_arg1) = m ((c : Thread nD τ).loc main_arg1) :=
  (by host_keeps hostOps5 : W11 m ρ c (Proc.devRef .tc main_arg1) = W10 m ρ c (Proc.devRef .tc main_arg1)).trans (arg1_at10 m ρ c)
theorem arg1_at12 (c : Dev nD) : W12 m ρ c (Proc.devRef .tc main_arg1) = m ((c : Thread nD τ).loc main_arg1) :=
  (W12_of_ne m ρ c main_arg1 (by decide)).trans (arg1_at11 m ρ c)
theorem arg1_at13 (c : Dev nD) : W13 m ρ c (Proc.devRef .tc main_arg1) = m ((c : Thread nD τ).loc main_arg1) :=
  (by host_keeps hostOps6 : W13 m ρ c (Proc.devRef .tc main_arg1) = W12 m ρ c (Proc.devRef .tc main_arg1)).trans (arg1_at12 m ρ c)
theorem arg1_at14 (c : Dev nD) : W14 m ρ c (Proc.devRef .tc main_arg1) = m ((c : Thread nD τ).loc main_arg1) :=
  (W14_of_ne m ρ c main_arg1 (by decide)).trans (arg1_at13 m ρ c)

/-! ### Argument 2 -/
theorem arg2_at1 (c : Dev nD) : W1 m ρ c (Proc.devRef .tc main_arg2) = m ((c : Thread nD τ).loc main_arg2) :=
  (by host_keeps hostOps0 : W1 m ρ c (Proc.devRef .tc main_arg2) = W0 m ρ c (Proc.devRef .tc main_arg2)).trans rfl
theorem arg2_at2 (c : Dev nD) : W2 m ρ c (Proc.devRef .tc main_arg2) = m ((c : Thread nD τ).loc main_arg2) :=
  (W2_of_ne m ρ c main_arg2 (by decide)).trans (arg2_at1 m ρ c)
theorem arg2_at3 (c : Dev nD) : W3 m ρ c (Proc.devRef .tc main_arg2) = m ((c : Thread nD τ).loc main_arg2) :=
  (by host_keeps hostOps1 : W3 m ρ c (Proc.devRef .tc main_arg2) = W2 m ρ c (Proc.devRef .tc main_arg2)).trans (arg2_at2 m ρ c)
theorem arg2_at4 (c : Dev nD) : W4 m ρ c (Proc.devRef .tc main_arg2) = m ((c : Thread nD τ).loc main_arg2) :=
  (W4_of_ne m ρ c main_arg2 (by decide)).trans (arg2_at3 m ρ c)
theorem arg2_at5 (c : Dev nD) : W5 m ρ c (Proc.devRef .tc main_arg2) = m ((c : Thread nD τ).loc main_arg2) :=
  (by host_keeps hostOps2 : W5 m ρ c (Proc.devRef .tc main_arg2) = W4 m ρ c (Proc.devRef .tc main_arg2)).trans (arg2_at4 m ρ c)
theorem arg2_at6 (c : Dev nD) : W6 m ρ c (Proc.devRef .tc main_arg2) = m ((c : Thread nD τ).loc main_arg2) :=
  (W6_of_ne m ρ c main_arg2 (by decide)).trans (arg2_at5 m ρ c)
theorem arg2_at7 (c : Dev nD) : W7 m ρ c (Proc.devRef .tc main_arg2) = m ((c : Thread nD τ).loc main_arg2) :=
  (by host_keeps hostOps3 : W7 m ρ c (Proc.devRef .tc main_arg2) = W6 m ρ c (Proc.devRef .tc main_arg2)).trans (arg2_at6 m ρ c)
theorem arg2_at8 (c : Dev nD) : W8 m ρ c (Proc.devRef .tc main_arg2) = m ((c : Thread nD τ).loc main_arg2) :=
  (W8_of_ne m ρ c main_arg2 (by decide)).trans (arg2_at7 m ρ c)
theorem arg2_at9 (c : Dev nD) : W9 m ρ c (Proc.devRef .tc main_arg2) = m ((c : Thread nD τ).loc main_arg2) :=
  (by host_keeps hostOps4 : W9 m ρ c (Proc.devRef .tc main_arg2) = W8 m ρ c (Proc.devRef .tc main_arg2)).trans (arg2_at8 m ρ c)
theorem arg2_at10 (c : Dev nD) : W10 m ρ c (Proc.devRef .tc main_arg2) = m ((c : Thread nD τ).loc main_arg2) :=
  (W10_of_ne m ρ c main_arg2 (by decide)).trans (arg2_at9 m ρ c)
theorem arg2_at11 (c : Dev nD) : W11 m ρ c (Proc.devRef .tc main_arg2) = m ((c : Thread nD τ).loc main_arg2) :=
  (by host_keeps hostOps5 : W11 m ρ c (Proc.devRef .tc main_arg2) = W10 m ρ c (Proc.devRef .tc main_arg2)).trans (arg2_at10 m ρ c)
theorem arg2_at12 (c : Dev nD) : W12 m ρ c (Proc.devRef .tc main_arg2) = m ((c : Thread nD τ).loc main_arg2) :=
  (W12_of_ne m ρ c main_arg2 (by decide)).trans (arg2_at11 m ρ c)
theorem arg2_at13 (c : Dev nD) : W13 m ρ c (Proc.devRef .tc main_arg2) = m ((c : Thread nD τ).loc main_arg2) :=
  (by host_keeps hostOps6 : W13 m ρ c (Proc.devRef .tc main_arg2) = W12 m ρ c (Proc.devRef .tc main_arg2)).trans (arg2_at12 m ρ c)
theorem arg2_at14 (c : Dev nD) : W14 m ρ c (Proc.devRef .tc main_arg2) = m ((c : Thread nD τ).loc main_arg2) :=
  (W14_of_ne m ρ c main_arg2 (by decide)).trans (arg2_at13 m ρ c)

/-! ### Argument 3 -/
theorem arg3_at1 (c : Dev nD) : W1 m ρ c (Proc.devRef .tc main_arg3) = m ((c : Thread nD τ).loc main_arg3) :=
  (by host_keeps hostOps0 : W1 m ρ c (Proc.devRef .tc main_arg3) = W0 m ρ c (Proc.devRef .tc main_arg3)).trans rfl

/-! ### Argument 4 -/
theorem arg4_at1 (c : Dev nD) : W1 m ρ c (Proc.devRef .tc main_arg4) = m ((c : Thread nD τ).loc main_arg4) :=
  (by host_keeps hostOps0 : W1 m ρ c (Proc.devRef .tc main_arg4) = W0 m ρ c (Proc.devRef .tc main_arg4)).trans rfl
theorem arg4_at2 (c : Dev nD) : W2 m ρ c (Proc.devRef .tc main_arg4) = m ((c : Thread nD τ).loc main_arg4) :=
  (W2_of_ne m ρ c main_arg4 (by decide)).trans (arg4_at1 m ρ c)

/-! ### Argument 5 -/
theorem arg5_at1 (c : Dev nD) : W1 m ρ c (Proc.devRef .tc main_arg5) = m ((c : Thread nD τ).loc main_arg5) :=
  (by host_keeps hostOps0 : W1 m ρ c (Proc.devRef .tc main_arg5) = W0 m ρ c (Proc.devRef .tc main_arg5)).trans rfl
theorem arg5_at2 (c : Dev nD) : W2 m ρ c (Proc.devRef .tc main_arg5) = m ((c : Thread nD τ).loc main_arg5) :=
  (W2_of_ne m ρ c main_arg5 (by decide)).trans (arg5_at1 m ρ c)
theorem arg5_at3 (c : Dev nD) : W3 m ρ c (Proc.devRef .tc main_arg5) = m ((c : Thread nD τ).loc main_arg5) :=
  (by host_keeps hostOps1 : W3 m ρ c (Proc.devRef .tc main_arg5) = W2 m ρ c (Proc.devRef .tc main_arg5)).trans (arg5_at2 m ρ c)
theorem arg5_at4 (c : Dev nD) : W4 m ρ c (Proc.devRef .tc main_arg5) = m ((c : Thread nD τ).loc main_arg5) :=
  (W4_of_ne m ρ c main_arg5 (by decide)).trans (arg5_at3 m ρ c)
theorem arg5_at5 (c : Dev nD) : W5 m ρ c (Proc.devRef .tc main_arg5) = m ((c : Thread nD τ).loc main_arg5) :=
  (by host_keeps hostOps2 : W5 m ρ c (Proc.devRef .tc main_arg5) = W4 m ρ c (Proc.devRef .tc main_arg5)).trans (arg5_at4 m ρ c)

/-! ### Argument 6 -/
theorem arg6_at1 (c : Dev nD) : W1 m ρ c (Proc.devRef .tc main_arg6) = m ((c : Thread nD τ).loc main_arg6) :=
  (by host_keeps hostOps0 : W1 m ρ c (Proc.devRef .tc main_arg6) = W0 m ρ c (Proc.devRef .tc main_arg6)).trans rfl
theorem arg6_at2 (c : Dev nD) : W2 m ρ c (Proc.devRef .tc main_arg6) = m ((c : Thread nD τ).loc main_arg6) :=
  (W2_of_ne m ρ c main_arg6 (by decide)).trans (arg6_at1 m ρ c)
theorem arg6_at3 (c : Dev nD) : W3 m ρ c (Proc.devRef .tc main_arg6) = m ((c : Thread nD τ).loc main_arg6) :=
  (by host_keeps hostOps1 : W3 m ρ c (Proc.devRef .tc main_arg6) = W2 m ρ c (Proc.devRef .tc main_arg6)).trans (arg6_at2 m ρ c)
theorem arg6_at4 (c : Dev nD) : W4 m ρ c (Proc.devRef .tc main_arg6) = m ((c : Thread nD τ).loc main_arg6) :=
  (W4_of_ne m ρ c main_arg6 (by decide)).trans (arg6_at3 m ρ c)
theorem arg6_at5 (c : Dev nD) : W5 m ρ c (Proc.devRef .tc main_arg6) = m ((c : Thread nD τ).loc main_arg6) :=
  (by host_keeps hostOps2 : W5 m ρ c (Proc.devRef .tc main_arg6) = W4 m ρ c (Proc.devRef .tc main_arg6)).trans (arg6_at4 m ρ c)
theorem arg6_at6 (c : Dev nD) : W6 m ρ c (Proc.devRef .tc main_arg6) = m ((c : Thread nD τ).loc main_arg6) :=
  (W6_of_ne m ρ c main_arg6 (by decide)).trans (arg6_at5 m ρ c)

/-! ### Argument 7 -/
theorem arg7_at1 (c : Dev nD) : W1 m ρ c (Proc.devRef .tc main_arg7) = m ((c : Thread nD τ).loc main_arg7) :=
  (by host_keeps hostOps0 : W1 m ρ c (Proc.devRef .tc main_arg7) = W0 m ρ c (Proc.devRef .tc main_arg7)).trans rfl
theorem arg7_at2 (c : Dev nD) : W2 m ρ c (Proc.devRef .tc main_arg7) = m ((c : Thread nD τ).loc main_arg7) :=
  (W2_of_ne m ρ c main_arg7 (by decide)).trans (arg7_at1 m ρ c)
theorem arg7_at3 (c : Dev nD) : W3 m ρ c (Proc.devRef .tc main_arg7) = m ((c : Thread nD τ).loc main_arg7) :=
  (by host_keeps hostOps1 : W3 m ρ c (Proc.devRef .tc main_arg7) = W2 m ρ c (Proc.devRef .tc main_arg7)).trans (arg7_at2 m ρ c)
theorem arg7_at4 (c : Dev nD) : W4 m ρ c (Proc.devRef .tc main_arg7) = m ((c : Thread nD τ).loc main_arg7) :=
  (W4_of_ne m ρ c main_arg7 (by decide)).trans (arg7_at3 m ρ c)
theorem arg7_at5 (c : Dev nD) : W5 m ρ c (Proc.devRef .tc main_arg7) = m ((c : Thread nD τ).loc main_arg7) :=
  (by host_keeps hostOps2 : W5 m ρ c (Proc.devRef .tc main_arg7) = W4 m ρ c (Proc.devRef .tc main_arg7)).trans (arg7_at4 m ρ c)
theorem arg7_at6 (c : Dev nD) : W6 m ρ c (Proc.devRef .tc main_arg7) = m ((c : Thread nD τ).loc main_arg7) :=
  (W6_of_ne m ρ c main_arg7 (by decide)).trans (arg7_at5 m ρ c)
theorem arg7_at7 (c : Dev nD) : W7 m ρ c (Proc.devRef .tc main_arg7) = m ((c : Thread nD τ).loc main_arg7) :=
  (by host_keeps hostOps3 : W7 m ρ c (Proc.devRef .tc main_arg7) = W6 m ρ c (Proc.devRef .tc main_arg7)).trans (arg7_at6 m ρ c)
theorem arg7_at8 (c : Dev nD) : W8 m ρ c (Proc.devRef .tc main_arg7) = m ((c : Thread nD τ).loc main_arg7) :=
  (W8_of_ne m ρ c main_arg7 (by decide)).trans (arg7_at7 m ρ c)
theorem arg7_at9 (c : Dev nD) : W9 m ρ c (Proc.devRef .tc main_arg7) = m ((c : Thread nD τ).loc main_arg7) :=
  (by host_keeps hostOps4 : W9 m ρ c (Proc.devRef .tc main_arg7) = W8 m ρ c (Proc.devRef .tc main_arg7)).trans (arg7_at8 m ρ c)

/-! ### Argument 8 -/
theorem arg8_at1 (c : Dev nD) : W1 m ρ c (Proc.devRef .tc main_arg8) = m ((c : Thread nD τ).loc main_arg8) :=
  (by host_keeps hostOps0 : W1 m ρ c (Proc.devRef .tc main_arg8) = W0 m ρ c (Proc.devRef .tc main_arg8)).trans rfl
theorem arg8_at2 (c : Dev nD) : W2 m ρ c (Proc.devRef .tc main_arg8) = m ((c : Thread nD τ).loc main_arg8) :=
  (W2_of_ne m ρ c main_arg8 (by decide)).trans (arg8_at1 m ρ c)
theorem arg8_at3 (c : Dev nD) : W3 m ρ c (Proc.devRef .tc main_arg8) = m ((c : Thread nD τ).loc main_arg8) :=
  (by host_keeps hostOps1 : W3 m ρ c (Proc.devRef .tc main_arg8) = W2 m ρ c (Proc.devRef .tc main_arg8)).trans (arg8_at2 m ρ c)
theorem arg8_at4 (c : Dev nD) : W4 m ρ c (Proc.devRef .tc main_arg8) = m ((c : Thread nD τ).loc main_arg8) :=
  (W4_of_ne m ρ c main_arg8 (by decide)).trans (arg8_at3 m ρ c)
theorem arg8_at5 (c : Dev nD) : W5 m ρ c (Proc.devRef .tc main_arg8) = m ((c : Thread nD τ).loc main_arg8) :=
  (by host_keeps hostOps2 : W5 m ρ c (Proc.devRef .tc main_arg8) = W4 m ρ c (Proc.devRef .tc main_arg8)).trans (arg8_at4 m ρ c)
theorem arg8_at6 (c : Dev nD) : W6 m ρ c (Proc.devRef .tc main_arg8) = m ((c : Thread nD τ).loc main_arg8) :=
  (W6_of_ne m ρ c main_arg8 (by decide)).trans (arg8_at5 m ρ c)
theorem arg8_at7 (c : Dev nD) : W7 m ρ c (Proc.devRef .tc main_arg8) = m ((c : Thread nD τ).loc main_arg8) :=
  (by host_keeps hostOps3 : W7 m ρ c (Proc.devRef .tc main_arg8) = W6 m ρ c (Proc.devRef .tc main_arg8)).trans (arg8_at6 m ρ c)
theorem arg8_at8 (c : Dev nD) : W8 m ρ c (Proc.devRef .tc main_arg8) = m ((c : Thread nD τ).loc main_arg8) :=
  (W8_of_ne m ρ c main_arg8 (by decide)).trans (arg8_at7 m ρ c)
theorem arg8_at9 (c : Dev nD) : W9 m ρ c (Proc.devRef .tc main_arg8) = m ((c : Thread nD τ).loc main_arg8) :=
  (by host_keeps hostOps4 : W9 m ρ c (Proc.devRef .tc main_arg8) = W8 m ρ c (Proc.devRef .tc main_arg8)).trans (arg8_at8 m ρ c)
theorem arg8_at10 (c : Dev nD) : W10 m ρ c (Proc.devRef .tc main_arg8) = m ((c : Thread nD τ).loc main_arg8) :=
  (W10_of_ne m ρ c main_arg8 (by decide)).trans (arg8_at9 m ρ c)

/-! ### Argument 9 -/
theorem arg9_at1 (c : Dev nD) : W1 m ρ c (Proc.devRef .tc main_arg9) = m ((c : Thread nD τ).loc main_arg9) :=
  (by host_keeps hostOps0 : W1 m ρ c (Proc.devRef .tc main_arg9) = W0 m ρ c (Proc.devRef .tc main_arg9)).trans rfl
theorem arg9_at2 (c : Dev nD) : W2 m ρ c (Proc.devRef .tc main_arg9) = m ((c : Thread nD τ).loc main_arg9) :=
  (W2_of_ne m ρ c main_arg9 (by decide)).trans (arg9_at1 m ρ c)
theorem arg9_at3 (c : Dev nD) : W3 m ρ c (Proc.devRef .tc main_arg9) = m ((c : Thread nD τ).loc main_arg9) :=
  (by host_keeps hostOps1 : W3 m ρ c (Proc.devRef .tc main_arg9) = W2 m ρ c (Proc.devRef .tc main_arg9)).trans (arg9_at2 m ρ c)
theorem arg9_at4 (c : Dev nD) : W4 m ρ c (Proc.devRef .tc main_arg9) = m ((c : Thread nD τ).loc main_arg9) :=
  (W4_of_ne m ρ c main_arg9 (by decide)).trans (arg9_at3 m ρ c)
theorem arg9_at5 (c : Dev nD) : W5 m ρ c (Proc.devRef .tc main_arg9) = m ((c : Thread nD τ).loc main_arg9) :=
  (by host_keeps hostOps2 : W5 m ρ c (Proc.devRef .tc main_arg9) = W4 m ρ c (Proc.devRef .tc main_arg9)).trans (arg9_at4 m ρ c)
theorem arg9_at6 (c : Dev nD) : W6 m ρ c (Proc.devRef .tc main_arg9) = m ((c : Thread nD τ).loc main_arg9) :=
  (W6_of_ne m ρ c main_arg9 (by decide)).trans (arg9_at5 m ρ c)
theorem arg9_at7 (c : Dev nD) : W7 m ρ c (Proc.devRef .tc main_arg9) = m ((c : Thread nD τ).loc main_arg9) :=
  (by host_keeps hostOps3 : W7 m ρ c (Proc.devRef .tc main_arg9) = W6 m ρ c (Proc.devRef .tc main_arg9)).trans (arg9_at6 m ρ c)
theorem arg9_at8 (c : Dev nD) : W8 m ρ c (Proc.devRef .tc main_arg9) = m ((c : Thread nD τ).loc main_arg9) :=
  (W8_of_ne m ρ c main_arg9 (by decide)).trans (arg9_at7 m ρ c)
theorem arg9_at9 (c : Dev nD) : W9 m ρ c (Proc.devRef .tc main_arg9) = m ((c : Thread nD τ).loc main_arg9) :=
  (by host_keeps hostOps4 : W9 m ρ c (Proc.devRef .tc main_arg9) = W8 m ρ c (Proc.devRef .tc main_arg9)).trans (arg9_at8 m ρ c)
theorem arg9_at10 (c : Dev nD) : W10 m ρ c (Proc.devRef .tc main_arg9) = m ((c : Thread nD τ).loc main_arg9) :=
  (W10_of_ne m ρ c main_arg9 (by decide)).trans (arg9_at9 m ρ c)
theorem arg9_at11 (c : Dev nD) : W11 m ρ c (Proc.devRef .tc main_arg9) = m ((c : Thread nD τ).loc main_arg9) :=
  (by host_keeps hostOps5 : W11 m ρ c (Proc.devRef .tc main_arg9) = W10 m ρ c (Proc.devRef .tc main_arg9)).trans (arg9_at10 m ρ c)
theorem arg9_at12 (c : Dev nD) : W12 m ρ c (Proc.devRef .tc main_arg9) = m ((c : Thread nD τ).loc main_arg9) :=
  (W12_of_ne m ρ c main_arg9 (by decide)).trans (arg9_at11 m ρ c)
theorem arg9_at13 (c : Dev nD) : W13 m ρ c (Proc.devRef .tc main_arg9) = m ((c : Thread nD τ).loc main_arg9) :=
  (by host_keeps hostOps6 : W13 m ρ c (Proc.devRef .tc main_arg9) = W12 m ρ c (Proc.devRef .tc main_arg9)).trans (arg9_at12 m ρ c)

/-! ### Argument 10 -/
theorem arg10_at1 (c : Dev nD) : W1 m ρ c (Proc.devRef .tc main_arg10) = m ((c : Thread nD τ).loc main_arg10) :=
  (by host_keeps hostOps0 : W1 m ρ c (Proc.devRef .tc main_arg10) = W0 m ρ c (Proc.devRef .tc main_arg10)).trans rfl
theorem arg10_at2 (c : Dev nD) : W2 m ρ c (Proc.devRef .tc main_arg10) = m ((c : Thread nD τ).loc main_arg10) :=
  (W2_of_ne m ρ c main_arg10 (by decide)).trans (arg10_at1 m ρ c)
theorem arg10_at3 (c : Dev nD) : W3 m ρ c (Proc.devRef .tc main_arg10) = m ((c : Thread nD τ).loc main_arg10) :=
  (by host_keeps hostOps1 : W3 m ρ c (Proc.devRef .tc main_arg10) = W2 m ρ c (Proc.devRef .tc main_arg10)).trans (arg10_at2 m ρ c)
theorem arg10_at4 (c : Dev nD) : W4 m ρ c (Proc.devRef .tc main_arg10) = m ((c : Thread nD τ).loc main_arg10) :=
  (W4_of_ne m ρ c main_arg10 (by decide)).trans (arg10_at3 m ρ c)
theorem arg10_at5 (c : Dev nD) : W5 m ρ c (Proc.devRef .tc main_arg10) = m ((c : Thread nD τ).loc main_arg10) :=
  (by host_keeps hostOps2 : W5 m ρ c (Proc.devRef .tc main_arg10) = W4 m ρ c (Proc.devRef .tc main_arg10)).trans (arg10_at4 m ρ c)
theorem arg10_at6 (c : Dev nD) : W6 m ρ c (Proc.devRef .tc main_arg10) = m ((c : Thread nD τ).loc main_arg10) :=
  (W6_of_ne m ρ c main_arg10 (by decide)).trans (arg10_at5 m ρ c)
theorem arg10_at7 (c : Dev nD) : W7 m ρ c (Proc.devRef .tc main_arg10) = m ((c : Thread nD τ).loc main_arg10) :=
  (by host_keeps hostOps3 : W7 m ρ c (Proc.devRef .tc main_arg10) = W6 m ρ c (Proc.devRef .tc main_arg10)).trans (arg10_at6 m ρ c)
theorem arg10_at8 (c : Dev nD) : W8 m ρ c (Proc.devRef .tc main_arg10) = m ((c : Thread nD τ).loc main_arg10) :=
  (W8_of_ne m ρ c main_arg10 (by decide)).trans (arg10_at7 m ρ c)
theorem arg10_at9 (c : Dev nD) : W9 m ρ c (Proc.devRef .tc main_arg10) = m ((c : Thread nD τ).loc main_arg10) :=
  (by host_keeps hostOps4 : W9 m ρ c (Proc.devRef .tc main_arg10) = W8 m ρ c (Proc.devRef .tc main_arg10)).trans (arg10_at8 m ρ c)
theorem arg10_at10 (c : Dev nD) : W10 m ρ c (Proc.devRef .tc main_arg10) = m ((c : Thread nD τ).loc main_arg10) :=
  (W10_of_ne m ρ c main_arg10 (by decide)).trans (arg10_at9 m ρ c)
theorem arg10_at11 (c : Dev nD) : W11 m ρ c (Proc.devRef .tc main_arg10) = m ((c : Thread nD τ).loc main_arg10) :=
  (by host_keeps hostOps5 : W11 m ρ c (Proc.devRef .tc main_arg10) = W10 m ρ c (Proc.devRef .tc main_arg10)).trans (arg10_at10 m ρ c)
theorem arg10_at12 (c : Dev nD) : W12 m ρ c (Proc.devRef .tc main_arg10) = m ((c : Thread nD τ).loc main_arg10) :=
  (W12_of_ne m ρ c main_arg10 (by decide)).trans (arg10_at11 m ρ c)
theorem arg10_at13 (c : Dev nD) : W13 m ρ c (Proc.devRef .tc main_arg10) = m ((c : Thread nD τ).loc main_arg10) :=
  (by host_keeps hostOps6 : W13 m ρ c (Proc.devRef .tc main_arg10) = W12 m ρ c (Proc.devRef .tc main_arg10)).trans (arg10_at12 m ρ c)
theorem arg10_at14 (c : Dev nD) : W14 m ρ c (Proc.devRef .tc main_arg10) = m ((c : Thread nD τ).loc main_arg10) :=
  (W14_of_ne m ρ c main_arg10 (by decide)).trans (arg10_at13 m ρ c)

/-! ### The out-degree factor -/
theorem outFactor_at2 (c : Dev nD) : W2 m ρ c (Proc.devRef .tc main_v9) = W1 m ρ c (Proc.devRef .tc main_v9) :=
  (W2_of_ne m ρ c main_v9 (by decide)).trans rfl
theorem outFactor_at3 (c : Dev nD) : W3 m ρ c (Proc.devRef .tc main_v9) = W1 m ρ c (Proc.devRef .tc main_v9) :=
  (by host_keeps hostOps1 : W3 m ρ c (Proc.devRef .tc main_v9) = W2 m ρ c (Proc.devRef .tc main_v9)).trans (outFactor_at2 m ρ c)
theorem outFactor_at4 (c : Dev nD) : W4 m ρ c (Proc.devRef .tc main_v9) = W1 m ρ c (Proc.devRef .tc main_v9) :=
  (W4_of_ne m ρ c main_v9 (by decide)).trans (outFactor_at3 m ρ c)
theorem outFactor_at5 (c : Dev nD) : W5 m ρ c (Proc.devRef .tc main_v9) = W1 m ρ c (Proc.devRef .tc main_v9) :=
  (by host_keeps hostOps2 : W5 m ρ c (Proc.devRef .tc main_v9) = W4 m ρ c (Proc.devRef .tc main_v9)).trans (outFactor_at4 m ρ c)
theorem outFactor_at6 (c : Dev nD) : W6 m ρ c (Proc.devRef .tc main_v9) = W1 m ρ c (Proc.devRef .tc main_v9) :=
  (W6_of_ne m ρ c main_v9 (by decide)).trans (outFactor_at5 m ρ c)
theorem outFactor_at7 (c : Dev nD) : W7 m ρ c (Proc.devRef .tc main_v9) = W1 m ρ c (Proc.devRef .tc main_v9) :=
  (by host_keeps hostOps3 : W7 m ρ c (Proc.devRef .tc main_v9) = W6 m ρ c (Proc.devRef .tc main_v9)).trans (outFactor_at6 m ρ c)
theorem outFactor_at8 (c : Dev nD) : W8 m ρ c (Proc.devRef .tc main_v9) = W1 m ρ c (Proc.devRef .tc main_v9) :=
  (W8_of_ne m ρ c main_v9 (by decide)).trans (outFactor_at7 m ρ c)
theorem outFactor_at9 (c : Dev nD) : W9 m ρ c (Proc.devRef .tc main_v9) = W1 m ρ c (Proc.devRef .tc main_v9) :=
  (by host_keeps hostOps4 : W9 m ρ c (Proc.devRef .tc main_v9) = W8 m ρ c (Proc.devRef .tc main_v9)).trans (outFactor_at8 m ρ c)
theorem outFactor_at10 (c : Dev nD) : W10 m ρ c (Proc.devRef .tc main_v9) = W1 m ρ c (Proc.devRef .tc main_v9) :=
  (W10_of_ne m ρ c main_v9 (by decide)).trans (outFactor_at9 m ρ c)
theorem outFactor_at11 (c : Dev nD) : W11 m ρ c (Proc.devRef .tc main_v9) = W1 m ρ c (Proc.devRef .tc main_v9) :=
  (by host_keeps hostOps5 : W11 m ρ c (Proc.devRef .tc main_v9) = W10 m ρ c (Proc.devRef .tc main_v9)).trans (outFactor_at10 m ρ c)
theorem outFactor_at12 (c : Dev nD) : W12 m ρ c (Proc.devRef .tc main_v9) = W1 m ρ c (Proc.devRef .tc main_v9) :=
  (W12_of_ne m ρ c main_v9 (by decide)).trans (outFactor_at11 m ρ c)

/-! ### The in-degree factor -/
theorem inFactor_at2 (c : Dev nD) : W2 m ρ c (Proc.devRef .tc main_v12) = W1 m ρ c (Proc.devRef .tc main_v12) :=
  (W2_of_ne m ρ c main_v12 (by decide)).trans rfl
theorem inFactor_at3 (c : Dev nD) : W3 m ρ c (Proc.devRef .tc main_v12) = W1 m ρ c (Proc.devRef .tc main_v12) :=
  (by host_keeps hostOps1 : W3 m ρ c (Proc.devRef .tc main_v12) = W2 m ρ c (Proc.devRef .tc main_v12)).trans (inFactor_at2 m ρ c)
theorem inFactor_at4 (c : Dev nD) : W4 m ρ c (Proc.devRef .tc main_v12) = W1 m ρ c (Proc.devRef .tc main_v12) :=
  (W4_of_ne m ρ c main_v12 (by decide)).trans (inFactor_at3 m ρ c)
theorem inFactor_at5 (c : Dev nD) : W5 m ρ c (Proc.devRef .tc main_v12) = W1 m ρ c (Proc.devRef .tc main_v12) :=
  (by host_keeps hostOps2 : W5 m ρ c (Proc.devRef .tc main_v12) = W4 m ρ c (Proc.devRef .tc main_v12)).trans (inFactor_at4 m ρ c)
theorem inFactor_at6 (c : Dev nD) : W6 m ρ c (Proc.devRef .tc main_v12) = W1 m ρ c (Proc.devRef .tc main_v12) :=
  (W6_of_ne m ρ c main_v12 (by decide)).trans (inFactor_at5 m ρ c)
theorem inFactor_at7 (c : Dev nD) : W7 m ρ c (Proc.devRef .tc main_v12) = W1 m ρ c (Proc.devRef .tc main_v12) :=
  (by host_keeps hostOps3 : W7 m ρ c (Proc.devRef .tc main_v12) = W6 m ρ c (Proc.devRef .tc main_v12)).trans (inFactor_at6 m ρ c)
theorem inFactor_at8 (c : Dev nD) : W8 m ρ c (Proc.devRef .tc main_v12) = W1 m ρ c (Proc.devRef .tc main_v12) :=
  (W8_of_ne m ρ c main_v12 (by decide)).trans (inFactor_at7 m ρ c)
theorem inFactor_at9 (c : Dev nD) : W9 m ρ c (Proc.devRef .tc main_v12) = W1 m ρ c (Proc.devRef .tc main_v12) :=
  (by host_keeps hostOps4 : W9 m ρ c (Proc.devRef .tc main_v12) = W8 m ρ c (Proc.devRef .tc main_v12)).trans (inFactor_at8 m ρ c)
theorem inFactor_at10 (c : Dev nD) : W10 m ρ c (Proc.devRef .tc main_v12) = W1 m ρ c (Proc.devRef .tc main_v12) :=
  (W10_of_ne m ρ c main_v12 (by decide)).trans (inFactor_at9 m ρ c)
theorem inFactor_at11 (c : Dev nD) : W11 m ρ c (Proc.devRef .tc main_v12) = W1 m ρ c (Proc.devRef .tc main_v12) :=
  (by host_keeps hostOps5 : W11 m ρ c (Proc.devRef .tc main_v12) = W10 m ρ c (Proc.devRef .tc main_v12)).trans (inFactor_at10 m ρ c)
theorem inFactor_at12 (c : Dev nD) : W12 m ρ c (Proc.devRef .tc main_v12) = W1 m ρ c (Proc.devRef .tc main_v12) :=
  (W12_of_ne m ρ c main_v12 (by decide)).trans (inFactor_at11 m ρ c)
theorem inFactor_at13 (c : Dev nD) : W13 m ρ c (Proc.devRef .tc main_v12) = W1 m ρ c (Proc.devRef .tc main_v12) :=
  (by host_keeps hostOps6 : W13 m ρ c (Proc.devRef .tc main_v12) = W12 m ρ c (Proc.devRef .tc main_v12)).trans (inFactor_at12 m ρ c)
theorem inFactor_at14 (c : Dev nD) : W14 m ρ c (Proc.devRef .tc main_v12) = W1 m ρ c (Proc.devRef .tc main_v12) :=
  (W14_of_ne m ρ c main_v12 (by decide)).trans (inFactor_at13 m ρ c)

end Cert.KernelIdeal.Carried

end
-- ==== Proof.LibDotRows.lean ====
/-
  A plain matrix product, read one entry at a time, is a row against the columns.

  For a contraction of an [M, K] operand's second axis with a [K, N] operand's first axis — the dimension numbers of a
  plain matrix product — the sum over the contraction index that a matrix product denotes on the extended reals is
  the sum over k of the left operand's entry (i, k) times the right operand's entry (k, j). The lemma is stated for
  any dimension record whose four coordinate maps are the plain ones (the hypotheses), so that it applies both to a
  kernel's matrix unit over one block and to a host contraction over the whole array; what follows from it is that
  entry (i, j) depends on the left operand through its row i alone.
-/
import Idealize.ShloMosaic.PureOps.Ideal.Laws
import Idealize.ShloMosaic.Lib.ValueIdx

noncomputable section

namespace Cert.LibDotRows

open Idealize.ShloMosaic Idealize.ShloMosaic.ValueIdx

/-- The row `x` against column `q` of `w`: the sum over k of x k · w (k, q), on the extended reals. -/
def rowDot {K N : Nat} (x : Fin K → EReal) (w : (⟨2, ![K, N]⟩ : Shape).Idx → EReal) (q : Fin N) : EReal :=
  ∑ k : Fin K, x k * w (ix2 k q)

/-- The sum over a plain contraction's index is the row sum: the left operand is read along row `i 0`, the right
    operand down column `i 1`. The four hypotheses say that the record's coordinate maps are the plain ones. -/
theorem sum_contr_eq_rowDot {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : (⟨2, ![M, K]⟩ : Shape).Idx → EReal) (r : (⟨2, ![K, N]⟩ : Shape).Idx → EReal) (i : (⟨2, ![M, N]⟩ : Shape).Idx) :
    ∑ k : D.contr.Idx, l (D.lhsIdx i k) * r (D.rhsIdx i k) = rowDot (fun k => l (ix2 (i 0) k)) r (i 1) := by
  unfold rowDot
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 k (i 1) := funext fun a => Fin.ext (by
    match a with
    | ⟨0, _⟩ => exact (hr0 _ _).trans hk
    | ⟨1, _⟩ => exact hr1 _ _)
  rw [el, er]
  rfl

/-- Two rows that agree entry by entry have the same product with every column. -/
theorem rowDot_congr {K N : Nat} {x y : Fin K → EReal} (h : ∀ k, x k = y k) (w : (⟨2, ![K, N]⟩ : Shape).Idx → EReal) (q : Fin N) :
    rowDot x w q = rowDot y w q := by
  unfold rowDot
  exact Finset.sum_congr rfl fun k _ => by rw [h k]

end Cert.LibDotRows

end
-- ==== Proof.LibColumns.lean ====
/-
  Column vectors among matrices, read at explicit coordinates.

  A sum or a maximum taken along the rows of a matrix with the reduced axis kept comes back as an `a × 1` column:
  the length-`a` result reshaped to a column, and later spread across the columns of a matrix again. Read at an
  index: the reshaped column's entry `(i, u)` is the vector's entry `i`; the column spread to `a × b` has, at
  `(p, c)`, the column's entry `(p, 0)`. Also here: the sum over the one index of a single-axis contraction, with
  the two operands' indices along the contracted axis named by the caller.
-/
import Idealize.ShloMosaic.Lib.ValueIdx
import Idealize.ShloMosaic.Lib.Pipeline.Value
import Idealize.ShloMosaic.PureOps.Ideal.Laws

namespace Cert.LibColumns

open Idealize.ShloMosaic Idealize.ShloMosaic.ValueIdx

variable {α : Type}

/-- A length-`a` vector reshaped to an `a × 1` column: entry `(i, u)` is the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column spread across `b` columns: entry `(p, c)` is the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over a one-axis contraction's index, re-indexed by the contracted coordinate `k`: the caller names the
    two operands' indices at each `k`. -/
theorem sum_contr1 {sl sr so : Shape} (D : DotDims sl sr so) (K : ℕ) (hr : D.contr.rank = 1)
    (hs : D.contr.size ⟨0, by omega⟩ = K) (l : sl.Idx → EReal) (r : sr.Idx → EReal) (j : so.Idx)
    (L : Fin K → sl.Idx) (R : Fin K → sr.Idx)
    (hl : ∀ k : Fin K, D.lhsIdx j ((contrEquiv1 D K hr hs).symm k) = L k)
    (hr' : ∀ k : Fin K, D.rhsIdx j ((contrEquiv1 D K hr hs).symm k) = R k) :
    ∑ q : D.contr.Idx, l (D.lhsIdx j q) * r (D.rhsIdx j q) = ∑ k : Fin K, l (L k) * r (R k) := by
  rw [← Equiv.sum_comp (contrEquiv1 D K hr hs).symm]
  exact Finset.sum_congr rfl fun k _ => by rw [hl k, hr' k]

end Cert.LibColumns
-- ==== Proof.GraphLayer.lean ====
/-
  The dense pieces of one graph-convolution layer, entry by entry, on the extended reals.

  A layer scales each node's feature row by a per-node factor, multiplies by a weight matrix, sends the projected rows
  along the edges (done elsewhere), then scales each node's summed messages by a second per-node factor and adds a
  bias row, optionally clamping below at zero.

  * `project h s w`: entry (i, j) is the sum over k of (h (i, k) · s i) · w (k, j).
  * `rescale msg s b`: entry (i, j) is msg (i, j) · s i + b j; `rescaleClamp` is its maximum with zero.
  The per-node factor may come as a length-n vector or as that vector laid out as an n × 1 column: `project_col`,
  `rescale_col` say the two readings agree.
-/
import Idealize.ShloMosaic.PureOps.Ideal.Laws
import Idealize.ShloMosaic.Lib.ValueIdx
import proofs.«159211_j16449724744842_1_alg».proof.Proof.LibDotRows

noncomputable section

namespace Cert.GraphLayer

open Idealize.ShloMosaic Idealize.ShloMosaic.ValueIdx Cert.LibDotRows

/-- Rows of `h` scaled by the per-row factor `s`, then multiplied by `w`. -/
def project {n cin cout : ℕ} (h : (⟨2, ![n, cin]⟩ : Shape).Idx → EReal) (s : (⟨1, ![n]⟩ : Shape).Idx → EReal)
    (w : (⟨2, ![cin, cout]⟩ : Shape).Idx → EReal) : (⟨2, ![n, cout]⟩ : Shape).Idx → EReal :=
  fun i => rowDot (fun k => h (ix2 (i 0) k) * s (ix1 (i 0))) w (i 1)

/-- The same with the factor laid out as an n × 1 column. -/
def projectCol {n cin cout : ℕ} (h : (⟨2, ![n, cin]⟩ : Shape).Idx → EReal) (s : (⟨2, ![n, 1]⟩ : Shape).Idx → EReal)
    (w : (⟨2, ![cin, cout]⟩ : Shape).Idx → EReal) : (⟨2, ![n, cout]⟩ : Shape).Idx → EReal :=
  fun i => rowDot (fun k => h (ix2 (i 0) k) * s (ix2 (i 0) (0 : Fin 1))) w (i 1)

/-- Each row of `msg` scaled by the per-row factor, plus the bias row. -/
def rescale {n c : ℕ} (msg : (⟨2, ![n, c]⟩ : Shape).Idx → EReal) (s : (⟨1, ![n]⟩ : Shape).Idx → EReal)
    (b : (⟨1, ![c]⟩ : Shape).Idx → EReal) : (⟨2, ![n, c]⟩ : Shape).Idx → EReal :=
  fun i => msg i * s (ix1 (i 0)) + b (ix1 (i 1))

/-- The same with the factor as an n × 1 column and the bias as a 1 × c row. -/
def rescaleCol {n c : ℕ} (msg : (⟨2, ![n, c]⟩ : Shape).Idx → EReal) (s : (⟨2, ![n, 1]⟩ : Shape).Idx → EReal)
    (b : (⟨2, ![1, c]⟩ : Shape).Idx → EReal) : (⟨2, ![n, c]⟩ : Shape).Idx → EReal :=
  fun i => msg i * s (ix2 (i 0) (0 : Fin 1)) + b (ix2 (0 : Fin 1) (i 1))

/-- `rescale` clamped below at zero (the zero written as the float word it is printed with). -/
def rescaleClamp {n c : ℕ} (msg : (⟨2, ![n, c]⟩ : Shape).Idx → EReal) (s : (⟨1, ![n]⟩ : Shape).Idx → EReal)
    (b : (⟨1, ![c]⟩ : Shape).Idx → EReal) : (⟨2, ![n, c]⟩ : Shape).Idx → EReal :=
  fun i => max (rescale msg s b i) (Ideal.ofBits .f32 0x00000000#32)

def rescaleClampCol {n c : ℕ} (msg : (⟨2, ![n, c]⟩ : Shape).Idx → EReal) (s : (⟨2, ![n, 1]⟩ : Shape).Idx → EReal)
    (b : (⟨2, ![1, c]⟩ : Shape).Idx → EReal) : (⟨2, ![n, c]⟩ : Shape).Idx → EReal :=
  fun i => max (rescaleCol msg s b i) (Ideal.ofBits .f32 0x00000000#32)

/-- If the column's entry (i, 0) is the vector's entry i, the two projections agree. -/
theorem projectCol_eq {n cin cout : ℕ} (h : (⟨2, ![n, cin]⟩ : Shape).Idx → EReal) (s : (⟨1, ![n]⟩ : Shape).Idx → EReal)
    (sc : (⟨2, ![n, 1]⟩ : Shape).Idx → EReal) (w : (⟨2, ![cin, cout]⟩ : Shape).Idx → EReal)
    (hs : ∀ i : Fin n, sc (ix2 i (0 : Fin 1)) = s (ix1 i)) : projectCol h sc w = project h s w := by
  funext i
  unfold projectCol project
  exact rowDot_congr (fun k => congrArg (fun a => h (ix2 (i 0) k) * a) (hs (i 0))) w (i 1)

theorem rescaleCol_eq {n c : ℕ} (msg : (⟨2, ![n, c]⟩ : Shape).Idx → EReal) (s : (⟨1, ![n]⟩ : Shape).Idx → EReal)
    (sc : (⟨2, ![n, 1]⟩ : Shape).Idx → EReal) (b : (⟨1, ![c]⟩ : Shape).Idx → EReal) (br : (⟨2, ![1, c]⟩ : Shape).Idx → EReal)
    (hs : ∀ i : Fin n, sc (ix2 i (0 : Fin 1)) = s (ix1 i)) (hb : ∀ j : Fin c, br (ix2 (0 : Fin 1) j) = b (ix1 j)) :
    rescaleCol msg sc br = rescale msg s b := by
  funext i
  unfold rescaleCol rescale
  exact congrArg₂ (fun a b => msg i * a + b) (hs (i 0)) (hb (i 1))

theorem rescaleClampCol_eq {n c : ℕ} (msg : (⟨2, ![n, c]⟩ : Shape).Idx → EReal) (s : (⟨1, ![n]⟩ : Shape).Idx → EReal)
    (sc : (⟨2, ![n, 1]⟩ : Shape).Idx → EReal) (b : (⟨1, ![c]⟩ : Shape).Idx → EReal) (br : (⟨2, ![1, c]⟩ : Shape).Idx → EReal)
    (hs : ∀ i : Fin n, sc (ix2 i (0 : Fin 1)) = s (ix1 i)) (hb : ∀ j : Fin c, br (ix2 (0 : Fin 1) j) = b (ix1 j)) :
    rescaleClampCol msg sc br = rescaleClamp msg s b := by
  funext i
  unfold rescaleClampCol rescaleClamp
  rw [rescaleCol_eq msg s sc b br hs hb]

/-! ## One block's entry is the array's -/

/-- A block's row against its copy of the weights is the array's row against the weights, when the block's row p is
    the array's row r (entry by entry, and for the factor) and the block's weights are the array's. -/
theorem rowDot_of_block {n m cin cout : ℕ} (A : (⟨2, ![n, cin]⟩ : Shape).Idx → EReal) (S : (⟨2, ![n, 1]⟩ : Shape).Idx → EReal)
    (Wt : (⟨2, ![cin, cout]⟩ : Shape).Idx → EReal) (bA : (⟨2, ![m, cin]⟩ : Shape).Idx → EReal) (bS : (⟨2, ![m, 1]⟩ : Shape).Idx → EReal)
    (bW : (⟨2, ![cin, cout]⟩ : Shape).Idx → EReal) (i : (⟨2, ![n, cout]⟩ : Shape).Idx) (p : Fin m) (q : Fin cout)
    (hA : ∀ k : Fin cin, bA (ix2 p k) = A (ix2 (i 0) k)) (hS : bS (ix2 p (0 : Fin 1)) = S (ix2 (i 0) (0 : Fin 1)))
    (hW : ∀ y, bW y = Wt y) (hq : q = i 1) :
    rowDot (fun k => bA (ix2 p k) * bS (ix2 p (0 : Fin 1))) bW q = projectCol A S Wt i := by
  subst hq
  have hWt : bW = Wt := funext hW
  subst hWt
  unfold projectCol
  exact rowDot_congr (fun k => congrArg₂ (fun a b => a * b) (hA k) hS) _ _

/-- A block's scaled entry plus its bias entry is the array's, when the three values read are the array's. -/
theorem rescaleCol_of_block {n c : ℕ} (M : (⟨2, ![n, c]⟩ : Shape).Idx → EReal) (S : (⟨2, ![n, 1]⟩ : Shape).Idx → EReal)
    (B : (⟨2, ![1, c]⟩ : Shape).Idx → EReal) (x s b : EReal) (i : (⟨2, ![n, c]⟩ : Shape).Idx)
    (hx : x = M i) (hs : s = S (ix2 (i 0) (0 : Fin 1))) (hb : b = B (ix2 (0 : Fin 1) (i 1))) :
    x * s + b = rescaleCol M S B i := by
  subst hx hs hb
  rfl

theorem rescaleClampCol_of_block {n c : ℕ} (M : (⟨2, ![n, c]⟩ : Shape).Idx → EReal) (S : (⟨2, ![n, 1]⟩ : Shape).Idx → EReal)
    (B : (⟨2, ![1, c]⟩ : Shape).Idx → EReal) (x s b : EReal) (i : (⟨2, ![n, c]⟩ : Shape).Idx)
    (hx : x = M i) (hs : s = S (ix2 (i 0) (0 : Fin 1))) (hb : b = B (ix2 (0 : Fin 1) (i 1))) :
    max (x * s + b) (Ideal.ofBits .f32 0x00000000#32) = rescaleClampCol M S B i := by
  subst hx hs hb
  rfl

end Cert.GraphLayer

end
-- ==== Proof.Region6.lean ====
/-
  Region 6 of the idealized kernel: rows of a [100000, 32] array scaled by a per-node column and multiplied by a
  [32, 8] weight matrix, 4000 rows per grid point.

  One grid point loads its 4000 × 32 block of the features, its 4000 × 1 block of the factors and the whole weight
  matrix, and stores the 4000 × 8 product. Entry (p, q) of that block is the sum over k of
  (x (p, k) · s (p, 0)) · w (k, q): the change of float format before the matrix unit is the identity on the extended
  reals, and the matrix unit accumulates into zero. Row p of block t is row 4000 · t + p of the array, the 25 blocks
  tile the 100000 rows, so the array the region leaves is `projectCol` of the arrays it found.
-/
import proofs.«159211_j16449724744842_1_alg».proof.Proof.Gen.KernelIdeal.Frame
import proofs.«159211_j16449724744842_1_alg».proof.Proof.LibDotRows
import proofs.«159211_j16449724744842_1_alg».proof.Proof.LibColumns
import proofs.«159211_j16449724744842_1_alg».proof.Proof.GraphLayer
import Idealize.ShloMosaic.Lib.Pipeline.Value
import Idealize.ShloMosaic.Lib.ValueIdx
import Idealize.ShloMosaic.PureOps.Ideal.Laws

set_option maxRecDepth 16384

noncomputable section

namespace Cert.KernelIdeal.Region6

open Cert.KernelIdeal Cert.KernelIdeal.Gen
open Idealize.ShloMosaic Idealize.ShloMosaic.TcCoe Idealize.ShloMosaic.ValueIdx Idealize.SL.Sem
open Idealize.ShloMosaic.Pipeline (Dat)
open Cert.LibDotRows Cert.GraphLayer

/-! ## The matrix unit's coordinate maps are the plain ones -/

theorem lhs_row (i : S4000x8.Idx) (q : dot_S4000x32_S32x8_S4000x8_1_0_0_1_n_n.contr.Idx) : (dot_S4000x32_S32x8_S4000x8_1_0_0_1_n_n.lhsIdx i q 0).val = (i 0).val := by
  unfold DotDims.lhsIdx
  rw [dif_neg (show ¬(0 : Fin S4000x32.rank) ∈ dot_S4000x32_S32x8_S4000x8_1_0_0_1_n_n.lhsBatch by decide), dif_pos (show (0 : Fin S4000x32.rank) ∈ dot_S4000x32_S32x8_S4000x8_1_0_0_1_n_n.lhsNonContracting by decide)]
  rfl
theorem lhs_col (i : S4000x8.Idx) (q : dot_S4000x32_S32x8_S4000x8_1_0_0_1_n_n.contr.Idx) : (dot_S4000x32_S32x8_S4000x8_1_0_0_1_n_n.lhsIdx i q 1).val = (q ⟨0, by decide⟩).val :=
  dot_S4000x32_S32x8_S4000x8_1_0_0_1_n_n.lhsIdx_val_of_single rfl i q
theorem rhs_row (i : S4000x8.Idx) (q : dot_S4000x32_S32x8_S4000x8_1_0_0_1_n_n.contr.Idx) : (dot_S4000x32_S32x8_S4000x8_1_0_0_1_n_n.rhsIdx i q 0).val = (q ⟨0, by decide⟩).val :=
  dot_S4000x32_S32x8_S4000x8_1_0_0_1_n_n.rhsIdx_val_of_single rfl i q
theorem rhs_col (i : S4000x8.Idx) (q : dot_S4000x32_S32x8_S4000x8_1_0_0_1_n_n.contr.Idx) : (dot_S4000x32_S32x8_S4000x8_1_0_0_1_n_n.rhsIdx i q 1).val = (i 1).val := by
  unfold DotDims.rhsIdx
  rw [dif_neg (show ¬(1 : Fin S32x8.rank) ∈ dot_S4000x32_S32x8_S4000x8_1_0_0_1_n_n.rhsBatch by decide), dif_pos (show (1 : Fin S32x8.rank) ∈ dot_S4000x32_S32x8_S4000x8_1_0_0_1_n_n.rhsNonContracting by decide)]
  rfl

/-! ## One block: the body's stored value at an entry -/

/-- Entry (p, q) of what a grid point stores: row p of the feature block, each entry times the row's factor, against
    column q of the weights. -/
theorem stored_apply (x0 : Vec Ideal S4000x32 .f32) (x1 : Vec Ideal S4000x1 .f32) (x2 : Vec Ideal S32x8 .f32) (p : Fin 4000) (q : Fin 8) :
    k6_pay1 (F := Ideal) x0 x1 x2 (ix2 p q) = rowDot (fun k => x0 (ix2 p k) * x1 (ix2 p (0 : Fin 1))) x2 q := by
  unfold k6_pay1
  refine (Ideal.matmul_constant_zero_apply dot_S4000x32_S32x8_S4000x8_1_0_0_1_n_n none _ _ (ix2 p q)).trans ?_
  refine (sum_contr_eq_rowDot dot_S4000x32_S32x8_S4000x8_1_0_0_1_n_n rfl rfl lhs_row lhs_col rhs_row rhs_col _ _ (ix2 p q)).trans ?_
  refine rowDot_congr (fun k => ?_) _ _
  show (shapeCast S4000x32 x0 shapeCasts_S4000x32_S4000x32) (ix2 p k) * broadcastTo S4000x32 (shapeCast S4000x1 x1 shapeCasts_S4000x1_S4000x1) broadcasts_S4000x1_S4000x32 (ix2 p k) = _
  rw [Cert.LibColumns.broadcastTo_a1_ab_apply, shapeCast_self, shapeCast_self]

/-! ## From blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the 25 grid points: the feature, factor and output blocks of point t all start at row
    block t, column block 0; the weight matrix is one block. -/
theorem index_facts : ∀ t : Fin cfg6.N, win6_3.index t (0 : Fin 2) = t.val ∧ win6_3.index t (1 : Fin 2) = 0
    ∧ win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0 :=
  (by decide +kernel : ∀ t : Fin grid6.N, _)

/-- Every row block is some grid point's. -/
theorem point_of_rowblock : ∀ q : Fin 25, ∃ t : Fin cfg6.N, t.val = q.val :=
  (by decide +kernel : ∀ q : Fin 25, ∃ t : Fin grid6.N, t.val = q.val)

set_option maxHeartbeats 1600000 in
/-- What grid point `t` writes back is block `t` of `projectCol` of the arrays the region found. -/
theorem written_back (c : Dev nD) (t : Fin cfg6.N) :
    (dat6 V c).flushed 3 t = ((cfg6.win 3).blk t).view.read (Elt Ideal)
      (projectCol (n := 100000) (cin := 32) (cout := 8) (V c main_v57) (V c main_v58) (V c main_arg9)) := by
  show (cfg6.win 3).cut (grid6.coords t) ((dat6 V c).after 3 t) = _
  rw [after6_3]
  unfold out6_3
  rw [View.canon_unit_zero origin]
  simp only [View.ld_unit_zero (S := S4000x32) origin, View.ld_unit_zero (S := S4000x1) origin, View.ld_unit_zero (S := S32x8) origin]
  obtain ⟨o0, o1, a0, a1, b0, b1, w0, w1⟩ := index_facts t
  funext j
  refine ((congrArg (k6_pay1 (F := Ideal) (iblk6 V c 0 t) (iblk6 V c 1 t) (iblk6 V c 2 t)) (eq_ix2 j)).trans
    (stored_apply (iblk6 V c 0 t) (iblk6 V c 1 t) (iblk6 V c 2 t) (j 0) (j 1))).trans ?_
  have hj0 : (j 0).val < 4000 := (j 0).isLt
  have hj1 : (j 1).val < 8 := (j 1).isLt
  have eA : ∀ k : Fin 32, ((cfg6.win 0).blk t).view.emb (ix2 (j 0) k) = ix2 ((((cfg6.win 3).blk t).view.emb j) 0) k := fun k => by
    funext a; apply Fin.ext
    match a with
    | ⟨0, _⟩ => show win6_0.index t (0 : Fin 2) * 4000 + 1 * (j 0).val = win6_3.index t (0 : Fin 2) * 4000 + 1 * (j 0).val; omega
    | ⟨1, _⟩ => show win6_0.index t (1 : Fin 2) * 32 + 1 * k.val = k.val; omega
  have eS : ((cfg6.win 1).blk t).view.emb (ix2 (j 0) (0 : Fin 1)) = ix2 ((((cfg6.win 3).blk t).view.emb j) 0) (0 : Fin 1) := by
    funext a; apply Fin.ext
    match a with
    | ⟨0, _⟩ => show win6_1.index t (0 : Fin 2) * 4000 + 1 * (j 0).val = win6_3.index t (0 : Fin 2) * 4000 + 1 * (j 0).val; omega
    | ⟨1, _⟩ => show win6_1.index t (1 : Fin 2) * 1 + 1 * 0 = 0; omega
  have eW : ∀ y : S32x8.Idx, ((cfg6.win 2).blk t).view.emb y = y := fun y => by
    funext a; apply Fin.ext
    match a with
    | ⟨0, _⟩ => show win6_2.index t (0 : Fin 2) * 32 + 1 * (y 0).val = (y 0).val; omega
    | ⟨1, _⟩ => show win6_2.index t (1 : Fin 2) * 8 + 1 * (y 1).val = (y 1).val; omega
  have eQ : (j 1) = ((((cfg6.win 3).blk t).view.emb j) 1) := by
    apply Fin.ext
    show (j 1).val = win6_3.index t (1 : Fin 2) * 8 + 1 * (j 1).val; omega
  exact rowDot_of_block (n := 100000) (m := 4000) (cin := 32) (cout := 8) (V c main_v57) (V c main_v58) (V c main_arg9)
    (iblk6 V c 0 t) (iblk6 V c 1 t) (iblk6 V c 2 t) (((cfg6.win 3).blk t).view.emb j) (j 0) (j 1)
    (fun k => congrArg (V c main_v57) (eA k)) (congrArg (V c main_v58) eS) (fun y => congrArg (V c main_arg9) (eW y)) eQ

/-- An index of the output array is in point `t`'s block iff each coordinate is in the block's range on its axis. -/
theorem mem_block (t : Fin cfg6.N) (i : S100000x8.Idx) :
    i ∈ ((cfg6.win 3).blk t).view.set ↔ ∀ a : Fin 2, win6_3.index t a * S4000x8.size a ≤ (i a).val ∧ (i a).val < win6_3.index t a * S4000x8.size a + S4000x8.size a := by
  show i ∈ ((View.whole main_v59).slice (win6_3.rect t)).set ↔ _
  rw [View.set_slice_whole, Rect.mem_set_unit]
  exact Iff.rfl

/-- Row r lies in the block of grid point r / 4000: the 25 blocks tile the array. -/
theorem tiled (i : S100000x8.Idx) : ∃ t : Fin cfg6.N, (cfg6.win 3).flush t = true ∧ i ∈ ((cfg6.win 3).blk t).view.set := by
  have hi0 : (i 0).val < 100000 := (i 0).isLt
  have hi1 : (i 1).val < 8 := (i 1).isLt
  obtain ⟨t, ht⟩ := point_of_rowblock ⟨(i 0).val / 4000, by omega⟩
  have ht' : t.val = (i 0).val / 4000 := ht
  obtain ⟨o0, o1, -⟩ := index_facts t
  refine ⟨t, flush6_3 t, ?_⟩
  rw [mem_block]
  intro a
  match a with
  | ⟨0, _⟩ => show win6_3.index t (0 : Fin 2) * 4000 ≤ (i 0).val ∧ (i 0).val < win6_3.index t (0 : Fin 2) * 4000 + 4000; omega
  | ⟨1, _⟩ => show win6_3.index t (1 : Fin 2) * 8 ≤ (i 1).val ∧ (i 1).val < win6_3.index t (1 : Fin 2) * 8 + 8; omega

/-- The array region 6 leaves: the scaled product of the arrays it found. -/
theorem array_after (c : Dev nD) : (dat6 V c).arrAt 3 cfg6.N
    = projectCol (n := 100000) (cin := 32) (cout := 8) (V c main_v57) (V c main_v58) (V c main_arg9) :=
  (dat6 V c).arrAt_eq_of_cover 3 _ (fun t _ => written_back V c t) tiled

end Cert.KernelIdeal.Region6

end
-- ==== Proof.Region7.lean ====
/-
  Region 7 of the idealized kernel: each node's summed messages scaled by a per-node column, plus a bias row,
  4000 rows per grid point.

  One grid point loads its 4000 × 8 block of messages, its 4000 × 1 block of the factors and the 1 × 8 bias row, and
  stores, at (p, q), msg (p, q) · s (p, 0) + b (0, q). Row p of block t is row 4000 · t + p of the array and
  the 25 blocks tile the 100000 rows, so the array the region leaves is `rescaleCol` of the arrays it found.
-/
import proofs.«159211_j16449724744842_1_alg».proof.Proof.Gen.KernelIdeal.Frame
import proofs.«159211_j16449724744842_1_alg».proof.Proof.LibColumns
import proofs.«159211_j16449724744842_1_alg».proof.Proof.GraphLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region7

open Cert.KernelIdeal Cert.KernelIdeal.Gen
open Idealize.ShloMosaic Idealize.ShloMosaic.TcCoe Idealize.ShloMosaic.ValueIdx Idealize.SL.Sem
open Idealize.ShloMosaic.Pipeline (Dat)
open Cert.GraphLayer

/-! ## One block: the body's stored value at an entry -/

/-- Entry (p, q) of what a grid point stores. -/
theorem stored_apply (x0 : Vec Ideal S4000x8 .f32) (x1 : Vec Ideal S4000x1 .f32) (x2 : Vec Ideal S1x8 .f32) (p : Fin 4000) (q : Fin 8) :
    k7_pay1 (F := Ideal) x0 x1 x2 (ix2 p q) = x0 (ix2 p q) * x1 (ix2 p (0 : Fin 1)) + x2 (ix2 (0 : Fin 1) q) := by
  unfold k7_pay1
  show shapeCast S4000x8 x0 shapeCasts_S4000x8_S4000x8 (ix2 p q) * broadcastTo S4000x8 (shapeCast S4000x1 x1 shapeCasts_S4000x1_S4000x1) broadcasts_S4000x1_S4000x8 (ix2 p q) + broadcastTo S4000x8 (shapeCast S1x8 x2 shapeCasts_S1x8_S1x8) broadcasts_S1x8_S4000x8 (ix2 p q) = _
  rw [shapeCast_self, shapeCast_self, shapeCast_self, Cert.LibColumns.broadcastTo_a1_ab_apply, broadcastTo_1b_ab_apply]

/-! ## From blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the 25 grid points: the message, factor and output blocks of point t all start at row
    block t, column block 0; the bias row is one block. -/
theorem index_facts : ∀ t : Fin cfg7.N, win7_3.index t (0 : Fin 2) = t.val ∧ win7_3.index t (1 : Fin 2) = 0
    ∧ win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0 :=
  (by decide +kernel : ∀ t : Fin grid7.N, _)

/-- Every row block is some grid point's. -/
theorem point_of_rowblock : ∀ q : Fin 25, ∃ t : Fin cfg7.N, t.val = q.val :=
  (by decide +kernel : ∀ q : Fin 25, ∃ t : Fin grid7.N, t.val = q.val)

/-- What grid point `t` writes back is block `t` of `rescaleCol` of the arrays the region found. -/
theorem written_back (c : Dev nD) (t : Fin cfg7.N) :
    (dat7 V c).flushed 3 t = ((cfg7.win 3).blk t).view.read (Elt Ideal)
      (rescaleCol (n := 100000) (c := 8) (V c main_v69) (V c main_v70) (V c main_v71)) := by
  show (cfg7.win 3).cut (grid7.coords t) ((dat7 V c).after 3 t) = _
  rw [after7_3]
  unfold out7_3
  rw [View.canon_unit_zero origin]
  simp only [View.ld_unit_zero (S := S4000x8) origin, View.ld_unit_zero (S := S4000x1) origin, View.ld_unit_zero (S := S1x8) origin]
  obtain ⟨o0, o1, a0, a1, b0, b1, w0, w1⟩ := index_facts t
  funext j
  refine ((congrArg (k7_pay1 (F := Ideal) (iblk7 V c 0 t) (iblk7 V c 1 t) (iblk7 V c 2 t)) (eq_ix2 j)).trans
    (stored_apply (iblk7 V c 0 t) (iblk7 V c 1 t) (iblk7 V c 2 t) (j 0) (j 1))).trans ?_
  have hj0 : (j 0).val < 4000 := (j 0).isLt
  have hj1 : (j 1).val < 8 := (j 1).isLt
  have eX : ((cfg7.win 0).blk t).view.emb (ix2 (j 0) (j 1)) = ((cfg7.win 3).blk t).view.emb j := by
    funext a; apply Fin.ext
    match a with
    | ⟨0, _⟩ => show win7_0.index t (0 : Fin 2) * 4000 + 1 * (j 0).val = win7_3.index t (0 : Fin 2) * 4000 + 1 * (j 0).val; omega
    | ⟨1, _⟩ => show win7_0.index t (1 : Fin 2) * 8 + 1 * (j 1).val = win7_3.index t (1 : Fin 2) * 8 + 1 * (j 1).val; omega
  have eS : ((cfg7.win 1).blk t).view.emb (ix2 (j 0) (0 : Fin 1)) = ix2 ((((cfg7.win 3).blk t).view.emb j) 0) (0 : Fin 1) := by
    funext a; apply Fin.ext
    match a with
    | ⟨0, _⟩ => show win7_1.index t (0 : Fin 2) * 4000 + 1 * (j 0).val = win7_3.index t (0 : Fin 2) * 4000 + 1 * (j 0).val; omega
    | ⟨1, _⟩ => show win7_1.index t (1 : Fin 2) * 1 + 1 * 0 = 0; omega
  have eB : ((cfg7.win 2).blk t).view.emb (ix2 (0 : Fin 1) (j 1)) = ix2 (0 : Fin 1) ((((cfg7.win 3).blk t).view.emb j) 1) := by
    funext a; apply Fin.ext
    match a with
    | ⟨0, _⟩ => show win7_2.index t (0 : Fin 2) * 1 + 1 * 0 = 0; omega
    | ⟨1, _⟩ => show win7_2.index t (1 : Fin 2) * 8 + 1 * (j 1).val = win7_3.index t (1 : Fin 2) * 8 + 1 * (j 1).val; omega
  exact rescaleCol_of_block (n := 100000) (c := 8) (V c main_v69) (V c main_v70) (V c main_v71) _ _ _
    (((cfg7.win 3).blk t).view.emb j) (congrArg (V c main_v69) eX) (congrArg (V c main_v70) eS) (congrArg (V c main_v71) eB)

/-- An index of the output array is in point `t`'s block iff each coordinate is in the block's range on its axis. -/
theorem mem_block (t : Fin cfg7.N) (i : S100000x8.Idx) :
    i ∈ ((cfg7.win 3).blk t).view.set ↔ ∀ a : Fin 2, win7_3.index t a * S4000x8.size a ≤ (i a).val ∧ (i a).val < win7_3.index t a * S4000x8.size a + S4000x8.size a := by
  show i ∈ ((View.whole main_v72).slice (win7_3.rect t)).set ↔ _
  rw [View.set_slice_whole, Rect.mem_set_unit]
  exact Iff.rfl

/-- Row r lies in the block of grid point r / 4000: the 25 blocks tile the array. -/
theorem tiled (i : S100000x8.Idx) : ∃ t : Fin cfg7.N, (cfg7.win 3).flush t = true ∧ i ∈ ((cfg7.win 3).blk t).view.set := by
  have hi0 : (i 0).val < 100000 := (i 0).isLt
  have hi1 : (i 1).val < 8 := (i 1).isLt
  obtain ⟨t, ht⟩ := point_of_rowblock ⟨(i 0).val / 4000, by omega⟩
  have ht' : t.val = (i 0).val / 4000 := ht
  obtain ⟨o0, o1, -⟩ := index_facts t
  refine ⟨t, flush7_3 t, ?_⟩
  rw [mem_block]
  intro a
  match a with
  | ⟨0, _⟩ => show win7_3.index t (0 : Fin 2) * 4000 ≤ (i 0).val ∧ (i 0).val < win7_3.index t (0 : Fin 2) * 4000 + 4000; omega
  | ⟨1, _⟩ => show win7_3.index t (1 : Fin 2) * 8 ≤ (i 1).val ∧ (i 1).val < win7_3.index t (1 : Fin 2) * 8 + 8; omega

/-- The array region 7 leaves. -/
theorem array_after (c : Dev nD) : (dat7 V c).arrAt 3 cfg7.N
    = rescaleCol (n := 100000) (c := 8) (V c main_v69) (V c main_v70) (V c main_v71) :=
  (dat7 V c).arrAt_eq_of_cover 3 _ (fun t _ => written_back V c t) tiled

end Cert.KernelIdeal.Region7

end
-- ==== Proof.RefLayers.lean ====
/-
  The reference's dense stages, entry by entry.

  In each of its four layers the reference scales the node features by the out-degree factor, multiplies by the
  layer's weights (a contraction over the feature axis), sends rows along edges, scales the summed messages by the
  in-degree factor and adds the bias, and in the first three layers clamps below at zero. Read at an entry, the
  product stage is `project` of its three inputs and the last stage of a layer is `rescale` (or `rescaleClamp`) of
  the summed messages, the in-degree factor and the bias.
-/
import proofs.«159211_j16449724744842_1_alg».proof.Proof.Gen.ReferenceIdeal.Read
import proofs.«159211_j16449724744842_1_alg».proof.Proof.GraphLayer

noncomputable section

namespace Cert.ReferenceIdeal.Layers

open Cert.ReferenceIdeal Cert.ReferenceIdeal.Gen Cert.ReferenceIdeal.Read
open Idealize.ShloMosaic Idealize.ShloMosaic.TcCoe Idealize.ShloMosaic.ValueIdx
open Cert.LibDotRows Cert.GraphLayer

/-! ## Layer 0 -/

/-- The product stage: the features scaled by the out-degree factor, times the weights. -/
theorem product0 (x0 : (⟨S100000x128, .f32⟩ : BufTy).Contents (Elt Ideal)) (x1 : (⟨S1600000, .i32⟩ : BufTy).Contents (Elt Ideal)) (x3 : (⟨S128x32, .f32⟩ : BufTy).Contents (Elt Ideal)) :
    val_main_v16 (F := Ideal) x0 x1 x3 = project (n := 100000) (cin := 128) (cout := 32) x0 (val_main_v9 (F := Ideal) x1) x3 := by
  funext i
  obtain ⟨p, q, rfl⟩ : ∃ (p : Fin 100000) (q : Fin 32), i = ix2 p q := ⟨i 0, i 1, eq_ix2 i⟩
  rw [val_main_v16_apply]
  show ∑ k : Fin 128, (val_main_v15 (F := Ideal) x0 x1) (lidx_main_v16 (ix2 p q) k) * x3 (ridx_main_v16 (ix2 p q) k)
    = ∑ k : Fin 128, (x0 (ix2 p k) * val_main_v9 (F := Ideal) x1 (ix1 p)) * x3 (ix2 k q)
  refine Finset.sum_congr rfl fun k _ => ?_
  have el : lidx_main_v16 (ix2 p q) k = ix2 p k := funext fun a => Fin.ext (by match a with | ⟨0, _⟩ => rfl | ⟨1, _⟩ => rfl)
  have er : ridx_main_v16 (ix2 p q) k = ix2 k q := funext fun a => Fin.ext (by match a with | ⟨0, _⟩ => rfl | ⟨1, _⟩ => rfl)
  have es : idx_main_v13 (idx_main_v14 (ix2 p k)) = ix1 p := funext fun a => Fin.ext (by match a with | ⟨0, _⟩ => rfl)
  rw [el, er, val_main_v15_apply, val_main_v14_apply, val_main_v13_apply, es]
  rfl

/-- The layer's last stage: the summed messages scaled by the in-degree factor, plus the bias, clamped below at zero. -/
theorem output0 (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S128x32, .f32⟩ : BufTy).Contents (Elt Ideal)) (x4 : (⟨S32, .f32⟩ : BufTy).Contents (Elt Ideal)) :
    val_main_v33 (F := Ideal) x0 x1 x2 x3 x4 = rescaleClamp (n := 100000) (c := 32) (val_main_v26 (F := Ideal) x0 x1 x2 x3) (val_main_v12 (F := Ideal) x2) x4 := by
  funext i
  obtain ⟨p, q, rfl⟩ : ∃ (p : Fin 100000) (q : Fin 32), i = ix2 p q := ⟨i 0, i 1, eq_ix2 i⟩
  show val_main_v33 (F := Ideal) x0 x1 x2 x3 x4 (ix2 p q) = max (val_main_v26 (F := Ideal) x0 x1 x2 x3 (ix2 p q) * val_main_v12 (F := Ideal) x2 (ix1 p) + x4 (ix1 q)) (Ideal.ofBits .f32 0x00000000#32)
  have es : idx_main_v27 (idx_main_v28 (ix2 p q)) = ix1 p := funext fun a => Fin.ext (by match a with | ⟨0, _⟩ => rfl)
  have eb : idx_main_v30 (idx_main_v31 (ix2 p q)) = ix1 q := funext fun a => Fin.ext (by match a with | ⟨0, _⟩ => rfl)
  rw [val_main_v33_apply, val_main_v32_apply, val_main_v29_apply, val_main_v28_apply, val_main_v27_apply, val_main_v31_apply, val_main_v30_apply, val_main_call0_v0_apply, val_main_call0_cst_apply, es, eb]
  rfl

/-! ## Layer 1 -/

/-- The product stage: the features scaled by the out-degree factor, times the weights. -/
theorem product1 (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S128x32, .f32⟩ : BufTy).Contents (Elt Ideal)) (x4 : (⟨S32, .f32⟩ : BufTy).Contents (Elt Ideal)) (x5 : (⟨S32x32, .f32⟩ : BufTy).Contents (Elt Ideal)) :
    val_main_v37 (F := Ideal) x0 x1 x2 x3 x4 x5 = project (n := 100000) (cin := 32) (cout := 32) (val_main_v33 (F := Ideal) x0 x1 x2 x3 x4) (val_main_v9 (F := Ideal) x1) x5 := by
  funext i
  obtain ⟨p, q, rfl⟩ : ∃ (p : Fin 100000) (q : Fin 32), i = ix2 p q := ⟨i 0, i 1, eq_ix2 i⟩
  rw [val_main_v37_apply]
  show ∑ k : Fin 32, (val_main_v36 (F := Ideal) x0 x1 x2 x3 x4) (lidx_main_v37 (ix2 p q) k) * x5 (ridx_main_v37 (ix2 p q) k)
    = ∑ k : Fin 32, (val_main_v33 (F := Ideal) x0 x1 x2 x3 x4 (ix2 p k) * val_main_v9 (F := Ideal) x1 (ix1 p)) * x5 (ix2 k q)
  refine Finset.sum_congr rfl fun k _ => ?_
  have el : lidx_main_v37 (ix2 p q) k = ix2 p k := funext fun a => Fin.ext (by match a with | ⟨0, _⟩ => rfl | ⟨1, _⟩ => rfl)
  have er : ridx_main_v37 (ix2 p q) k = ix2 k q := funext fun a => Fin.ext (by match a with | ⟨0, _⟩ => rfl | ⟨1, _⟩ => rfl)
  have es : idx_main_v34 (idx_main_v35 (ix2 p k)) = ix1 p := funext fun a => Fin.ext (by match a with | ⟨0, _⟩ => rfl)
  rw [el, er, val_main_v36_apply, val_main_v35_apply, val_main_v34_apply, es]
  rfl

/-- The layer's last stage: the summed messages scaled by the in-degree factor, plus the bias, clamped below at zero. -/
theorem output1 (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S128x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) :
    val_main_v54 (F := Ideal) x0 x1 x2 x3 x4 x5 x6 = rescaleClamp (n := 100000) (c := 32) (val_main_v47 (F := Ideal) x0 x1 x2 x3 x4 x5) (val_main_v12 (F := Ideal) x2) x6 := by
  funext i
  obtain ⟨p, q, rfl⟩ : ∃ (p : Fin 100000) (q : Fin 32), i = ix2 p q := ⟨i 0, i 1, eq_ix2 i⟩
  show val_main_v54 (F := Ideal) x0 x1 x2 x3 x4 x5 x6 (ix2 p q) = max (val_main_v47 (F := Ideal) x0 x1 x2 x3 x4 x5 (ix2 p q) * val_main_v12 (F := Ideal) x2 (ix1 p) + x6 (ix1 q)) (Ideal.ofBits .f32 0x00000000#32)
  have es : idx_main_v48 (idx_main_v49 (ix2 p q)) = ix1 p := funext fun a => Fin.ext (by match a with | ⟨0, _⟩ => rfl)
  have eb : idx_main_v51 (idx_main_v52 (ix2 p q)) = ix1 q := funext fun a => Fin.ext (by match a with | ⟨0, _⟩ => rfl)
  rw [val_main_v54_apply, val_main_v53_apply, val_main_v50_apply, val_main_v49_apply, val_main_v48_apply, val_main_v52_apply, val_main_v51_apply, val_main_call1_v0_apply, val_main_call1_cst_apply, es, eb]
  rfl

/-! ## Layer 2 -/

/-- The product stage: the features scaled by the out-degree factor, times the weights. -/
theorem product2 (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S128x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S32x32, .f32⟩ : BufTy).Contents (Elt Ideal)) :
    val_main_v58 (F := Ideal) x0 x1 x2 x3 x4 x5 x6 x7 = project (n := 100000) (cin := 32) (cout := 32) (val_main_v54 (F := Ideal) x0 x1 x2 x3 x4 x5 x6) (val_main_v9 (F := Ideal) x1) x7 := by
  funext i
  obtain ⟨p, q, rfl⟩ : ∃ (p : Fin 100000) (q : Fin 32), i = ix2 p q := ⟨i 0, i 1, eq_ix2 i⟩
  rw [val_main_v58_apply]
  show ∑ k : Fin 32, (val_main_v57 (F := Ideal) x0 x1 x2 x3 x4 x5 x6) (lidx_main_v58 (ix2 p q) k) * x7 (ridx_main_v58 (ix2 p q) k)
    = ∑ k : Fin 32, (val_main_v54 (F := Ideal) x0 x1 x2 x3 x4 x5 x6 (ix2 p k) * val_main_v9 (F := Ideal) x1 (ix1 p)) * x7 (ix2 k q)
  refine Finset.sum_congr rfl fun k _ => ?_
  have el : lidx_main_v58 (ix2 p q) k = ix2 p k := funext fun a => Fin.ext (by match a with | ⟨0, _⟩ => rfl | ⟨1, _⟩ => rfl)
  have er : ridx_main_v58 (ix2 p q) k = ix2 k q := funext fun a => Fin.ext (by match a with | ⟨0, _⟩ => rfl | ⟨1, _⟩ => rfl)
  have es : idx_main_v55 (idx_main_v56 (ix2 p k)) = ix1 p := funext fun a => Fin.ext (by match a with | ⟨0, _⟩ => rfl)
  rw [el, er, val_main_v57_apply, val_main_v56_apply, val_main_v55_apply, es]
  rfl

/-- The layer's last stage: the summed messages scaled by the in-degree factor, plus the bias, clamped below at zero. -/
theorem output2 (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S128x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S32x32, .f32⟩ : BufTy).Contents (Elt Ideal)) (x8 : (⟨S32, .f32⟩ : BufTy).Contents (Elt Ideal)) :
    val_main_v75 (F := Ideal) x0 x1 x2 x3 x4 x5 x6 x7 x8 = rescaleClamp (n := 100000) (c := 32) (val_main_v68 (F := Ideal) x0 x1 x2 x3 x4 x5 x6 x7) (val_main_v12 (F := Ideal) x2) x8 := by
  funext i
  obtain ⟨p, q, rfl⟩ : ∃ (p : Fin 100000) (q : Fin 32), i = ix2 p q := ⟨i 0, i 1, eq_ix2 i⟩
  show val_main_v75 (F := Ideal) x0 x1 x2 x3 x4 x5 x6 x7 x8 (ix2 p q) = max (val_main_v68 (F := Ideal) x0 x1 x2 x3 x4 x5 x6 x7 (ix2 p q) * val_main_v12 (F := Ideal) x2 (ix1 p) + x8 (ix1 q)) (Ideal.ofBits .f32 0x00000000#32)
  have es : idx_main_v69 (idx_main_v70 (ix2 p q)) = ix1 p := funext fun a => Fin.ext (by match a with | ⟨0, _⟩ => rfl)
  have eb : idx_main_v72 (idx_main_v73 (ix2 p q)) = ix1 q := funext fun a => Fin.ext (by match a with | ⟨0, _⟩ => rfl)
  rw [val_main_v75_apply, val_main_v74_apply, val_main_v71_apply, val_main_v70_apply, val_main_v69_apply, val_main_v73_apply, val_main_v72_apply, val_main_call2_v0_apply, val_main_call2_cst_apply, es, eb]
  rfl

/-! ## Layer 3 -/

/-- The product stage: the features scaled by the out-degree factor, times the weights. -/
theorem product3 (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S128x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S32x32, .f32⟩ : BufTy).Contents (Elt Ideal)) (x8 : (⟨S32, .f32⟩ : BufTy).Contents (Elt Ideal)) (x9 : (⟨S32x8, .f32⟩ : BufTy).Contents (Elt Ideal)) :
    val_main_v79 (F := Ideal) x0 x1 x2 x3 x4 x5 x6 x7 x8 x9 = project (n := 100000) (cin := 32) (cout := 8) (val_main_v75 (F := Ideal) x0 x1 x2 x3 x4 x5 x6 x7 x8) (val_main_v9 (F := Ideal) x1) x9 := by
  funext i
  obtain ⟨p, q, rfl⟩ : ∃ (p : Fin 100000) (q : Fin 8), i = ix2 p q := ⟨i 0, i 1, eq_ix2 i⟩
  rw [val_main_v79_apply]
  show ∑ k : Fin 32, (val_main_v78 (F := Ideal) x0 x1 x2 x3 x4 x5 x6 x7 x8) (lidx_main_v79 (ix2 p q) k) * x9 (ridx_main_v79 (ix2 p q) k)
    = ∑ k : Fin 32, (val_main_v75 (F := Ideal) x0 x1 x2 x3 x4 x5 x6 x7 x8 (ix2 p k) * val_main_v9 (F := Ideal) x1 (ix1 p)) * x9 (ix2 k q)
  refine Finset.sum_congr rfl fun k _ => ?_
  have el : lidx_main_v79 (ix2 p q) k = ix2 p k := funext fun a => Fin.ext (by match a with | ⟨0, _⟩ => rfl | ⟨1, _⟩ => rfl)
  have er : ridx_main_v79 (ix2 p q) k = ix2 k q := funext fun a => Fin.ext (by match a with | ⟨0, _⟩ => rfl | ⟨1, _⟩ => rfl)
  have es : idx_main_v76 (idx_main_v77 (ix2 p k)) = ix1 p := funext fun a => Fin.ext (by match a with | ⟨0, _⟩ => rfl)
  rw [el, er, val_main_v78_apply, val_main_v77_apply, val_main_v76_apply, es]
  rfl

/-- The layer's last stage: the summed messages scaled by the in-degree factor, plus the bias. -/
theorem output3 (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S128x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S32x32, .f32⟩ : BufTy).Contents (Elt Ideal)) (x8 : (⟨S32, .f32⟩ : BufTy).Contents (Elt Ideal)) (x9 : (⟨S32x8, .f32⟩ : BufTy).Contents (Elt Ideal)) (x10 : (⟨S8, .f32⟩ : BufTy).Contents (Elt Ideal)) :
    val_main_v95 (F := Ideal) x0 x1 x2 x3 x4 x5 x6 x7 x8 x9 x10 = rescale (n := 100000) (c := 8) (val_main_v89 (F := Ideal) x0 x1 x2 x3 x4 x5 x6 x7 x8 x9) (val_main_v12 (F := Ideal) x2) x10 := by
  funext i
  obtain ⟨p, q, rfl⟩ : ∃ (p : Fin 100000) (q : Fin 8), i = ix2 p q := ⟨i 0, i 1, eq_ix2 i⟩
  show val_main_v95 (F := Ideal) x0 x1 x2 x3 x4 x5 x6 x7 x8 x9 x10 (ix2 p q) = val_main_v89 (F := Ideal) x0 x1 x2 x3 x4 x5 x6 x7 x8 x9 (ix2 p q) * val_main_v12 (F := Ideal) x2 (ix1 p) + x10 (ix1 q)
  have es : idx_main_v90 (idx_main_v91 (ix2 p q)) = ix1 p := funext fun a => Fin.ext (by match a with | ⟨0, _⟩ => rfl)
  have eb : idx_main_v93 (idx_main_v94 (ix2 p q)) = ix1 q := funext fun a => Fin.ext (by match a with | ⟨0, _⟩ => rfl)
  rw [val_main_v95_apply, val_main_v92_apply, val_main_v91_apply, val_main_v90_apply, val_main_v94_apply, val_main_v93_apply, es, eb]
  rfl

end Cert.ReferenceIdeal.Layers

end
-- ==== Proof.Region4.lean ====
/-
  Region 4 of the idealized kernel: rows of a [100000, 32] array scaled by a per-node column and multiplied by a
  [32, 32] weight matrix, 4000 rows per grid point.

  One grid point loads its 4000 × 32 block of the features, its 4000 × 1 block of the factors and the whole weight
  matrix, and stores the 4000 × 32 product. Entry (p, q) of that block is the sum over k of
  (x (p, k) · s (p, 0)) · w (k, q): the change of float format before the matrix unit is the identity on the extended
  reals, and the matrix unit accumulates into zero. Row p of block t is row 4000 · t + p of the array, the 25 blocks
  tile the 100000 rows, so the array the region leaves is `projectCol` of the arrays it found.
-/
import proofs.«159211_j16449724744842_1_alg».proof.Proof.Gen.KernelIdeal.Frame
import proofs.«159211_j16449724744842_1_alg».proof.Proof.LibDotRows
import proofs.«159211_j16449724744842_1_alg».proof.Proof.LibColumns
import proofs.«159211_j16449724744842_1_alg».proof.Proof.GraphLayer
import Idealize.ShloMosaic.Lib.Pipeline.Value
import Idealize.ShloMosaic.Lib.ValueIdx
import Idealize.ShloMosaic.PureOps.Ideal.Laws

set_option maxRecDepth 16384

noncomputable section

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat)
open Cert.LibDotRows Cert.GraphLayer

/-! ## The matrix unit's coordinate maps are the plain ones -/

theorem lhs_row (i : S4000x32.Idx) (q : dot_S4000x32_S32x32_S4000x32_1_0_0_1_n_n.contr.Idx) : (dot_S4000x32_S32x32_S4000x32_1_0_0_1_n_n.lhsIdx i q 0).val = (i 0).val := by
  unfold DotDims.lhsIdx
  rw [dif_neg (show ¬(0 : Fin S4000x32.rank) ∈ dot_S4000x32_S32x32_S4000x32_1_0_0_1_n_n.lhsBatch by decide), dif_pos (show (0 : Fin S4000x32.rank) ∈ dot_S4000x32_S32x32_S4000x32_1_0_0_1_n_n.lhsNonContracting by decide)]
  rfl
theorem lhs_col (i : S4000x32.Idx) (q : dot_S4000x32_S32x32_S4000x32_1_0_0_1_n_n.contr.Idx) : (dot_S4000x32_S32x32_S4000x32_1_0_0_1_n_n.lhsIdx i q 1).val = (q ⟨0, by decide⟩).val :=
  dot_S4000x32_S32x32_S4000x32_1_0_0_1_n_n.lhsIdx_val_of_single rfl i q
theorem rhs_row (i : S4000x32.Idx) (q : dot_S4000x32_S32x32_S4000x32_1_0_0_1_n_n.contr.Idx) : (dot_S4000x32_S32x32_S4000x32_1_0_0_1_n_n.rhsIdx i q 0).val = (q ⟨0, by decide⟩).val :=
  dot_S4000x32_S32x32_S4000x32_1_0_0_1_n_n.rhsIdx_val_of_single rfl i q
theorem rhs_col (i : S4000x32.Idx) (q : dot_S4000x32_S32x32_S4000x32_1_0_0_1_n_n.contr.Idx) : (dot_S4000x32_S32x32_S4000x32_1_0_0_1_n_n.rhsIdx i q 1).val = (i 1).val := by
  unfold DotDims.rhsIdx
  rw [dif_neg (show ¬(1 : Fin S32x32.rank) ∈ dot_S4000x32_S32x32_S4000x32_1_0_0_1_n_n.rhsBatch by decide), dif_pos (show (1 : Fin S32x32.rank) ∈ dot_S4000x32_S32x32_S4000x32_1_0_0_1_n_n.rhsNonContracting by decide)]
  rfl

/-! ## One block: the body's stored value at an entry -/

/-- Entry (p, q) of what a grid point stores: row p of the feature block, each entry times the row's factor, against
    column q of the weights. -/
theorem stored_apply (x0 : Vec Ideal S4000x32 .f32) (x1 : Vec Ideal S4000x1 .f32) (x2 : Vec Ideal S32x32 .f32) (p : Fin 4000) (q : Fin 32) :
    k4_pay1 (F := Ideal) x0 x1 x2 (ix2 p q) = rowDot (fun k => x0 (ix2 p k) * x1 (ix2 p (0 : Fin 1))) x2 q := by
  unfold k4_pay1
  refine (Ideal.matmul_constant_zero_apply dot_S4000x32_S32x32_S4000x32_1_0_0_1_n_n none _ _ (ix2 p q)).trans ?_
  refine (sum_contr_eq_rowDot dot_S4000x32_S32x32_S4000x32_1_0_0_1_n_n rfl rfl lhs_row lhs_col rhs_row rhs_col _ _ (ix2 p q)).trans ?_
  refine rowDot_congr (fun k => ?_) _ _
  show (shapeCast S4000x32 x0 shapeCasts_S4000x32_S4000x32) (ix2 p k) * broadcastTo S4000x32 (shapeCast S4000x1 x1 shapeCasts_S4000x1_S4000x1) broadcasts_S4000x1_S4000x32 (ix2 p k) = _
  rw [Cert.LibColumns.broadcastTo_a1_ab_apply, shapeCast_self, shapeCast_self]

/-! ## From blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the 25 grid points: the feature, factor and output blocks of point t all start at row
    block t, column block 0; the weight matrix is one block. -/
theorem index_facts : ∀ t : Fin cfg4.N, win4_3.index t (0 : Fin 2) = t.val ∧ win4_3.index t (1 : Fin 2) = 0
    ∧ win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0 :=
  (by decide +kernel : ∀ t : Fin grid4.N, _)

/-- Every row block is some grid point's. -/
theorem point_of_rowblock : ∀ q : Fin 25, ∃ t : Fin cfg4.N, t.val = q.val :=
  (by decide +kernel : ∀ q : Fin 25, ∃ t : Fin grid4.N, t.val = q.val)

/-- What grid point `t` writes back is block `t` of `projectCol` of the arrays the region found. -/
theorem written_back (c : Dev nD) (t : Fin cfg4.N) :
    (dat4 V c).flushed 3 t = ((cfg4.win 3).blk t).view.read (Elt Ideal)
      (projectCol (n := 100000) (cin := 32) (cout := 32) (V c main_v42) (V c main_v43) (V c main_arg7)) := by
  show (cfg4.win 3).cut (grid4.coords t) ((dat4 V c).after 3 t) = _
  rw [after4_3]
  unfold out4_3
  rw [View.canon_unit_zero origin]
  simp only [View.ld_unit_zero (S := S4000x32) origin, View.ld_unit_zero (S := S4000x1) origin, View.ld_unit_zero (S := S32x32) origin]
  obtain ⟨o0, o1, a0, a1, b0, b1, w0, w1⟩ := index_facts t
  funext j
  refine ((congrArg (k4_pay1 (F := Ideal) (iblk4 V c 0 t) (iblk4 V c 1 t) (iblk4 V c 2 t)) (eq_ix2 j)).trans
    (stored_apply (iblk4 V c 0 t) (iblk4 V c 1 t) (iblk4 V c 2 t) (j 0) (j 1))).trans ?_
  have hj0 : (j 0).val < 4000 := (j 0).isLt
  have hj1 : (j 1).val < 32 := (j 1).isLt
  have eA : ∀ k : Fin 32, ((cfg4.win 0).blk t).view.emb (ix2 (j 0) k) = ix2 ((((cfg4.win 3).blk t).view.emb j) 0) k := fun k => by
    funext a; apply Fin.ext
    match a with
    | ⟨0, _⟩ => show win4_0.index t (0 : Fin 2) * 4000 + 1 * (j 0).val = win4_3.index t (0 : Fin 2) * 4000 + 1 * (j 0).val; omega
    | ⟨1, _⟩ => show win4_0.index t (1 : Fin 2) * 32 + 1 * k.val = k.val; omega
  have eS : ((cfg4.win 1).blk t).view.emb (ix2 (j 0) (0 : Fin 1)) = ix2 ((((cfg4.win 3).blk t).view.emb j) 0) (0 : Fin 1) := by
    funext a; apply Fin.ext
    match a with
    | ⟨0, _⟩ => show win4_1.index t (0 : Fin 2) * 4000 + 1 * (j 0).val = win4_3.index t (0 : Fin 2) * 4000 + 1 * (j 0).val; omega
    | ⟨1, _⟩ => show win4_1.index t (1 : Fin 2) * 1 + 1 * 0 = 0; omega
  have eW : ∀ y : S32x32.Idx, ((cfg4.win 2).blk t).view.emb y = y := fun y => by
    funext a; apply Fin.ext
    match a with
    | ⟨0, _⟩ => show win4_2.index t (0 : Fin 2) * 32 + 1 * (y 0).val = (y 0).val; omega
    | ⟨1, _⟩ => show win4_2.index t (1 : Fin 2) * 32 + 1 * (y 1).val = (y 1).val; omega
  have eQ : (j 1) = ((((cfg4.win 3).blk t).view.emb j) 1) := by
    apply Fin.ext
    show (j 1).val = win4_3.index t (1 : Fin 2) * 32 + 1 * (j 1).val; omega
  exact rowDot_of_block (n := 100000) (m := 4000) (cin := 32) (cout := 32) (V c main_v42) (V c main_v43) (V c main_arg7)
    (iblk4 V c 0 t) (iblk4 V c 1 t) (iblk4 V c 2 t) (((cfg4.win 3).blk t).view.emb j) (j 0) (j 1)
    (fun k => congrArg (V c main_v42) (eA k)) (congrArg (V c main_v43) eS) (fun y => congrArg (V c main_arg7) (eW y)) eQ

/-- An index of the output array is in point `t`'s block iff each coordinate is in the block's range on its axis. -/
theorem mem_block (t : Fin cfg4.N) (i : S100000x32.Idx) :
    i ∈ ((cfg4.win 3).blk t).view.set ↔ ∀ a : Fin 2, win4_3.index t a * S4000x32.size a ≤ (i a).val ∧ (i a).val < win4_3.index t a * S4000x32.size a + S4000x32.size a := by
  show i ∈ ((View.whole main_v44).slice (win4_3.rect t)).set ↔ _
  rw [View.set_slice_whole, Rect.mem_set_unit]
  exact Iff.rfl

/-- Row r lies in the block of grid point r / 4000: the 25 blocks tile the array. -/
theorem tiled (i : S100000x32.Idx) : ∃ t : Fin cfg4.N, (cfg4.win 3).flush t = true ∧ i ∈ ((cfg4.win 3).blk t).view.set := by
  have hi0 : (i 0).val < 100000 := (i 0).isLt
  have hi1 : (i 1).val < 32 := (i 1).isLt
  obtain ⟨t, ht⟩ := point_of_rowblock ⟨(i 0).val / 4000, by omega⟩
  have ht' : t.val = (i 0).val / 4000 := ht
  obtain ⟨o0, o1, -⟩ := index_facts t
  refine ⟨t, flush4_3 t, ?_⟩
  rw [mem_block]
  intro a
  match a with
  | ⟨0, _⟩ => show win4_3.index t (0 : Fin 2) * 4000 ≤ (i 0).val ∧ (i 0).val < win4_3.index t (0 : Fin 2) * 4000 + 4000; omega
  | ⟨1, _⟩ => show win4_3.index t (1 : Fin 2) * 32 ≤ (i 1).val ∧ (i 1).val < win4_3.index t (1 : Fin 2) * 32 + 32; omega

/-- The array region 4 leaves: the scaled product of the arrays it found. -/
theorem array_after (c : Dev nD) : (dat4 V c).arrAt 3 cfg4.N
    = projectCol (n := 100000) (cin := 32) (cout := 32) (V c main_v42) (V c main_v43) (V c main_arg7) :=
  (dat4 V c).arrAt_eq_of_cover 3 _ (fun t _ => written_back V c t) tiled

end Cert.KernelIdeal.Region4

end
-- ==== Proof.Region5.lean ====
/-
  Region 5 of the idealized kernel: each node's summed messages scaled by a per-node column, plus a bias row, clamped below at zero,
  4000 rows per grid point.

  One grid point loads its 4000 × 32 block of messages, its 4000 × 1 block of the factors and the 1 × 32 bias row, and
  stores, at (p, q), msg (p, q) · s (p, 0) + b (0, q) or zero, whichever is larger. Row p of block t is row 4000 · t + p of the array and
  the 25 blocks tile the 100000 rows, so the array the region leaves is `rescaleClampCol` of the arrays it found.
-/
import proofs.«159211_j16449724744842_1_alg».proof.Proof.Gen.KernelIdeal.Frame
import proofs.«159211_j16449724744842_1_alg».proof.Proof.LibColumns
import proofs.«159211_j16449724744842_1_alg».proof.Proof.GraphLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region5

open Cert.KernelIdeal Cert.KernelIdeal.Gen
open Idealize.ShloMosaic Idealize.ShloMosaic.TcCoe Idealize.ShloMosaic.ValueIdx Idealize.SL.Sem
open Idealize.ShloMosaic.Pipeline (Dat)
open Cert.GraphLayer

/-! ## One block: the body's stored value at an entry -/

/-- Entry (p, q) of what a grid point stores. -/
theorem stored_apply (x0 : Vec Ideal S4000x32 .f32) (x1 : Vec Ideal S4000x1 .f32) (x2 : Vec Ideal S1x32 .f32) (p : Fin 4000) (q : Fin 32) :
    k5_pay1 (F := Ideal) x0 x1 x2 (ix2 p q) = max (x0 (ix2 p q) * x1 (ix2 p (0 : Fin 1)) + x2 (ix2 (0 : Fin 1) q)) (Ideal.ofBits .f32 0x00000000#32) := by
  unfold k5_pay1
  show max (shapeCast S4000x32 x0 shapeCasts_S4000x32_S4000x32 (ix2 p q) * broadcastTo S4000x32 (shapeCast S4000x1 x1 shapeCasts_S4000x1_S4000x1) broadcasts_S4000x1_S4000x32 (ix2 p q) + broadcastTo S4000x32 (shapeCast S1x32 x2 shapeCasts_S1x32_S1x32) broadcasts_S1x32_S4000x32 (ix2 p q)) (Ideal.ofBits .f32 0x00000000#32) = _
  rw [shapeCast_self, shapeCast_self, shapeCast_self, Cert.LibColumns.broadcastTo_a1_ab_apply, broadcastTo_1b_ab_apply]

/-! ## From blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the 25 grid points: the message, factor and output blocks of point t all start at row
    block t, column block 0; the bias row is one block. -/
theorem index_facts : ∀ t : Fin cfg5.N, win5_3.index t (0 : Fin 2) = t.val ∧ win5_3.index t (1 : Fin 2) = 0
    ∧ win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0 :=
  (by decide +kernel : ∀ t : Fin grid5.N, _)

/-- Every row block is some grid point's. -/
theorem point_of_rowblock : ∀ q : Fin 25, ∃ t : Fin cfg5.N, t.val = q.val :=
  (by decide +kernel : ∀ q : Fin 25, ∃ t : Fin grid5.N, t.val = q.val)

/-- What grid point `t` writes back is block `t` of `rescaleClampCol` of the arrays the region found. -/
theorem written_back (c : Dev nD) (t : Fin cfg5.N) :
    (dat5 V c).flushed 3 t = ((cfg5.win 3).blk t).view.read (Elt Ideal)
      (rescaleClampCol (n := 100000) (c := 32) (V c main_v54) (V c main_v55) (V c main_v56)) := by
  show (cfg5.win 3).cut (grid5.coords t) ((dat5 V c).after 3 t) = _
  rw [after5_3]
  unfold out5_3
  rw [View.canon_unit_zero origin]
  simp only [View.ld_unit_zero (S := S4000x32) origin, View.ld_unit_zero (S := S4000x1) origin, View.ld_unit_zero (S := S1x32) origin]
  obtain ⟨o0, o1, a0, a1, b0, b1, w0, w1⟩ := index_facts t
  funext j
  refine ((congrArg (k5_pay1 (F := Ideal) (iblk5 V c 0 t) (iblk5 V c 1 t) (iblk5 V c 2 t)) (eq_ix2 j)).trans
    (stored_apply (iblk5 V c 0 t) (iblk5 V c 1 t) (iblk5 V c 2 t) (j 0) (j 1))).trans ?_
  have hj0 : (j 0).val < 4000 := (j 0).isLt
  have hj1 : (j 1).val < 32 := (j 1).isLt
  have eX : ((cfg5.win 0).blk t).view.emb (ix2 (j 0) (j 1)) = ((cfg5.win 3).blk t).view.emb j := by
    funext a; apply Fin.ext
    match a with
    | ⟨0, _⟩ => show win5_0.index t (0 : Fin 2) * 4000 + 1 * (j 0).val = win5_3.index t (0 : Fin 2) * 4000 + 1 * (j 0).val; omega
    | ⟨1, _⟩ => show win5_0.index t (1 : Fin 2) * 32 + 1 * (j 1).val = win5_3.index t (1 : Fin 2) * 32 + 1 * (j 1).val; omega
  have eS : ((cfg5.win 1).blk t).view.emb (ix2 (j 0) (0 : Fin 1)) = ix2 ((((cfg5.win 3).blk t).view.emb j) 0) (0 : Fin 1) := by
    funext a; apply Fin.ext
    match a with
    | ⟨0, _⟩ => show win5_1.index t (0 : Fin 2) * 4000 + 1 * (j 0).val = win5_3.index t (0 : Fin 2) * 4000 + 1 * (j 0).val; omega
    | ⟨1, _⟩ => show win5_1.index t (1 : Fin 2) * 1 + 1 * 0 = 0; omega
  have eB : ((cfg5.win 2).blk t).view.emb (ix2 (0 : Fin 1) (j 1)) = ix2 (0 : Fin 1) ((((cfg5.win 3).blk t).view.emb j) 1) := by
    funext a; apply Fin.ext
    match a with
    | ⟨0, _⟩ => show win5_2.index t (0 : Fin 2) * 1 + 1 * 0 = 0; omega
    | ⟨1, _⟩ => show win5_2.index t (1 : Fin 2) * 32 + 1 * (j 1).val = win5_3.index t (1 : Fin 2) * 32 + 1 * (j 1).val; omega
  exact rescaleClampCol_of_block (n := 100000) (c := 32) (V c main_v54) (V c main_v55) (V c main_v56) _ _ _
    (((cfg5.win 3).blk t).view.emb j) (congrArg (V c main_v54) eX) (congrArg (V c main_v55) eS) (congrArg (V c main_v56) eB)

/-- An index of the output array is in point `t`'s block iff each coordinate is in the block's range on its axis. -/
theorem mem_block (t : Fin cfg5.N) (i : S100000x32.Idx) :
    i ∈ ((cfg5.win 3).blk t).view.set ↔ ∀ a : Fin 2, win5_3.index t a * S4000x32.size a ≤ (i a).val ∧ (i a).val < win5_3.index t a * S4000x32.size a + S4000x32.size a := by
  show i ∈ ((View.whole main_v57).slice (win5_3.rect t)).set ↔ _
  rw [View.set_slice_whole, Rect.mem_set_unit]
  exact Iff.rfl

/-- Row r lies in the block of grid point r / 4000: the 25 blocks tile the array. -/
theorem tiled (i : S100000x32.Idx) : ∃ t : Fin cfg5.N, (cfg5.win 3).flush t = true ∧ i ∈ ((cfg5.win 3).blk t).view.set := by
  have hi0 : (i 0).val < 100000 := (i 0).isLt
  have hi1 : (i 1).val < 32 := (i 1).isLt
  obtain ⟨t, ht⟩ := point_of_rowblock ⟨(i 0).val / 4000, by omega⟩
  have ht' : t.val = (i 0).val / 4000 := ht
  obtain ⟨o0, o1, -⟩ := index_facts t
  refine ⟨t, flush5_3 t, ?_⟩
  rw [mem_block]
  intro a
  match a with
  | ⟨0, _⟩ => show win5_3.index t (0 : Fin 2) * 4000 ≤ (i 0).val ∧ (i 0).val < win5_3.index t (0 : Fin 2) * 4000 + 4000; omega
  | ⟨1, _⟩ => show win5_3.index t (1 : Fin 2) * 32 ≤ (i 1).val ∧ (i 1).val < win5_3.index t (1 : Fin 2) * 32 + 32; omega

/-- The array region 5 leaves. -/
theorem array_after (c : Dev nD) : (dat5 V c).arrAt 3 cfg5.N
    = rescaleClampCol (n := 100000) (c := 32) (V c main_v54) (V c main_v55) (V c main_v56) :=
  (dat5 V c).arrAt_eq_of_cover 3 _ (fun t _ => written_back V c t) tiled

end Cert.KernelIdeal.Region5

end
-- ==== Proof.Region2.lean ====
/-
  Region 2 of the idealized kernel: rows of a [100000, 32] array scaled by a per-node column and multiplied by a
  [32, 32] weight matrix, 4000 rows per grid point.

  One grid point loads its 4000 × 32 block of the features, its 4000 × 1 block of the factors and the whole weight
  matrix, and stores the 4000 × 32 product. Entry (p, q) of that block is the sum over k of
  (x (p, k) · s (p, 0)) · w (k, q): the change of float format before the matrix unit is the identity on the extended
  reals, and the matrix unit accumulates into zero. Row p of block t is row 4000 · t + p of the array, the 25 blocks
  tile the 100000 rows, so the array the region leaves is `projectCol` of the arrays it found.
-/
import proofs.«159211_j16449724744842_1_alg».proof.Proof.Gen.KernelIdeal.Frame
import proofs.«159211_j16449724744842_1_alg».proof.Proof.LibDotRows
import proofs.«159211_j16449724744842_1_alg».proof.Proof.LibColumns
import proofs.«159211_j16449724744842_1_alg».proof.Proof.GraphLayer
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)
open Cert.LibDotRows Cert.GraphLayer

/-! ## The matrix unit's coordinate maps are the plain ones -/

theorem lhs_row (i : S4000x32.Idx) (q : dot_S4000x32_S32x32_S4000x32_1_0_0_1_n_n.contr.Idx) : (dot_S4000x32_S32x32_S4000x32_1_0_0_1_n_n.lhsIdx i q 0).val = (i 0).val := by
  unfold DotDims.lhsIdx
  rw [dif_neg (show ¬(0 : Fin S4000x32.rank) ∈ dot_S4000x32_S32x32_S4000x32_1_0_0_1_n_n.lhsBatch by decide), dif_pos (show (0 : Fin S4000x32.rank) ∈ dot_S4000x32_S32x32_S4000x32_1_0_0_1_n_n.lhsNonContracting by decide)]
  rfl
theorem lhs_col (i : S4000x32.Idx) (q : dot_S4000x32_S32x32_S4000x32_1_0_0_1_n_n.contr.Idx) : (dot_S4000x32_S32x32_S4000x32_1_0_0_1_n_n.lhsIdx i q 1).val = (q ⟨0, by decide⟩).val :=
  dot_S4000x32_S32x32_S4000x32_1_0_0_1_n_n.lhsIdx_val_of_single rfl i q
theorem rhs_row (i : S4000x32.Idx) (q : dot_S4000x32_S32x32_S4000x32_1_0_0_1_n_n.contr.Idx) : (dot_S4000x32_S32x32_S4000x32_1_0_0_1_n_n.rhsIdx i q 0).val = (q ⟨0, by decide⟩).val :=
  dot_S4000x32_S32x32_S4000x32_1_0_0_1_n_n.rhsIdx_val_of_single rfl i q
theorem rhs_col (i : S4000x32.Idx) (q : dot_S4000x32_S32x32_S4000x32_1_0_0_1_n_n.contr.Idx) : (dot_S4000x32_S32x32_S4000x32_1_0_0_1_n_n.rhsIdx i q 1).val = (i 1).val := by
  unfold DotDims.rhsIdx
  rw [dif_neg (show ¬(1 : Fin S32x32.rank) ∈ dot_S4000x32_S32x32_S4000x32_1_0_0_1_n_n.rhsBatch by decide), dif_pos (show (1 : Fin S32x32.rank) ∈ dot_S4000x32_S32x32_S4000x32_1_0_0_1_n_n.rhsNonContracting by decide)]
  rfl

/-! ## One block: the body's stored value at an entry -/

/-- Entry (p, q) of what a grid point stores: row p of the feature block, each entry times the row's factor, against
    column q of the weights. -/
theorem stored_apply (x0 : Vec Ideal S4000x32 .f32) (x1 : Vec Ideal S4000x1 .f32) (x2 : Vec Ideal S32x32 .f32) (p : Fin 4000) (q : Fin 32) :
    k2_pay1 (F := Ideal) x0 x1 x2 (ix2 p q) = rowDot (fun k => x0 (ix2 p k) * x1 (ix2 p (0 : Fin 1))) x2 q := by
  unfold k2_pay1
  refine (Ideal.matmul_constant_zero_apply dot_S4000x32_S32x32_S4000x32_1_0_0_1_n_n none _ _ (ix2 p q)).trans ?_
  refine (sum_contr_eq_rowDot dot_S4000x32_S32x32_S4000x32_1_0_0_1_n_n rfl rfl lhs_row lhs_col rhs_row rhs_col _ _ (ix2 p q)).trans ?_
  refine rowDot_congr (fun k => ?_) _ _
  show (shapeCast S4000x32 x0 shapeCasts_S4000x32_S4000x32) (ix2 p k) * broadcastTo S4000x32 (shapeCast S4000x1 x1 shapeCasts_S4000x1_S4000x1) broadcasts_S4000x1_S4000x32 (ix2 p k) = _
  rw [Cert.LibColumns.broadcastTo_a1_ab_apply, shapeCast_self, shapeCast_self]

/-! ## From blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the 25 grid points: the feature, factor and output blocks of point t all start at row
    block t, column block 0; the weight matrix is one block. -/
theorem index_facts : ∀ t : Fin cfg2.N, win2_3.index t (0 : Fin 2) = t.val ∧ win2_3.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0 :=
  (by decide +kernel : ∀ t : Fin grid2.N, _)

/-- Every row block is some grid point's. -/
theorem point_of_rowblock : ∀ q : Fin 25, ∃ t : Fin cfg2.N, t.val = q.val :=
  (by decide +kernel : ∀ q : Fin 25, ∃ t : Fin grid2.N, t.val = q.val)

/-- What grid point `t` writes back is block `t` of `projectCol` of the arrays the region found. -/
theorem written_back (c : Dev nD) (t : Fin cfg2.N) :
    (dat2 V c).flushed 3 t = ((cfg2.win 3).blk t).view.read (Elt Ideal)
      (projectCol (n := 100000) (cin := 32) (cout := 32) (V c main_v27) (V c main_v28) (V c main_arg5)) := by
  show (cfg2.win 3).cut (grid2.coords t) ((dat2 V c).after 3 t) = _
  rw [after2_3]
  unfold out2_3
  rw [View.canon_unit_zero origin]
  simp only [View.ld_unit_zero (S := S4000x32) origin, View.ld_unit_zero (S := S4000x1) origin, View.ld_unit_zero (S := S32x32) origin]
  obtain ⟨o0, o1, a0, a1, b0, b1, w0, w1⟩ := index_facts t
  funext j
  refine ((congrArg (k2_pay1 (F := Ideal) (iblk2 V c 0 t) (iblk2 V c 1 t) (iblk2 V c 2 t)) (eq_ix2 j)).trans
    (stored_apply (iblk2 V c 0 t) (iblk2 V c 1 t) (iblk2 V c 2 t) (j 0) (j 1))).trans ?_
  have hj0 : (j 0).val < 4000 := (j 0).isLt
  have hj1 : (j 1).val < 32 := (j 1).isLt
  have eA : ∀ k : Fin 32, ((cfg2.win 0).blk t).view.emb (ix2 (j 0) k) = ix2 ((((cfg2.win 3).blk t).view.emb j) 0) k := fun k => by
    funext a; apply Fin.ext
    match a with
    | ⟨0, _⟩ => show win2_0.index t (0 : Fin 2) * 4000 + 1 * (j 0).val = win2_3.index t (0 : Fin 2) * 4000 + 1 * (j 0).val; omega
    | ⟨1, _⟩ => show win2_0.index t (1 : Fin 2) * 32 + 1 * k.val = k.val; omega
  have eS : ((cfg2.win 1).blk t).view.emb (ix2 (j 0) (0 : Fin 1)) = ix2 ((((cfg2.win 3).blk t).view.emb j) 0) (0 : Fin 1) := by
    funext a; apply Fin.ext
    match a with
    | ⟨0, _⟩ => show win2_1.index t (0 : Fin 2) * 4000 + 1 * (j 0).val = win2_3.index t (0 : Fin 2) * 4000 + 1 * (j 0).val; omega
    | ⟨1, _⟩ => show win2_1.index t (1 : Fin 2) * 1 + 1 * 0 = 0; omega
  have eW : ∀ y : S32x32.Idx, ((cfg2.win 2).blk t).view.emb y = y := fun y => by
    funext a; apply Fin.ext
    match a with
    | ⟨0, _⟩ => show win2_2.index t (0 : Fin 2) * 32 + 1 * (y 0).val = (y 0).val; omega
    | ⟨1, _⟩ => show win2_2.index t (1 : Fin 2) * 32 + 1 * (y 1).val = (y 1).val; omega
  have eQ : (j 1) = ((((cfg2.win 3).blk t).view.emb j) 1) := by
    apply Fin.ext
    show (j 1).val = win2_3.index t (1 : Fin 2) * 32 + 1 * (j 1).val; omega
  exact rowDot_of_block (n := 100000) (m := 4000) (cin := 32) (cout := 32) (V c main_v27) (V c main_v28) (V c main_arg5)
    (iblk2 V c 0 t) (iblk2 V c 1 t) (iblk2 V c 2 t) (((cfg2.win 3).blk t).view.emb j) (j 0) (j 1)
    (fun k => congrArg (V c main_v27) (eA k)) (congrArg (V c main_v28) eS) (fun y => congrArg (V c main_arg5) (eW y)) eQ

/-- An index of the output array is in point `t`'s block iff each coordinate is in the block's range on its axis. -/
theorem mem_block (t : Fin cfg2.N) (i : S100000x32.Idx) :
    i ∈ ((cfg2.win 3).blk t).view.set ↔ ∀ a : Fin 2, win2_3.index t a * S4000x32.size a ≤ (i a).val ∧ (i a).val < win2_3.index t a * S4000x32.size a + S4000x32.size a := by
  show i ∈ ((View.whole main_v29).slice (win2_3.rect t)).set ↔ _
  rw [View.set_slice_whole, Rect.mem_set_unit]
  exact Iff.rfl

/-- Row r lies in the block of grid point r / 4000: the 25 blocks tile the array. -/
theorem tiled (i : S100000x32.Idx) : ∃ t : Fin cfg2.N, (cfg2.win 3).flush t = true ∧ i ∈ ((cfg2.win 3).blk t).view.set := by
  have hi0 : (i 0).val < 100000 := (i 0).isLt
  have hi1 : (i 1).val < 32 := (i 1).isLt
  obtain ⟨t, ht⟩ := point_of_rowblock ⟨(i 0).val / 4000, by omega⟩
  have ht' : t.val = (i 0).val / 4000 := ht
  obtain ⟨o0, o1, -⟩ := index_facts t
  refine ⟨t, flush2_3 t, ?_⟩
  rw [mem_block]
  intro a
  match a with
  | ⟨0, _⟩ => show win2_3.index t (0 : Fin 2) * 4000 ≤ (i 0).val ∧ (i 0).val < win2_3.index t (0 : Fin 2) * 4000 + 4000; omega
  | ⟨1, _⟩ => show win2_3.index t (1 : Fin 2) * 32 ≤ (i 1).val ∧ (i 1).val < win2_3.index t (1 : Fin 2) * 32 + 32; omega

/-- The array region 2 leaves: the scaled product of the arrays it found. -/
theorem array_after (c : Dev nD) : (dat2 V c).arrAt 3 cfg2.N
    = projectCol (n := 100000) (cin := 32) (cout := 32) (V c main_v27) (V c main_v28) (V c main_arg5) :=
  (dat2 V c).arrAt_eq_of_cover 3 _ (fun t _ => written_back V c t) tiled

end Cert.KernelIdeal.Region2

end
-- ==== Proof.Region3.lean ====
/-
  Region 3 of the idealized kernel: each node's summed messages scaled by a per-node column, plus a bias row, clamped below at zero,
  4000 rows per grid point.

  One grid point loads its 4000 × 32 block of messages, its 4000 × 1 block of the factors and the 1 × 32 bias row, and
  stores, at (p, q), msg (p, q) · s (p, 0) + b (0, q) or zero, whichever is larger. Row p of block t is row 4000 · t + p of the array and
  the 25 blocks tile the 100000 rows, so the array the region leaves is `rescaleClampCol` of the arrays it found.
-/
import proofs.«159211_j16449724744842_1_alg».proof.Proof.Gen.KernelIdeal.Frame
import proofs.«159211_j16449724744842_1_alg».proof.Proof.LibColumns
import proofs.«159211_j16449724744842_1_alg».proof.Proof.GraphLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat)
open Cert.GraphLayer

/-! ## One block: the body's stored value at an entry -/

/-- Entry (p, q) of what a grid point stores. -/
theorem stored_apply (x0 : Vec Ideal S4000x32 .f32) (x1 : Vec Ideal S4000x1 .f32) (x2 : Vec Ideal S1x32 .f32) (p : Fin 4000) (q : Fin 32) :
    k3_pay1 (F := Ideal) x0 x1 x2 (ix2 p q) = max (x0 (ix2 p q) * x1 (ix2 p (0 : Fin 1)) + x2 (ix2 (0 : Fin 1) q)) (Ideal.ofBits .f32 0x00000000#32) := by
  unfold k3_pay1
  show max (shapeCast S4000x32 x0 shapeCasts_S4000x32_S4000x32 (ix2 p q) * broadcastTo S4000x32 (shapeCast S4000x1 x1 shapeCasts_S4000x1_S4000x1) broadcasts_S4000x1_S4000x32 (ix2 p q) + broadcastTo S4000x32 (shapeCast S1x32 x2 shapeCasts_S1x32_S1x32) broadcasts_S1x32_S4000x32 (ix2 p q)) (Ideal.ofBits .f32 0x00000000#32) = _
  rw [shapeCast_self, shapeCast_self, shapeCast_self, Cert.LibColumns.broadcastTo_a1_ab_apply, broadcastTo_1b_ab_apply]

/-! ## From blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the 25 grid points: the message, factor and output blocks of point t all start at row
    block t, column block 0; the bias row is one block. -/
theorem index_facts : ∀ t : Fin cfg3.N, win3_3.index t (0 : Fin 2) = t.val ∧ win3_3.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0 :=
  (by decide +kernel : ∀ t : Fin grid3.N, _)

/-- Every row block is some grid point's. -/
theorem point_of_rowblock : ∀ q : Fin 25, ∃ t : Fin cfg3.N, t.val = q.val :=
  (by decide +kernel : ∀ q : Fin 25, ∃ t : Fin grid3.N, t.val = q.val)

/-- What grid point `t` writes back is block `t` of `rescaleClampCol` of the arrays the region found. -/
theorem written_back (c : Dev nD) (t : Fin cfg3.N) :
    (dat3 V c).flushed 3 t = ((cfg3.win 3).blk t).view.read (Elt Ideal)
      (rescaleClampCol (n := 100000) (c := 32) (V c main_v39) (V c main_v40) (V c main_v41)) := by
  show (cfg3.win 3).cut (grid3.coords t) ((dat3 V c).after 3 t) = _
  rw [after3_3]
  unfold out3_3
  rw [View.canon_unit_zero origin]
  simp only [View.ld_unit_zero (S := S4000x32) origin, View.ld_unit_zero (S := S4000x1) origin, View.ld_unit_zero (S := S1x32) origin]
  obtain ⟨o0, o1, a0, a1, b0, b1, w0, w1⟩ := index_facts t
  funext j
  refine ((congrArg (k3_pay1 (F := Ideal) (iblk3 V c 0 t) (iblk3 V c 1 t) (iblk3 V c 2 t)) (eq_ix2 j)).trans
    (stored_apply (iblk3 V c 0 t) (iblk3 V c 1 t) (iblk3 V c 2 t) (j 0) (j 1))).trans ?_
  have hj0 : (j 0).val < 4000 := (j 0).isLt
  have hj1 : (j 1).val < 32 := (j 1).isLt
  have eX : ((cfg3.win 0).blk t).view.emb (ix2 (j 0) (j 1)) = ((cfg3.win 3).blk t).view.emb j := by
    funext a; apply Fin.ext
    match a with
    | ⟨0, _⟩ => show win3_0.index t (0 : Fin 2) * 4000 + 1 * (j 0).val = win3_3.index t (0 : Fin 2) * 4000 + 1 * (j 0).val; omega
    | ⟨1, _⟩ => show win3_0.index t (1 : Fin 2) * 32 + 1 * (j 1).val = win3_3.index t (1 : Fin 2) * 32 + 1 * (j 1).val; omega
  have eS : ((cfg3.win 1).blk t).view.emb (ix2 (j 0) (0 : Fin 1)) = ix2 ((((cfg3.win 3).blk t).view.emb j) 0) (0 : Fin 1) := by
    funext a; apply Fin.ext
    match a with
    | ⟨0, _⟩ => show win3_1.index t (0 : Fin 2) * 4000 + 1 * (j 0).val = win3_3.index t (0 : Fin 2) * 4000 + 1 * (j 0).val; omega
    | ⟨1, _⟩ => show win3_1.index t (1 : Fin 2) * 1 + 1 * 0 = 0; omega
  have eB : ((cfg3.win 2).blk t).view.emb (ix2 (0 : Fin 1) (j 1)) = ix2 (0 : Fin 1) ((((cfg3.win 3).blk t).view.emb j) 1) := by
    funext a; apply Fin.ext
    match a with
    | ⟨0, _⟩ => show win3_2.index t (0 : Fin 2) * 1 + 1 * 0 = 0; omega
    | ⟨1, _⟩ => show win3_2.index t (1 : Fin 2) * 32 + 1 * (j 1).val = win3_3.index t (1 : Fin 2) * 32 + 1 * (j 1).val; omega
  exact rescaleClampCol_of_block (n := 100000) (c := 32) (V c main_v39) (V c main_v40) (V c main_v41) _ _ _
    (((cfg3.win 3).blk t).view.emb j) (congrArg (V c main_v39) eX) (congrArg (V c main_v40) eS) (congrArg (V c main_v41) eB)

/-- An index of the output array is in point `t`'s block iff each coordinate is in the block's range on its axis. -/
theorem mem_block (t : Fin cfg3.N) (i : S100000x32.Idx) :
    i ∈ ((cfg3.win 3).blk t).view.set ↔ ∀ a : Fin 2, win3_3.index t a * S4000x32.size a ≤ (i a).val ∧ (i a).val < win3_3.index t a * S4000x32.size a + S4000x32.size a := by
  show i ∈ ((View.whole main_v42).slice (win3_3.rect t)).set ↔ _
  rw [View.set_slice_whole, Rect.mem_set_unit]
  exact Iff.rfl

/-- Row r lies in the block of grid point r / 4000: the 25 blocks tile the array. -/
theorem tiled (i : S100000x32.Idx) : ∃ t : Fin cfg3.N, (cfg3.win 3).flush t = true ∧ i ∈ ((cfg3.win 3).blk t).view.set := by
  have hi0 : (i 0).val < 100000 := (i 0).isLt
  have hi1 : (i 1).val < 32 := (i 1).isLt
  obtain ⟨t, ht⟩ := point_of_rowblock ⟨(i 0).val / 4000, by omega⟩
  have ht' : t.val = (i 0).val / 4000 := ht
  obtain ⟨o0, o1, -⟩ := index_facts t
  refine ⟨t, flush3_3 t, ?_⟩
  rw [mem_block]
  intro a
  match a with
  | ⟨0, _⟩ => show win3_3.index t (0 : Fin 2) * 4000 ≤ (i 0).val ∧ (i 0).val < win3_3.index t (0 : Fin 2) * 4000 + 4000; omega
  | ⟨1, _⟩ => show win3_3.index t (1 : Fin 2) * 32 ≤ (i 1).val ∧ (i 1).val < win3_3.index t (1 : Fin 2) * 32 + 32; omega

/-- The array region 3 leaves. -/
theorem array_after (c : Dev nD) : (dat3 V c).arrAt 3 cfg3.N
    = rescaleClampCol (n := 100000) (c := 32) (V c main_v39) (V c main_v40) (V c main_v41) :=
  (dat3 V c).arrAt_eq_of_cover 3 _ (fun t _ => written_back V c t) tiled

end Cert.KernelIdeal.Region3

end
-- ==== Proof.Region0.lean ====
/-
  Region 0 of the idealized kernel: rows of a [100000, 128] array scaled by a per-node column and multiplied by a
  [128, 32] weight matrix, 4000 rows per grid point.

  One grid point loads its 4000 × 128 block of the features, its 4000 × 1 block of the factors and the whole weight
  matrix, and stores the 4000 × 32 product. Entry (p, q) of that block is the sum over k of
  (x (p, k) · s (p, 0)) · w (k, q): the change of float format before the matrix unit is the identity on the extended
  reals, and the matrix unit accumulates into zero. Row p of block t is row 4000 · t + p of the array, the 25 blocks
  tile the 100000 rows, so the array the region leaves is `projectCol` of the arrays it found.
-/
import proofs.«159211_j16449724744842_1_alg».proof.Proof.Gen.KernelIdeal.Frame
import proofs.«159211_j16449724744842_1_alg».proof.Proof.LibDotRows
import proofs.«159211_j16449724744842_1_alg».proof.Proof.LibColumns
import proofs.«159211_j16449724744842_1_alg».proof.Proof.GraphLayer
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)
open Cert.LibDotRows Cert.GraphLayer

/-! ## The matrix unit's coordinate maps are the plain ones -/

theorem lhs_row (i : S4000x32.Idx) (q : dot_S4000x128_S128x32_S4000x32_1_0_0_1_n_n.contr.Idx) : (dot_S4000x128_S128x32_S4000x32_1_0_0_1_n_n.lhsIdx i q 0).val = (i 0).val := by
  unfold DotDims.lhsIdx
  rw [dif_neg (show ¬(0 : Fin S4000x128.rank) ∈ dot_S4000x128_S128x32_S4000x32_1_0_0_1_n_n.lhsBatch by decide), dif_pos (show (0 : Fin S4000x128.rank) ∈ dot_S4000x128_S128x32_S4000x32_1_0_0_1_n_n.lhsNonContracting by decide)]
  rfl
theorem lhs_col (i : S4000x32.Idx) (q : dot_S4000x128_S128x32_S4000x32_1_0_0_1_n_n.contr.Idx) : (dot_S4000x128_S128x32_S4000x32_1_0_0_1_n_n.lhsIdx i q 1).val = (q ⟨0, by decide⟩).val :=
  dot_S4000x128_S128x32_S4000x32_1_0_0_1_n_n.lhsIdx_val_of_single rfl i q
theorem rhs_row (i : S4000x32.Idx) (q : dot_S4000x128_S128x32_S4000x32_1_0_0_1_n_n.contr.Idx) : (dot_S4000x128_S128x32_S4000x32_1_0_0_1_n_n.rhsIdx i q 0).val = (q ⟨0, by decide⟩).val :=
  dot_S4000x128_S128x32_S4000x32_1_0_0_1_n_n.rhsIdx_val_of_single rfl i q
theorem rhs_col (i : S4000x32.Idx) (q : dot_S4000x128_S128x32_S4000x32_1_0_0_1_n_n.contr.Idx) : (dot_S4000x128_S128x32_S4000x32_1_0_0_1_n_n.rhsIdx i q 1).val = (i 1).val := by
  unfold DotDims.rhsIdx
  rw [dif_neg (show ¬(1 : Fin S128x32.rank) ∈ dot_S4000x128_S128x32_S4000x32_1_0_0_1_n_n.rhsBatch by decide), dif_pos (show (1 : Fin S128x32.rank) ∈ dot_S4000x128_S128x32_S4000x32_1_0_0_1_n_n.rhsNonContracting by decide)]
  rfl

/-! ## One block: the body's stored value at an entry -/

/-- Entry (p, q) of what a grid point stores: row p of the feature block, each entry times the row's factor, against
    column q of the weights. -/
theorem stored_apply (x0 : Vec Ideal S4000x128 .f32) (x1 : Vec Ideal S4000x1 .f32) (x2 : Vec Ideal S128x32 .f32) (p : Fin 4000) (q : Fin 32) :
    k0_pay1 (F := Ideal) x0 x1 x2 (ix2 p q) = rowDot (fun k => x0 (ix2 p k) * x1 (ix2 p (0 : Fin 1))) x2 q := by
  unfold k0_pay1
  refine (Ideal.matmul_constant_zero_apply dot_S4000x128_S128x32_S4000x32_1_0_0_1_n_n none _ _ (ix2 p q)).trans ?_
  refine (sum_contr_eq_rowDot dot_S4000x128_S128x32_S4000x32_1_0_0_1_n_n rfl rfl lhs_row lhs_col rhs_row rhs_col _ _ (ix2 p q)).trans ?_
  refine rowDot_congr (fun k => ?_) _ _
  show x0 (ix2 p k) * broadcastTo S4000x128 (shapeCast S4000x1 x1 shapeCasts_S4000x1_S4000x1) broadcasts_S4000x1_S4000x128 (ix2 p k) = _
  rw [Cert.LibColumns.broadcastTo_a1_ab_apply, shapeCast_self]

/-! ## From blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the 25 grid points: the feature, factor and output blocks of point t all start at row
    block t, column block 0; the weight matrix is one block. -/
theorem index_facts : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- Every row block is some grid point's. -/
theorem point_of_rowblock : ∀ q : Fin 25, ∃ t : Fin cfg0.N, t.val = q.val :=
  (by decide +kernel : ∀ q : Fin 25, ∃ t : Fin grid0.N, t.val = q.val)

/-- What grid point `t` writes back is block `t` of `projectCol` of the arrays the region found. -/
theorem written_back (c : Dev nD) (t : Fin cfg0.N) :
    (dat0 V c).flushed 3 t = ((cfg0.win 3).blk t).view.read (Elt Ideal)
      (projectCol (n := 100000) (cin := 128) (cout := 32) (V c main_arg0) (V c main_v13) (V c main_arg3)) := by
  show (cfg0.win 3).cut (grid0.coords t) ((dat0 V c).after 3 t) = _
  rw [after0_3]
  unfold out0_3
  rw [View.canon_unit_zero origin]
  simp only [View.ld_unit_zero (S := S4000x128) origin, View.ld_unit_zero (S := S4000x1) origin, View.ld_unit_zero (S := S128x32) origin]
  obtain ⟨o0, o1, a0, a1, b0, b1, w0, w1⟩ := index_facts t
  funext j
  refine ((congrArg (k0_pay1 (F := Ideal) (iblk0 V c 0 t) (iblk0 V c 1 t) (iblk0 V c 2 t)) (eq_ix2 j)).trans
    (stored_apply (iblk0 V c 0 t) (iblk0 V c 1 t) (iblk0 V c 2 t) (j 0) (j 1))).trans ?_
  have hj0 : (j 0).val < 4000 := (j 0).isLt
  have hj1 : (j 1).val < 32 := (j 1).isLt
  have eA : ∀ k : Fin 128, ((cfg0.win 0).blk t).view.emb (ix2 (j 0) k) = ix2 ((((cfg0.win 3).blk t).view.emb j) 0) k := fun k => by
    funext a; apply Fin.ext
    match a with
    | ⟨0, _⟩ => show win0_0.index t (0 : Fin 2) * 4000 + 1 * (j 0).val = win0_3.index t (0 : Fin 2) * 4000 + 1 * (j 0).val; omega
    | ⟨1, _⟩ => show win0_0.index t (1 : Fin 2) * 128 + 1 * k.val = k.val; omega
  have eS : ((cfg0.win 1).blk t).view.emb (ix2 (j 0) (0 : Fin 1)) = ix2 ((((cfg0.win 3).blk t).view.emb j) 0) (0 : Fin 1) := by
    funext a; apply Fin.ext
    match a with
    | ⟨0, _⟩ => show win0_1.index t (0 : Fin 2) * 4000 + 1 * (j 0).val = win0_3.index t (0 : Fin 2) * 4000 + 1 * (j 0).val; omega
    | ⟨1, _⟩ => show win0_1.index t (1 : Fin 2) * 1 + 1 * 0 = 0; omega
  have eW : ∀ y : S128x32.Idx, ((cfg0.win 2).blk t).view.emb y = y := fun y => by
    funext a; apply Fin.ext
    match a with
    | ⟨0, _⟩ => show win0_2.index t (0 : Fin 2) * 128 + 1 * (y 0).val = (y 0).val; omega
    | ⟨1, _⟩ => show win0_2.index t (1 : Fin 2) * 32 + 1 * (y 1).val = (y 1).val; omega
  have eQ : (j 1) = ((((cfg0.win 3).blk t).view.emb j) 1) := by
    apply Fin.ext
    show (j 1).val = win0_3.index t (1 : Fin 2) * 32 + 1 * (j 1).val; omega
  exact rowDot_of_block (n := 100000) (m := 4000) (cin := 128) (cout := 32) (V c main_arg0) (V c main_v13) (V c main_arg3)
    (iblk0 V c 0 t) (iblk0 V c 1 t) (iblk0 V c 2 t) (((cfg0.win 3).blk t).view.emb j) (j 0) (j 1)
    (fun k => congrArg (V c main_arg0) (eA k)) (congrArg (V c main_v13) eS) (fun y => congrArg (V c main_arg3) (eW y)) eQ

/-- An index of the output array is in point `t`'s block iff each coordinate is in the block's range on its axis. -/
theorem mem_block (t : Fin cfg0.N) (i : S100000x32.Idx) :
    i ∈ ((cfg0.win 3).blk t).view.set ↔ ∀ a : Fin 2, win0_3.index t a * S4000x32.size a ≤ (i a).val ∧ (i a).val < win0_3.index t a * S4000x32.size a + S4000x32.size a := by
  show i ∈ ((View.whole main_v14).slice (win0_3.rect t)).set ↔ _
  rw [View.set_slice_whole, Rect.mem_set_unit]
  exact Iff.rfl

/-- Row r lies in the block of grid point r / 4000: the 25 blocks tile the array. -/
theorem tiled (i : S100000x32.Idx) : ∃ t : Fin cfg0.N, (cfg0.win 3).flush t = true ∧ i ∈ ((cfg0.win 3).blk t).view.set := by
  have hi0 : (i 0).val < 100000 := (i 0).isLt
  have hi1 : (i 1).val < 32 := (i 1).isLt
  obtain ⟨t, ht⟩ := point_of_rowblock ⟨(i 0).val / 4000, by omega⟩
  have ht' : t.val = (i 0).val / 4000 := ht
  obtain ⟨o0, o1, -⟩ := index_facts t
  refine ⟨t, flush0_3 t, ?_⟩
  rw [mem_block]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 32 ≤ (i 1).val ∧ (i 1).val < win0_3.index t (1 : Fin 2) * 32 + 32; omega

/-- The array region 0 leaves: the scaled product of the arrays it found. -/
theorem array_after (c : Dev nD) : (dat0 V c).arrAt 3 cfg0.N
    = projectCol (n := 100000) (cin := 128) (cout := 32) (V c main_arg0) (V c main_v13) (V c main_arg3) :=
  (dat0 V c).arrAt_eq_of_cover 3 _ (fun t _ => written_back V c t) tiled

end Cert.KernelIdeal.Region0

end
-- ==== Proof.Region1.lean ====
/-
  Region 1 of the idealized kernel: each node's summed messages scaled by a per-node column, plus a bias row, clamped below at zero,
  4000 rows per grid point.

  One grid point loads its 4000 × 32 block of messages, its 4000 × 1 block of the factors and the 1 × 32 bias row, and
  stores, at (p, q), msg (p, q) · s (p, 0) + b (0, q) or zero, whichever is larger. Row p of block t is row 4000 · t + p of the array and
  the 25 blocks tile the 100000 rows, so the array the region leaves is `rescaleClampCol` of the arrays it found.
-/
import proofs.«159211_j16449724744842_1_alg».proof.Proof.Gen.KernelIdeal.Frame
import proofs.«159211_j16449724744842_1_alg».proof.Proof.LibColumns
import proofs.«159211_j16449724744842_1_alg».proof.Proof.GraphLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)
open Cert.GraphLayer

/-! ## One block: the body's stored value at an entry -/

/-- Entry (p, q) of what a grid point stores. -/
theorem stored_apply (x0 : Vec Ideal S4000x32 .f32) (x1 : Vec Ideal S4000x1 .f32) (x2 : Vec Ideal S1x32 .f32) (p : Fin 4000) (q : Fin 32) :
    k1_pay1 (F := Ideal) x0 x1 x2 (ix2 p q) = max (x0 (ix2 p q) * x1 (ix2 p (0 : Fin 1)) + x2 (ix2 (0 : Fin 1) q)) (Ideal.ofBits .f32 0x00000000#32) := by
  unfold k1_pay1
  show max (shapeCast S4000x32 x0 shapeCasts_S4000x32_S4000x32 (ix2 p q) * broadcastTo S4000x32 (shapeCast S4000x1 x1 shapeCasts_S4000x1_S4000x1) broadcasts_S4000x1_S4000x32 (ix2 p q) + broadcastTo S4000x32 (shapeCast S1x32 x2 shapeCasts_S1x32_S1x32) broadcasts_S1x32_S4000x32 (ix2 p q)) (Ideal.ofBits .f32 0x00000000#32) = _
  rw [shapeCast_self, shapeCast_self, shapeCast_self, Cert.LibColumns.broadcastTo_a1_ab_apply, broadcastTo_1b_ab_apply]

/-! ## From blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the 25 grid points: the message, factor and output blocks of point t all start at row
    block t, column block 0; the bias row is one block. -/
theorem index_facts : ∀ t : Fin cfg1.N, win1_3.index t (0 : Fin 2) = t.val ∧ win1_3.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0 :=
  (by decide +kernel : ∀ t : Fin grid1.N, _)

/-- Every row block is some grid point's. -/
theorem point_of_rowblock : ∀ q : Fin 25, ∃ t : Fin cfg1.N, t.val = q.val :=
  (by decide +kernel : ∀ q : Fin 25, ∃ t : Fin grid1.N, t.val = q.val)

/-- What grid point `t` writes back is block `t` of `rescaleClampCol` of the arrays the region found. -/
theorem written_back (c : Dev nD) (t : Fin cfg1.N) :
    (dat1 V c).flushed 3 t = ((cfg1.win 3).blk t).view.read (Elt Ideal)
      (rescaleClampCol (n := 100000) (c := 32) (V c main_v24) (V c main_v25) (V c main_v26)) := by
  show (cfg1.win 3).cut (grid1.coords t) ((dat1 V c).after 3 t) = _
  rw [after1_3]
  unfold out1_3
  rw [View.canon_unit_zero origin]
  simp only [View.ld_unit_zero (S := S4000x32) origin, View.ld_unit_zero (S := S4000x1) origin, View.ld_unit_zero (S := S1x32) origin]
  obtain ⟨o0, o1, a0, a1, b0, b1, w0, w1⟩ := index_facts t
  funext j
  refine ((congrArg (k1_pay1 (F := Ideal) (iblk1 V c 0 t) (iblk1 V c 1 t) (iblk1 V c 2 t)) (eq_ix2 j)).trans
    (stored_apply (iblk1 V c 0 t) (iblk1 V c 1 t) (iblk1 V c 2 t) (j 0) (j 1))).trans ?_
  have hj0 : (j 0).val < 4000 := (j 0).isLt
  have hj1 : (j 1).val < 32 := (j 1).isLt
  have eX : ((cfg1.win 0).blk t).view.emb (ix2 (j 0) (j 1)) = ((cfg1.win 3).blk t).view.emb j := by
    funext a; apply Fin.ext
    match a with
    | ⟨0, _⟩ => show win1_0.index t (0 : Fin 2) * 4000 + 1 * (j 0).val = win1_3.index t (0 : Fin 2) * 4000 + 1 * (j 0).val; omega
    | ⟨1, _⟩ => show win1_0.index t (1 : Fin 2) * 32 + 1 * (j 1).val = win1_3.index t (1 : Fin 2) * 32 + 1 * (j 1).val; omega
  have eS : ((cfg1.win 1).blk t).view.emb (ix2 (j 0) (0 : Fin 1)) = ix2 ((((cfg1.win 3).blk t).view.emb j) 0) (0 : Fin 1) := by
    funext a; apply Fin.ext
    match a with
    | ⟨0, _⟩ => show win1_1.index t (0 : Fin 2) * 4000 + 1 * (j 0).val = win1_3.index t (0 : Fin 2) * 4000 + 1 * (j 0).val; omega
    | ⟨1, _⟩ => show win1_1.index t (1 : Fin 2) * 1 + 1 * 0 = 0; omega
  have eB : ((cfg1.win 2).blk t).view.emb (ix2 (0 : Fin 1) (j 1)) = ix2 (0 : Fin 1) ((((cfg1.win 3).blk t).view.emb j) 1) := by
    funext a; apply Fin.ext
    match a with
    | ⟨0, _⟩ => show win1_2.index t (0 : Fin 2) * 1 + 1 * 0 = 0; omega
    | ⟨1, _⟩ => show win1_2.index t (1 : Fin 2) * 32 + 1 * (j 1).val = win1_3.index t (1 : Fin 2) * 32 + 1 * (j 1).val; omega
  exact rescaleClampCol_of_block (n := 100000) (c := 32) (V c main_v24) (V c main_v25) (V c main_v26) _ _ _
    (((cfg1.win 3).blk t).view.emb j) (congrArg (V c main_v24) eX) (congrArg (V c main_v25) eS) (congrArg (V c main_v26) eB)

/-- An index of the output array is in point `t`'s block iff each coordinate is in the block's range on its axis. -/
theorem mem_block (t : Fin cfg1.N) (i : S100000x32.Idx) :
    i ∈ ((cfg1.win 3).blk t).view.set ↔ ∀ a : Fin 2, win1_3.index t a * S4000x32.size a ≤ (i a).val ∧ (i a).val < win1_3.index t a * S4000x32.size a + S4000x32.size a := by
  show i ∈ ((View.whole main_v27).slice (win1_3.rect t)).set ↔ _
  rw [View.set_slice_whole, Rect.mem_set_unit]
  exact Iff.rfl

/-- Row r lies in the block of grid point r / 4000: the 25 blocks tile the array. -/
theorem tiled (i : S100000x32.Idx) : ∃ t : Fin cfg1.N, (cfg1.win 3).flush t = true ∧ i ∈ ((cfg1.win 3).blk t).view.set := by
  have hi0 : (i 0).val < 100000 := (i 0).isLt
  have hi1 : (i 1).val < 32 := (i 1).isLt
  obtain ⟨t, ht⟩ := point_of_rowblock ⟨(i 0).val / 4000, by omega⟩
  have ht' : t.val = (i 0).val / 4000 := ht
  obtain ⟨o0, o1, -⟩ := index_facts t
  refine ⟨t, flush1_3 t, ?_⟩
  rw [mem_block]
  intro a
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 32 ≤ (i 1).val ∧ (i 1).val < win1_3.index t (1 : Fin 2) * 32 + 32; omega

/-- The array region 1 leaves. -/
theorem array_after (c : Dev nD) : (dat1 V c).arrAt 3 cfg1.N
    = rescaleClampCol (n := 100000) (c := 32) (V c main_v24) (V c main_v25) (V c main_v26) :=
  (dat1 V c).arrAt_eq_of_cover 3 _ (fun t _ => written_back V c t) tiled

end Cert.KernelIdeal.Region1

end
-- ==== Proof.Fold0.lean ====
/-
  Layer 0 of the idealized kernel, boundary by boundary.

  The first host stretch counts each node's outgoing and incoming edges and takes the reciprocal square root of each
  count (at least one): the two per-node factors, and lays the out-degree factor out as a column.
  The first region of the
  layer then leaves the scaled product of the features and the weights; the next host stretch gathers that array's
  rows by source node and sums them by destination node, and lays the in-degree factor and the bias out as a column
  and a row; the second region leaves the rescaled sum plus the bias, clamped below at zero. At each of these
  boundaries the array just written is the reference's stage of the same name, as a function of the launch arguments.
-/
import proofs.«159211_j16449724744842_1_alg».proof.Proof.Gen.ReferenceIdeal.Read
import proofs.«159211_j16449724744842_1_alg».proof.Proof.Carried
import proofs.«159211_j16449724744842_1_alg».proof.Proof.Region0
import proofs.«159211_j16449724744842_1_alg».proof.Proof.Region1
import proofs.«159211_j16449724744842_1_alg».proof.Proof.RefLayers
import Idealize.ShloMosaic.Lib.StableHlo.Run
import Idealize.ShloMosaic.Lib.ValueLayout

set_option maxRecDepth 16384

noncomputable section

namespace Cert.KernelIdeal.Fold0

open Cert.KernelIdeal Cert.KernelIdeal.Gen Cert.KernelIdeal.Carried
open Idealize.ShloMosaic Idealize.ShloMosaic.TcCoe Idealize.SL.Sem Idealize.ShloMosaic.StableHlo Idealize.ShloMosaic.ValueIdx
open Cert.GraphLayer

variable (m : (ℓ : Loc nD τ sig) → Buf (Elt Ideal) ℓ) (ρ : Dev nD → PrngReg) (c : Dev nD)

/-- The out-degree factor, as the first host stretch leaves it. -/
theorem outFactor : W1 m ρ c (Proc.devRef .tc main_v9) = Cert.ReferenceIdeal.Read.val_main_v9 (F := Ideal) (m ((c : Thread nD τ).loc main_arg1)) := by
  show StableHlo.after hostOps0 (W0 m ρ c) (Proc.devRef .tc main_v9) = _
  after_results
  unfold Cert.ReferenceIdeal.Read.val_main_v9 Cert.ReferenceIdeal.Read.val_main_v8 Cert.ReferenceIdeal.Read.val_main_v3 Cert.ReferenceIdeal.Read.val_main_v1 Cert.ReferenceIdeal.Read.val_main_cst_0 Cert.ReferenceIdeal.Read.val_main_v2 Cert.ReferenceIdeal.Read.val_main_v0 Cert.ReferenceIdeal.Read.val_main_cst Cert.ReferenceIdeal.Read.val_main_v7 Cert.ReferenceIdeal.Read.val_main_cst_2
  rfl

/-- The in-degree factor, as the first host stretch leaves it. -/
theorem inFactor : W1 m ρ c (Proc.devRef .tc main_v12) = Cert.ReferenceIdeal.Read.val_main_v12 (F := Ideal) (m ((c : Thread nD τ).loc main_arg2)) := by
  show StableHlo.after hostOps0 (W0 m ρ c) (Proc.devRef .tc main_v12) = _
  after_results
  unfold Cert.ReferenceIdeal.Read.val_main_v12 Cert.ReferenceIdeal.Read.val_main_v11 Cert.ReferenceIdeal.Read.val_main_v6 Cert.ReferenceIdeal.Read.val_main_v4 Cert.ReferenceIdeal.Read.val_main_cst_1 Cert.ReferenceIdeal.Read.val_main_v5 Cert.ReferenceIdeal.Read.val_main_v0 Cert.ReferenceIdeal.Read.val_main_cst Cert.ReferenceIdeal.Read.val_main_v10 Cert.ReferenceIdeal.Read.val_main_cst_3
  rfl

/-- The out-degree factor laid out as a column for the first region. -/
theorem outColumn : W1 m ρ c (Proc.devRef .tc main_v13) = shapeCast S100000x1 (Cert.ReferenceIdeal.Read.val_main_v9 (F := Ideal) (m ((c : Thread nD τ).loc main_arg1))) shapeCasts_S100000_S100000x1 := by
  show StableHlo.after hostOps0 (W0 m ρ c) (Proc.devRef .tc main_v13) = _
  after_results
  unfold Cert.ReferenceIdeal.Read.val_main_v9 Cert.ReferenceIdeal.Read.val_main_v8 Cert.ReferenceIdeal.Read.val_main_v3 Cert.ReferenceIdeal.Read.val_main_v1 Cert.ReferenceIdeal.Read.val_main_cst_0 Cert.ReferenceIdeal.Read.val_main_v2 Cert.ReferenceIdeal.Read.val_main_v0 Cert.ReferenceIdeal.Read.val_main_cst Cert.ReferenceIdeal.Read.val_main_v7 Cert.ReferenceIdeal.Read.val_main_cst_2
  rfl

/-- The features the first region reads are the launch argument. -/
theorem features : W1 m ρ c (Proc.devRef .tc main_arg0) = (m ((c : Thread nD τ).loc main_arg0)) := arg0_at1 m ρ c

/-- After the layer's first region: the scaled product. -/
theorem product : W2 m ρ c (Proc.devRef .tc main_v14) = Cert.ReferenceIdeal.Read.val_main_v16 (F := Ideal) (m ((c : Thread nD τ).loc main_arg0)) (m ((c : Thread nD τ).loc main_arg1)) (m ((c : Thread nD τ).loc main_arg3)) := by
  refine (W2_arr m ρ c 3).trans ((Cert.KernelIdeal.Region0.array_after (V1 m ρ) c).trans ?_)
  show projectCol (n := 100000) (cin := 128) (cout := 32) (W1 m ρ c (Proc.devRef .tc main_arg0)) (W1 m ρ c (Proc.devRef .tc main_v13)) (W1 m ρ c (Proc.devRef .tc main_arg3)) = _
  rw [features m ρ c, outColumn m ρ c, arg3_at1 m ρ c]
  refine (projectCol_eq _ (Cert.ReferenceIdeal.Read.val_main_v9 (F := Ideal) (m ((c : Thread nD τ).loc main_arg1))) _ _ fun i => Cert.LibColumns.shapeCast_a_a1_apply _ _ i (0 : Fin 1)).trans ?_
  exact (Cert.ReferenceIdeal.Layers.product0 (m ((c : Thread nD τ).loc main_arg0)) (m ((c : Thread nD τ).loc main_arg1)) (m ((c : Thread nD τ).loc main_arg3))).symm

/-- The next host stretch: rows of the product gathered by source node, summed by destination node. -/
theorem messages : W3 m ρ c (Proc.devRef .tc main_v24) = Cert.ReferenceIdeal.Read.val_main_v26 (F := Ideal) (m ((c : Thread nD τ).loc main_arg0)) (m ((c : Thread nD τ).loc main_arg1)) (m ((c : Thread nD τ).loc main_arg2)) (m ((c : Thread nD τ).loc main_arg3)) := by
  show StableHlo.after hostOps1 (W2 m ρ c) (Proc.devRef .tc main_v24) = _
  after_results_simp
  rw [product m ρ c, arg1_at2 m ρ c, arg2_at2 m ρ c]
  unfold Cert.ReferenceIdeal.Read.val_main_v26 Cert.ReferenceIdeal.Read.val_main_v24 Cert.ReferenceIdeal.Read.val_main_cst_5 Cert.ReferenceIdeal.Read.val_main_v25 Cert.ReferenceIdeal.Read.val_main_v23 Cert.ReferenceIdeal.Read.val_main_v22 Cert.ReferenceIdeal.Read.val_main_v21 Cert.ReferenceIdeal.Read.val_main_v18 Cert.ReferenceIdeal.Read.val_main_v17 Cert.ReferenceIdeal.Read.val_main_c Cert.ReferenceIdeal.Read.val_main_v20 Cert.ReferenceIdeal.Read.val_main_v19 Cert.ReferenceIdeal.Read.val_main_c_4
  rfl

/-- The in-degree factor laid out as a column. -/
theorem inColumn : W3 m ρ c (Proc.devRef .tc main_v25) = shapeCast S100000x1 (Cert.ReferenceIdeal.Read.val_main_v12 (F := Ideal) (m ((c : Thread nD τ).loc main_arg2))) shapeCasts_S100000_S100000x1 := by
  show StableHlo.after hostOps1 (W2 m ρ c) (Proc.devRef .tc main_v25) = _
  after_results_simp
  rw [inFactor_at2 m ρ c, Cert.KernelIdeal.Fold0.inFactor m ρ c]
  rfl

/-- The bias laid out as a row. -/
theorem biasRow : W3 m ρ c (Proc.devRef .tc main_v26) = shapeCast S1x32 (m ((c : Thread nD τ).loc main_arg4)) shapeCasts_S32_S1x32 := by
  show StableHlo.after hostOps1 (W2 m ρ c) (Proc.devRef .tc main_v26) = _
  after_results_simp
  rw [arg4_at2 m ρ c]
  rfl

/-- After the layer's second region: the layer's output. -/
theorem output : W4 m ρ c (Proc.devRef .tc main_v27) = Cert.ReferenceIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 3).trans ((Cert.KernelIdeal.Region1.array_after (V3 m ρ) c).trans ?_)
  show rescaleClampCol (n := 100000) (c := 32) (W3 m ρ c (Proc.devRef .tc main_v24)) (W3 m ρ c (Proc.devRef .tc main_v25)) (W3 m ρ c (Proc.devRef .tc main_v26)) = _
  rw [messages m ρ c, inColumn m ρ c, biasRow m ρ c]
  refine (rescaleClampCol_eq _ (Cert.ReferenceIdeal.Read.val_main_v12 (F := Ideal) (m ((c : Thread nD τ).loc main_arg2))) _ (m ((c : Thread nD τ).loc main_arg4)) _
    (fun i => Cert.LibColumns.shapeCast_a_a1_apply _ _ i (0 : Fin 1)) (fun j => shapeCast_a_1a_apply _ _ (0 : Fin 1) j)).trans ?_
  exact (Cert.ReferenceIdeal.Layers.output0 (m ((c : Thread nD τ).loc main_arg0)) (m ((c : Thread nD τ).loc main_arg1)) (m ((c : Thread nD τ).loc main_arg2)) (m ((c : Thread nD τ).loc main_arg3)) (m ((c : Thread nD τ).loc main_arg4))).symm

end Cert.KernelIdeal.Fold0

end
-- ==== Proof.Fold1.lean ====
/-
  Layer 1 of the idealized kernel, boundary by boundary.

  A one-operation host stretch lays the out-degree factor out as a column again. The first region of the
  layer then leaves the scaled product of the features and the weights; the next host stretch gathers that array's
  rows by source node and sums them by destination node, and lays the in-degree factor and the bias out as a column
  and a row; the second region leaves the rescaled sum plus the bias, clamped below at zero. At each of these
  boundaries the array just written is the reference's stage of the same name, as a function of the launch arguments.
-/
import proofs.«159211_j16449724744842_1_alg».proof.Proof.Gen.ReferenceIdeal.Read
import proofs.«159211_j16449724744842_1_alg».proof.Proof.Carried
import proofs.«159211_j16449724744842_1_alg».proof.Proof.Region2
import proofs.«159211_j16449724744842_1_alg».proof.Proof.Region3
import proofs.«159211_j16449724744842_1_alg».proof.Proof.RefLayers
import proofs.«159211_j16449724744842_1_alg».proof.Proof.Fold0
import Idealize.ShloMosaic.Lib.StableHlo.Run
import Idealize.ShloMosaic.Lib.ValueLayout

set_option maxRecDepth 16384

noncomputable section

namespace Cert.KernelIdeal.Fold1

open Cert.KernelIdeal Cert.KernelIdeal.Gen Cert.KernelIdeal.Carried
open Idealize.ShloMosaic Idealize.ShloMosaic.TcCoe Idealize.SL.Sem Idealize.ShloMosaic.StableHlo Idealize.ShloMosaic.ValueIdx
open Cert.GraphLayer

variable (m : (ℓ : Loc nD τ sig) → Buf (Elt Ideal) ℓ) (ρ : Dev nD → PrngReg) (c : Dev nD)

/-- The out-degree factor laid out as a column again, from the buffer the first host stretch wrote. -/
theorem outColumn : W5 m ρ c (Proc.devRef .tc main_v28) = shapeCast S100000x1 (Cert.ReferenceIdeal.Read.val_main_v9 (F := Ideal) (m ((c : Thread nD τ).loc main_arg1))) shapeCasts_S100000_S100000x1 := by
  show StableHlo.after hostOps2 (W4 m ρ c) (Proc.devRef .tc main_v28) = _
  after_results
  rw [outFactor_at4 m ρ c, Cert.KernelIdeal.Fold0.outFactor m ρ c]
  rfl

/-- The features the region reads are the previous layer's output: the one-operation stretch does not write them. -/
theorem features : W5 m ρ c (Proc.devRef .tc main_v27) = Cert.ReferenceIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (by host_keeps hostOps2 : W5 m ρ c (Proc.devRef .tc main_v27) = W4 m ρ c (Proc.devRef .tc main_v27)).trans (Cert.KernelIdeal.Fold0.output m ρ c)

/-- After the layer's first region: the scaled product. -/
theorem product : W6 m ρ c (Proc.devRef .tc main_v29) = Cert.ReferenceIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 3).trans ((Cert.KernelIdeal.Region2.array_after (V5 m ρ) c).trans ?_)
  show projectCol (n := 100000) (cin := 32) (cout := 32) (W5 m ρ c (Proc.devRef .tc main_v27)) (W5 m ρ c (Proc.devRef .tc main_v28)) (W5 m ρ c (Proc.devRef .tc main_arg5)) = _
  rw [features m ρ c, outColumn m ρ c, arg5_at5 m ρ c]
  refine (projectCol_eq _ (Cert.ReferenceIdeal.Read.val_main_v9 (F := Ideal) (m ((c : Thread nD τ).loc main_arg1))) _ _ fun i => Cert.LibColumns.shapeCast_a_a1_apply _ _ i (0 : Fin 1)).trans ?_
  exact (Cert.ReferenceIdeal.Layers.product1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).symm

/-- The next host stretch: rows of the product gathered by source node, summed by destination node. -/
theorem messages : W7 m ρ c (Proc.devRef .tc main_v39) = Cert.ReferenceIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps3 (W6 m ρ c) (Proc.devRef .tc main_v39) = _
  after_results_simp
  rw [product m ρ c, arg1_at6 m ρ c, arg2_at6 m ρ c]
  unfold Cert.ReferenceIdeal.Read.val_main_v47 Cert.ReferenceIdeal.Read.val_main_v45 Cert.ReferenceIdeal.Read.val_main_cst_8 Cert.ReferenceIdeal.Read.val_main_v46 Cert.ReferenceIdeal.Read.val_main_v44 Cert.ReferenceIdeal.Read.val_main_v43 Cert.ReferenceIdeal.Read.val_main_v42 Cert.ReferenceIdeal.Read.val_main_v39 Cert.ReferenceIdeal.Read.val_main_v38 Cert.ReferenceIdeal.Read.val_main_c_6 Cert.ReferenceIdeal.Read.val_main_v41 Cert.ReferenceIdeal.Read.val_main_v40 Cert.ReferenceIdeal.Read.val_main_c_7
  rfl

/-- The in-degree factor laid out as a column. -/
theorem inColumn : W7 m ρ c (Proc.devRef .tc main_v40) = shapeCast S100000x1 (Cert.ReferenceIdeal.Read.val_main_v12 (F := Ideal) (m ((c : Thread nD τ).loc main_arg2))) shapeCasts_S100000_S100000x1 := by
  show StableHlo.after hostOps3 (W6 m ρ c) (Proc.devRef .tc main_v40) = _
  after_results_simp
  rw [inFactor_at6 m ρ c, Cert.KernelIdeal.Fold0.inFactor m ρ c]
  rfl

/-- The bias laid out as a row. -/
theorem biasRow : W7 m ρ c (Proc.devRef .tc main_v41) = shapeCast S1x32 (m ((c : Thread nD τ).loc main_arg6)) shapeCasts_S32_S1x32 := by
  show StableHlo.after hostOps3 (W6 m ρ c) (Proc.devRef .tc main_v41) = _
  after_results_simp
  rw [arg6_at6 m ρ c]
  rfl

/-- After the layer's second region: the layer's output. -/
theorem output : W8 m ρ c (Proc.devRef .tc main_v42) = Cert.ReferenceIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 3).trans ((Cert.KernelIdeal.Region3.array_after (V7 m ρ) c).trans ?_)
  show rescaleClampCol (n := 100000) (c := 32) (W7 m ρ c (Proc.devRef .tc main_v39)) (W7 m ρ c (Proc.devRef .tc main_v40)) (W7 m ρ c (Proc.devRef .tc main_v41)) = _
  rw [messages m ρ c, inColumn m ρ c, biasRow m ρ c]
  refine (rescaleClampCol_eq _ (Cert.ReferenceIdeal.Read.val_main_v12 (F := Ideal) (m ((c : Thread nD τ).loc main_arg2))) _ (m ((c : Thread nD τ).loc main_arg6)) _
    (fun i => Cert.LibColumns.shapeCast_a_a1_apply _ _ i (0 : Fin 1)) (fun j => shapeCast_a_1a_apply _ _ (0 : Fin 1) j)).trans ?_
  exact (Cert.ReferenceIdeal.Layers.output1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))).symm

end Cert.KernelIdeal.Fold1

end
-- ==== Proof.Fold2.lean ====
/-
  Layer 2 of the idealized kernel, boundary by boundary.

  A one-operation host stretch lays the out-degree factor out as a column again. The first region of the
  layer then leaves the scaled product of the features and the weights; the next host stretch gathers that array's
  rows by source node and sums them by destination node, and lays the in-degree factor and the bias out as a column
  and a row; the second region leaves the rescaled sum plus the bias, clamped below at zero. At each of these
  boundaries the array just written is the reference's stage of the same name, as a function of the launch arguments.
-/
import proofs.«159211_j16449724744842_1_alg».proof.Proof.Gen.ReferenceIdeal.Read
import proofs.«159211_j16449724744842_1_alg».proof.Proof.Carried
import proofs.«159211_j16449724744842_1_alg».proof.Proof.Region4
import proofs.«159211_j16449724744842_1_alg».proof.Proof.Region5
import proofs.«159211_j16449724744842_1_alg».proof.Proof.RefLayers
import proofs.«159211_j16449724744842_1_alg».proof.Proof.Fold1
import Idealize.ShloMosaic.Lib.StableHlo.Run
import Idealize.ShloMosaic.Lib.ValueLayout

set_option maxRecDepth 16384

noncomputable section

namespace Cert.KernelIdeal.Fold2

open Cert.KernelIdeal Cert.KernelIdeal.Gen Cert.KernelIdeal.Carried
open Idealize.ShloMosaic Idealize.ShloMosaic.TcCoe Idealize.SL.Sem Idealize.ShloMosaic.StableHlo Idealize.ShloMosaic.ValueIdx
open Cert.GraphLayer

variable (m : (ℓ : Loc nD τ sig) → Buf (Elt Ideal) ℓ) (ρ : Dev nD → PrngReg) (c : Dev nD)

/-- The out-degree factor laid out as a column again, from the buffer the first host stretch wrote. -/
theorem outColumn : W9 m ρ c (Proc.devRef .tc main_v43) = shapeCast S100000x1 (Cert.ReferenceIdeal.Read.val_main_v9 (F := Ideal) (m ((c : Thread nD τ).loc main_arg1))) shapeCasts_S100000_S100000x1 := by
  show StableHlo.after hostOps4 (W8 m ρ c) (Proc.devRef .tc main_v43) = _
  after_results
  rw [outFactor_at8 m ρ c, Cert.KernelIdeal.Fold0.outFactor m ρ c]
  rfl

/-- The features the region reads are the previous layer's output: the one-operation stretch does not write them. -/
theorem features : W9 m ρ c (Proc.devRef .tc main_v42) = Cert.ReferenceIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (by host_keeps hostOps4 : W9 m ρ c (Proc.devRef .tc main_v42) = W8 m ρ c (Proc.devRef .tc main_v42)).trans (Cert.KernelIdeal.Fold1.output m ρ c)

/-- After the layer's first region: the scaled product. -/
theorem product : W10 m ρ c (Proc.devRef .tc main_v44) = Cert.ReferenceIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 3).trans ((Cert.KernelIdeal.Region4.array_after (V9 m ρ) c).trans ?_)
  show projectCol (n := 100000) (cin := 32) (cout := 32) (W9 m ρ c (Proc.devRef .tc main_v42)) (W9 m ρ c (Proc.devRef .tc main_v43)) (W9 m ρ c (Proc.devRef .tc main_arg7)) = _
  rw [features m ρ c, outColumn m ρ c, arg7_at9 m ρ c]
  refine (projectCol_eq _ (Cert.ReferenceIdeal.Read.val_main_v9 (F := Ideal) (m ((c : Thread nD τ).loc main_arg1))) _ _ fun i => Cert.LibColumns.shapeCast_a_a1_apply _ _ i (0 : Fin 1)).trans ?_
  exact (Cert.ReferenceIdeal.Layers.product2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))).symm

/-- The next host stretch: rows of the product gathered by source node, summed by destination node. -/
theorem messages : W11 m ρ c (Proc.devRef .tc main_v54) = Cert.ReferenceIdeal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps5 (W10 m ρ c) (Proc.devRef .tc main_v54) = _
  after_results_simp
  rw [product m ρ c, arg1_at10 m ρ c, arg2_at10 m ρ c]
  unfold Cert.ReferenceIdeal.Read.val_main_v68 Cert.ReferenceIdeal.Read.val_main_v66 Cert.ReferenceIdeal.Read.val_main_cst_11 Cert.ReferenceIdeal.Read.val_main_v67 Cert.ReferenceIdeal.Read.val_main_v65 Cert.ReferenceIdeal.Read.val_main_v64 Cert.ReferenceIdeal.Read.val_main_v63 Cert.ReferenceIdeal.Read.val_main_v60 Cert.ReferenceIdeal.Read.val_main_v59 Cert.ReferenceIdeal.Read.val_main_c_9 Cert.ReferenceIdeal.Read.val_main_v62 Cert.ReferenceIdeal.Read.val_main_v61 Cert.ReferenceIdeal.Read.val_main_c_10
  rfl

/-- The in-degree factor laid out as a column. -/
theorem inColumn : W11 m ρ c (Proc.devRef .tc main_v55) = shapeCast S100000x1 (Cert.ReferenceIdeal.Read.val_main_v12 (F := Ideal) (m ((c : Thread nD τ).loc main_arg2))) shapeCasts_S100000_S100000x1 := by
  show StableHlo.after hostOps5 (W10 m ρ c) (Proc.devRef .tc main_v55) = _
  after_results_simp
  rw [inFactor_at10 m ρ c, Cert.KernelIdeal.Fold0.inFactor m ρ c]
  rfl

/-- The bias laid out as a row. -/
theorem biasRow : W11 m ρ c (Proc.devRef .tc main_v56) = shapeCast S1x32 (m ((c : Thread nD τ).loc main_arg8)) shapeCasts_S32_S1x32 := by
  show StableHlo.after hostOps5 (W10 m ρ c) (Proc.devRef .tc main_v56) = _
  after_results_simp
  rw [arg8_at10 m ρ c]
  rfl

/-- After the layer's second region: the layer's output. -/
theorem output : W12 m ρ c (Proc.devRef .tc main_v57) = Cert.ReferenceIdeal.Read.val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W12_arr m ρ c 3).trans ((Cert.KernelIdeal.Region5.array_after (V11 m ρ) c).trans ?_)
  show rescaleClampCol (n := 100000) (c := 32) (W11 m ρ c (Proc.devRef .tc main_v54)) (W11 m ρ c (Proc.devRef .tc main_v55)) (W11 m ρ c (Proc.devRef .tc main_v56)) = _
  rw [messages m ρ c, inColumn m ρ c, biasRow m ρ c]
  refine (rescaleClampCol_eq _ (Cert.ReferenceIdeal.Read.val_main_v12 (F := Ideal) (m ((c : Thread nD τ).loc main_arg2))) _ (m ((c : Thread nD τ).loc main_arg8)) _
    (fun i => Cert.LibColumns.shapeCast_a_a1_apply _ _ i (0 : Fin 1)) (fun j => shapeCast_a_1a_apply _ _ (0 : Fin 1) j)).trans ?_
  exact (Cert.ReferenceIdeal.Layers.output2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))).symm

end Cert.KernelIdeal.Fold2

end
-- ==== Proof.Fold3.lean ====
/-
  Layer 3 of the idealized kernel, boundary by boundary.

  A one-operation host stretch lays the out-degree factor out as a column again. The first region of the
  layer then leaves the scaled product of the features and the weights; the next host stretch gathers that array's
  rows by source node and sums them by destination node, and lays the in-degree factor and the bias out as a column
  and a row; the second region leaves the rescaled sum plus the bias. At each of these
  boundaries the array just written is the reference's stage of the same name, as a function of the launch arguments.
-/
import proofs.«159211_j16449724744842_1_alg».proof.Proof.Gen.ReferenceIdeal.Read
import proofs.«159211_j16449724744842_1_alg».proof.Proof.Carried
import proofs.«159211_j16449724744842_1_alg».proof.Proof.Region6
import proofs.«159211_j16449724744842_1_alg».proof.Proof.Region7
import proofs.«159211_j16449724744842_1_alg».proof.Proof.RefLayers
import proofs.«159211_j16449724744842_1_alg».proof.Proof.Fold2
import Idealize.ShloMosaic.Lib.StableHlo.Run
import Idealize.ShloMosaic.Lib.ValueLayout

set_option maxRecDepth 16384

noncomputable section

namespace Cert.KernelIdeal.Fold3

open Cert.KernelIdeal Cert.KernelIdeal.Gen Cert.KernelIdeal.Carried
open Idealize.ShloMosaic Idealize.ShloMosaic.TcCoe Idealize.SL.Sem Idealize.ShloMosaic.StableHlo Idealize.ShloMosaic.ValueIdx
open Cert.GraphLayer

variable (m : (ℓ : Loc nD τ sig) → Buf (Elt Ideal) ℓ) (ρ : Dev nD → PrngReg) (c : Dev nD)

/-- The out-degree factor laid out as a column again, from the buffer the first host stretch wrote. -/
theorem outColumn : W13 m ρ c (Proc.devRef .tc main_v58) = shapeCast S100000x1 (Cert.ReferenceIdeal.Read.val_main_v9 (F := Ideal) (m ((c : Thread nD τ).loc main_arg1))) shapeCasts_S100000_S100000x1 := by
  show StableHlo.after hostOps6 (W12 m ρ c) (Proc.devRef .tc main_v58) = _
  after_results
  rw [outFactor_at12 m ρ c, Cert.KernelIdeal.Fold0.outFactor m ρ c]
  rfl

/-- The features the region reads are the previous layer's output: the one-operation stretch does not write them. -/
theorem features : W13 m ρ c (Proc.devRef .tc main_v57) = Cert.ReferenceIdeal.Read.val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (by host_keeps hostOps6 : W13 m ρ c (Proc.devRef .tc main_v57) = W12 m ρ c (Proc.devRef .tc main_v57)).trans (Cert.KernelIdeal.Fold2.output m ρ c)

/-- After the layer's first region: the scaled product. -/
theorem product : W14 m ρ c (Proc.devRef .tc main_v59) = Cert.ReferenceIdeal.Read.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W14_arr m ρ c 3).trans ((Cert.KernelIdeal.Region6.array_after (V13 m ρ) c).trans ?_)
  show projectCol (n := 100000) (cin := 32) (cout := 8) (W13 m ρ c (Proc.devRef .tc main_v57)) (W13 m ρ c (Proc.devRef .tc main_v58)) (W13 m ρ c (Proc.devRef .tc main_arg9)) = _
  rw [features m ρ c, outColumn m ρ c, arg9_at13 m ρ c]
  refine (projectCol_eq _ (Cert.ReferenceIdeal.Read.val_main_v9 (F := Ideal) (m ((c : Thread nD τ).loc main_arg1))) _ _ fun i => Cert.LibColumns.shapeCast_a_a1_apply _ _ i (0 : Fin 1)).trans ?_
  exact (Cert.ReferenceIdeal.Layers.product3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).symm

/-- The next host stretch: rows of the product gathered by source node, summed by destination node. -/
theorem messages : W15 m ρ c (Proc.devRef .tc main_v69) = Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps7 (W14 m ρ c) (Proc.devRef .tc main_v69) = _
  after_results_simp
  rw [product m ρ c, arg1_at14 m ρ c, arg2_at14 m ρ c]
  unfold Cert.ReferenceIdeal.Read.val_main_v89 Cert.ReferenceIdeal.Read.val_main_v87 Cert.ReferenceIdeal.Read.val_main_cst_14 Cert.ReferenceIdeal.Read.val_main_v88 Cert.ReferenceIdeal.Read.val_main_v86 Cert.ReferenceIdeal.Read.val_main_v85 Cert.ReferenceIdeal.Read.val_main_v84 Cert.ReferenceIdeal.Read.val_main_v81 Cert.ReferenceIdeal.Read.val_main_v80 Cert.ReferenceIdeal.Read.val_main_c_12 Cert.ReferenceIdeal.Read.val_main_v83 Cert.ReferenceIdeal.Read.val_main_v82 Cert.ReferenceIdeal.Read.val_main_c_13
  rfl

/-- The in-degree factor laid out as a column. -/
theorem inColumn : W15 m ρ c (Proc.devRef .tc main_v70) = shapeCast S100000x1 (Cert.ReferenceIdeal.Read.val_main_v12 (F := Ideal) (m ((c : Thread nD τ).loc main_arg2))) shapeCasts_S100000_S100000x1 := by
  show StableHlo.after hostOps7 (W14 m ρ c) (Proc.devRef .tc main_v70) = _
  after_results_simp
  rw [inFactor_at14 m ρ c, Cert.KernelIdeal.Fold0.inFactor m ρ c]
  rfl

/-- The bias laid out as a row. -/
theorem biasRow : W15 m ρ c (Proc.devRef .tc main_v71) = shapeCast S1x8 (m ((c : Thread nD τ).loc main_arg10)) shapeCasts_S8_S1x8 := by
  show StableHlo.after hostOps7 (W14 m ρ c) (Proc.devRef .tc main_v71) = _
  after_results_simp
  rw [arg10_at14 m ρ c]
  rfl

/-- After the layer's second region: the layer's output. -/
theorem output : W16 m ρ c (Proc.devRef .tc main_v72) = Cert.ReferenceIdeal.Read.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W16_arr m ρ c 3).trans ((Cert.KernelIdeal.Region7.array_after (V15 m ρ) c).trans ?_)
  show rescaleCol (n := 100000) (c := 8) (W15 m ρ c (Proc.devRef .tc main_v69)) (W15 m ρ c (Proc.devRef .tc main_v70)) (W15 m ρ c (Proc.devRef .tc main_v71)) = _
  rw [messages m ρ c, inColumn m ρ c, biasRow m ρ c]
  refine (rescaleCol_eq _ (Cert.ReferenceIdeal.Read.val_main_v12 (F := Ideal) (m ((c : Thread nD τ).loc main_arg2))) _ (m ((c : Thread nD τ).loc main_arg10)) _
    (fun i => Cert.LibColumns.shapeCast_a_a1_apply _ _ i (0 : Fin 1)) (fun j => shapeCast_a_1a_apply _ _ (0 : Fin 1) j)).trans ?_
  exact (Cert.ReferenceIdeal.Layers.output3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))).symm

end Cert.KernelIdeal.Fold3

end
-- ==== Proof.lean ====
/-
  A four-layer graph convolution: the kernel against its reference, on the extended reals.

  Both programs compute, from node features X, edge lists (src, dst) and four weight/bias pairs, the per-node factors
  s_out = rsqrt (max (out-degree, 1)) and s_in = rsqrt (max (in-degree, 1)), and then four times
      h ← (Σ over edges into a node of ((h · s_out) W) at the edge's source) · s_in + b,
  clamped below at zero after each of the first three layers. The kernel does the two dense steps of every layer
  — the scaled product and the rescale-plus-bias — in eight tiled regions of 4000 rows each, and leaves the gather
  along edges and the sum by destination to the same host operations the reference uses.

  At the ideal instance a change of float format is the identity and the matrix unit accumulating into zero is the
  plain sum, so each region leaves, row block by row block, exactly the array the reference's corresponding stage
  denotes; the host stretches in between apply the same operations to equal arrays. No sum is re-associated and no
  product is distributed over a sum, so the finiteness of the inputs is not used. Walking the kernel's buffer contents
  through its sixteen segment boundaries, the result array ends at the reference's last stage as a function of the
  launch arguments, which is what the reference's own run ends with.

  The three frames are the generated ones (the reference's is its run with the result forgotten); the idealization
  rewrote no operation, so there is nothing to preserve.
-/
import proofs.«159211_j16449724744842_1_alg».proof.Defs
import proofs.«159211_j16449724744842_1_alg».proof.Proof.Gen.Kernel
import proofs.«159211_j16449724744842_1_alg».proof.Proof.Gen.Kernel.Skeleton
import proofs.«159211_j16449724744842_1_alg».proof.Proof.Gen.Kernel.Launch
import proofs.«159211_j16449724744842_1_alg».proof.Proof.Gen.Kernel.Points
import proofs.«159211_j16449724744842_1_alg».proof.Proof.Gen.Kernel.Frame
import proofs.«159211_j16449724744842_1_alg».proof.Proof.Gen.KernelIdeal
import proofs.«159211_j16449724744842_1_alg».proof.Proof.Gen.KernelIdeal.Skeleton
import proofs.«159211_j16449724744842_1_alg».proof.Proof.Gen.KernelIdeal.Launch
import proofs.«159211_j16449724744842_1_alg».proof.Proof.Gen.KernelIdeal.Points
import proofs.«159211_j16449724744842_1_alg».proof.Proof.Gen.KernelIdeal.Frame
import proofs.«159211_j16449724744842_1_alg».proof.Proof.Gen.ReferenceIdeal
import proofs.«159211_j16449724744842_1_alg».proof.Proof.Gen.ReferenceIdeal.Run
import proofs.«159211_j16449724744842_1_alg».proof.Proof.Gen.ReferenceIdeal.Read
import proofs.«159211_j16449724744842_1_alg».proof.Proof.Gen.Pre_finite_inputs
import proofs.«159211_j16449724744842_1_alg».proof.Proof.FinalContents
import proofs.«159211_j16449724744842_1_alg».proof.Proof.Fold3
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the reference's last stage of the launch arguments in the result array. -/
theorem algebraic : Cert.algebraic_KernelIdeal_ReferenceIdeal := by
  intro m ρ m' ρ' _ hagree
  refine ⟨fun c => Cert.ReferenceIdeal.Read.val_main_v95 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c => ⟨(h c).1.trans (Cert.KernelIdeal.Fold3.output m ρ c), (h c).2⟩)
      (Cert.KernelIdeal.FinalContents.run (F := Ideal) m ρ)
  · refine (θ_run Cert.ReferenceIdeal.defs _ _).mono (fun r h c => ⟨(h c).1.trans ?_, (h c).2⟩) (Cert.ReferenceIdeal.Value.run (F := Ideal) m' ρ')
    obtain ⟨h0, h1, h2, h3, h4, h5, h6, h7, h8, h9, h10⟩ := hagree c
    rw [Cert.ReferenceIdeal.Read.val_main_v95_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
